-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v108)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v108) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v135) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg9 : FVec F S64x32 .f32) (main_arg10 : FVec F S32 .f32) (main_arg11 : FVec F S32x1 .f32) (main_arg12 : FVec F S1 .f32) (main_v33 : IVec S_ 1) : IVec S_ 1 :=
  let main_v34 : FVec F S64x32 .f32 := Host.absf main_arg9
  let main_cst_12 : FVec F S_ .f32 := constant S_ .f32 0x7F800000#32
  let main_v35 : FVec F S64x32 .f32 := broadcastInDim S64x32 ![] bcast_S_S64x32 main_cst_12
  let main_v36 : IVec S64x32 1 := cmpf .olt main_v34 main_v35
  let main_c_13 : IVec S_ 1 := constantI S_ 1 1#1
  let main_v37 : IVec S_ 1 := (fun x v => Host.reduce IntOp.andi x v reducesTo_S64x32_S_d0_1 h_S_) main_v36 main_c_13
  let main_v38 : IVec S_ 1 := andi main_v33 main_v37
  let main_v39 : FVec F S32 .f32 := Host.absf main_arg10
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x1 .f32 := Host.absf main_arg11
  let main_cst_16 : FVec F S_ .f32 := constant S_ .f32 0x7F800000#32
  let main_v45 : FVec F S32x1 .f32 := broadcastInDim S32x1 ![] bcast_S_S32x1 main_cst_16
  let main_v46 : IVec S32x1 1 := cmpf .olt main_v44 main_v45
  let main_c_17 : IVec S_ 1 := constantI S_ 1 1#1
  let main_v47 : IVec S_ 1 := (fun x v => Host.reduce IntOp.andi x v reducesTo_S32x1_S_d0_1 h_S_) main_v46 main_c_17
  let main_v48 : IVec S_ 1 := andi main_v43 main_v47
  let main_v49 : FVec F S1 .f32 := Host.absf main_arg12
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg6 : FVec F S64 .f32) (main_arg7 : FVec F S64x64 .f32) (main_arg8 : FVec F S64 .f32) (main_arg9 : FVec F S64x32 .f32) (main_arg10 : FVec F S32 .f32) (main_arg11 : FVec F S32x1 .f32) (main_arg12 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x128 .f32) (main_arg1 : IVec S2x1600000 32) (main_arg2 : IVec S100000 32) (main_arg3 : FVec F S128x64 .f32) (main_arg4 : FVec F S64 .f32) (main_arg5 : FVec F S64x64 .f32) (main_arg6 : FVec F S64 .f32) (main_arg7 : FVec F S64x64 .f32) (main_arg8 : FVec F S64 .f32) (main_arg9 : FVec F S64x32 .f32) (main_arg10 : FVec F S32 .f32) (main_arg11 : FVec F S32x1 .f32) (main_arg12 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_arg11 main_arg12 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S1x64 : Shape := ⟨2, ![1, 64]⟩
abbrev S100000x64 : Shape := ⟨2, ![100000, 64]⟩
abbrev S5000x128 : Shape := ⟨2, ![5000, 128]⟩
abbrev S5000x64 : Shape := ⟨2, ![5000, 64]⟩
abbrev S1600000x64 : Shape := ⟨2, ![1600000, 64]⟩
abbrev S8000x64 : Shape := ⟨2, ![8000, 64]⟩
abbrev S8000x1 : Shape := ⟨2, ![8000, 1]⟩
abbrev S5000x1 : Shape := ⟨2, ![5000, 1]⟩
abbrev S2048x64 : Shape := ⟨2, ![2048, 64]⟩
abbrev S1x32 : Shape := ⟨2, ![1, 32]⟩
abbrev S1x1 : Shape := ⟨2, ![1, 1]⟩
abbrev S2048x1 : Shape := ⟨2, ![2048, 1]⟩
abbrev S2048x32 : Shape := ⟨2, ![2048, 32]⟩

abbrev nBuf : Space → Nat
  | .hbm => 147
  | .vmem => 66
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x32, .f32⟩
  | 10 => ⟨S32, .f32⟩
  | 11 => ⟨S32x1, .f32⟩
  | 12 => ⟨S1, .f32⟩
  | 13 => ⟨S1x1600000, .i32⟩
  | 14 => ⟨S1600000, .i32⟩
  | 15 => ⟨S1x1600000, .i32⟩
  | 16 => ⟨S1600000, .i32⟩
  | 17 => ⟨S_, .f32⟩
  | 18 => ⟨S1600000, .f32⟩
  | 19 => ⟨S_, .f32⟩
  | 20 => ⟨S100000, .f32⟩
  | 21 => ⟨S1600000x1, .i32⟩
  | 22 => ⟨S100000, .f32⟩
  | 23 => ⟨S_, .f32⟩
  | 24 => ⟨S100000, .f32⟩
  | 25 => ⟨S100000, .f32⟩
  | 26 => ⟨S100000, .f32⟩
  | 27 => ⟨S100000, .f32⟩
  | 28 => ⟨S100000x1, .f32⟩
  | 29 => ⟨S1x64, .f32⟩
  | 30 => ⟨S1x64, .f32⟩
  | 31 => ⟨S1x64, .f32⟩
  | 32 => ⟨S100000x64, .f32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1600000, .f32⟩
  | 42 => ⟨S_, .i32⟩
  | 43 => ⟨S1600000, .i32⟩
  | 44 => ⟨S1600000, .i1⟩
  | 45 => ⟨S_, .i32⟩
  | 46 => ⟨S1600000, .i32⟩
  | 47 => ⟨S1600000, .i32⟩
  | 48 => ⟨S1600000, .i32⟩
  | 49 => ⟨S1600000x1, .i32⟩
  | 50 => ⟨S1600000, .f32⟩
  | 51 => ⟨S1600000, .f32⟩
  | 52 => ⟨S1600000x1, .f32⟩
  | 53 => ⟨S_, .i32⟩
  | 54 => ⟨S1600000, .i32⟩
  | 55 => ⟨S1600000, .i1⟩
  | 56 => ⟨S_, .i32⟩
  | 57 => ⟨S1600000, .i32⟩
  | 58 => ⟨S1600000, .i32⟩
  | 59 => ⟨S1600000, .i32⟩
  | 60 => ⟨S1600000x1, .i32⟩
  | 61 => ⟨S1600000x64, .f32⟩
  | 62 => ⟨S1600000x64, .f32⟩
  | 63 => ⟨S_, .f32⟩
  | 64 => ⟨S100000x64, .f32⟩
  | 65 => ⟨S1600000x1, .i32⟩
  | 66 => ⟨S100000x64, .f32⟩
  | 67 => ⟨S100000x64, .f32⟩
  | 68 => ⟨S100000x64, .f32⟩
  | 69 => ⟨S_, .i32⟩
  | 70 => ⟨S1600000, .i32⟩
  | 71 => ⟨S1600000, .i1⟩
  | 72 => ⟨S_, .i32⟩
  | 73 => ⟨S1600000, .i32⟩
  | 74 => ⟨S1600000, .i32⟩
  | 75 => ⟨S1600000, .i32⟩
  | 76 => ⟨S1600000x1, .i32⟩
  | 77 => ⟨S1600000, .f32⟩
  | 78 => ⟨S_, .i32⟩
  | 79 => ⟨S1600000, .i32⟩
  | 80 => ⟨S1600000, .i1⟩
  | 81 => ⟨S_, .i32⟩
  | 82 => ⟨S1600000, .i32⟩
  | 83 => ⟨S1600000, .i32⟩
  | 84 => ⟨S1600000, .i32⟩
  | 85 => ⟨S1600000x1, .i32⟩
  | 86 => ⟨S1600000, .f32⟩
  | 87 => ⟨S1600000, .f32⟩
  | 88 => ⟨S1600000x1, .f32⟩
  | 89 => ⟨S_, .i32⟩
  | 90 => ⟨S1600000, .i32⟩
  | 91 => ⟨S1600000, .i1⟩
  | 92 => ⟨S_, .i32⟩
  | 93 => ⟨S1600000, .i32⟩
  | 94 => ⟨S1600000, .i32⟩
  | 95 => ⟨S1600000, .i32⟩
  | 96 => ⟨S1600000x1, .i32⟩
  | 97 => ⟨S1600000x64, .f32⟩
  | 98 => ⟨S1600000x64, .f32⟩
  | 99 => ⟨S_, .f32⟩
  | 100 => ⟨S100000x64, .f32⟩
  | 101 => ⟨S1600000x1, .i32⟩
  | 102 => ⟨S100000x64, .f32⟩
  | 103 => ⟨S100000x64, .f32⟩
  | 104 => ⟨S100000x64, .f32⟩
  | 105 => ⟨S_, .i32⟩
  | 106 => ⟨S1600000, .i32⟩
  | 107 => ⟨S1600000, .i1⟩
  | 108 => ⟨S_, .i32⟩
  | 109 => ⟨S1600000, .i32⟩
  | 110 => ⟨S1600000, .i32⟩
  | 111 => ⟨S1600000, .i32⟩
  | 112 => ⟨S1600000x1, .i32⟩
  | 113 => ⟨S1600000, .f32⟩
  | 114 => ⟨S_, .i32⟩
  | 115 => ⟨S1600000, .i32⟩
  | 116 => ⟨S1600000, .i1⟩
  | 117 => ⟨S_, .i32⟩
  | 118 => ⟨S1600000, .i32⟩
  | 119 => ⟨S1600000, .i32⟩
  | 120 => ⟨S1600000, .i32⟩
  | 121 => ⟨S1600000x1, .i32⟩
  | 122 => ⟨S1600000, .f32⟩
  | 123 => ⟨S1600000, .f32⟩
  | 124 => ⟨S1600000x1, .f32⟩
  | 125 => ⟨S_, .i32⟩
  | 126 => ⟨S1600000, .i32⟩
  | 127 => ⟨S1600000, .i1⟩
  | _ => ⟨S100000x128, .f32⟩

abbrev hbmTy0_1 (i : Nat) : BufTy := match i % 128 with
  | 0 => ⟨S_, .i32⟩
  | 1 => ⟨S1600000, .i32⟩
  | 2 => ⟨S1600000, .i32⟩
  | 3 => ⟨S1600000, .i32⟩
  | 4 => ⟨S1600000x1, .i32⟩
  | 5 => ⟨S1600000x64, .f32⟩
  | 6 => ⟨S1600000x64, .f32⟩
  | 7 => ⟨S_, .f32⟩
  | 8 => ⟨S100000x64, .f32⟩
  | 9 => ⟨S1600000x1, .i32⟩
  | 10 => ⟨S100000x64, .f32⟩
  | 11 => ⟨S100000x64, .f32⟩
  | 12 => ⟨S_, .f32⟩
  | 13 => ⟨S2048x64, .f32⟩
  | 14 => ⟨S100000x1, .i32⟩
  | 15 => ⟨S2048x64, .f32⟩
  | 16 => ⟨S1x32, .f32⟩
  | 17 => ⟨S1x1, .f32⟩
  | 18 => ⟨S2048x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S8000x64, .f32⟩
  | .local _ .vmem, ⟨6, _⟩ => ⟨S8000x64, .f32⟩
  | .local _ .vmem, ⟨7, _⟩ => ⟨S8000x1, .f32⟩
  | .local _ .vmem, ⟨8, _⟩ => ⟨S8000x1, .f32⟩
  | .local _ .vmem, ⟨9, _⟩ => ⟨S8000x64, .f32⟩
  | .local _ .vmem, ⟨10, _⟩ => ⟨S8000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x1, .f32⟩
  | .local _ .vmem, ⟨16, _⟩ => ⟨S5000x1, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S64x64, .f32⟩
  | .local _ .vmem, ⟨23, _⟩ => ⟨S5000x64, .f32⟩
  | .local _ .vmem, ⟨24, _⟩ => ⟨S5000x64, .f32⟩
  | .local _ .vmem, ⟨25, _⟩ => ⟨S8000x64, .f32⟩
  | .local _ .vmem, ⟨26, _⟩ => ⟨S8000x64, .f32⟩
  | .local _ .vmem, ⟨27, _⟩ => ⟨S8000x1, .f32⟩
  | .local _ .vmem, ⟨28, _⟩ => ⟨S8000x1, .f32⟩
  | .local _ .vmem, ⟨29, _⟩ => ⟨S8000x64, .f32⟩
  | .local _ .vmem, ⟨30, _⟩ => ⟨S8000x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S5000x1, .f32⟩
  | .local _ .vmem, ⟨36, _⟩ => ⟨S5000x1, .f32⟩
  | .local _ .vmem, ⟨37, _⟩ => ⟨S1x64, .f32⟩
  | .local _ .vmem, ⟨38, _⟩ => ⟨S5000x64, .f32⟩
  | .local _ .vmem, ⟨39, _⟩ => ⟨S5000x64, .f32⟩
  | .local _ .vmem, ⟨40, _⟩ => ⟨S5000x64, .f32⟩
  | .local _ .vmem, ⟨41, _⟩ => ⟨S5000x64, .f32⟩
  | .local _ .vmem, ⟨42, _⟩ => ⟨S64x64, .f32⟩
  | .local _ .vmem, ⟨43, _⟩ => ⟨S5000x64, .f32⟩
  | .local _ .vmem, ⟨44, _⟩ => ⟨S5000x64, .f32⟩
  | .local _ .vmem, ⟨45, _⟩ => ⟨S8000x64, .f32⟩
  | .local _ .vmem, ⟨46, _⟩ => ⟨S8000x64, .f32⟩
  | .local _ .vmem, ⟨47, _⟩ => ⟨S8000x1, .f32⟩
  | .local _ .vmem, ⟨48, _⟩ => ⟨S8000x1, .f32⟩
  | .local _ .vmem, ⟨49, _⟩ => ⟨S8000x64, .f32⟩
  | .local _ .vmem, ⟨50, _⟩ => ⟨S8000x64, .f32⟩
  | .local _ .vmem, ⟨51, _⟩ => ⟨S5000x64, .f32⟩
  | .local _ .vmem, ⟨52, _⟩ => ⟨S5000x64, .f32⟩
  | .local _ .vmem, ⟨53, _⟩ => ⟨S5000x64, .f32⟩
  | .local _ .vmem, ⟨54, _⟩ => ⟨S5000x64, .f32⟩
  | .local _ .vmem, ⟨55, _⟩ => ⟨S5000x1, .f32⟩
  | .local _ .vmem, ⟨56, _⟩ => ⟨S5000x1, .f32⟩
  | .local _ .vmem, ⟨57, _⟩ => ⟨S1x64, .f32⟩
  | .local _ .vmem, ⟨58, _⟩ => ⟨S5000x64, .f32⟩
  | .local _ .vmem, ⟨59, _⟩ => ⟨S5000x64, .f32⟩
  | .local _ .vmem, ⟨60, _⟩ => ⟨S2048x64, .f32⟩
  | .local _ .vmem, ⟨61, _⟩ => ⟨S64x32, .f32⟩
  | .local _ .vmem, ⟨62, _⟩ => ⟨S1x32, .f32⟩
  | .local _ .vmem, ⟨63, _⟩ => ⟨S32x1, .f32⟩
  | .local _ .vmem, ⟨64, _⟩ => ⟨S1x1, .f32⟩
  | .local _ .vmem, ⟨65, _⟩ => ⟨S2048x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | _, _ => false

abbrev semScoped : Fin 0 → Bool
  | ⟨_, h⟩ => absurd h (Nat.not_lt_zero _)

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  ofTc nBuf bufTy 0 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_2 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_3 : Ref sig .tc := ⟨.hbm, 42, rfl⟩
abbrev main_v24 : Ref sig .tc := ⟨.hbm, 43, rfl⟩
abbrev main_v25 : Ref sig .tc := ⟨.hbm, 44, rfl⟩
abbrev main_c_4 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_5 : Ref sig .tc := ⟨.hbm, 53, rfl⟩
abbrev main_v33 : Ref sig .tc := ⟨.hbm, 54, rfl⟩
abbrev main_v34 : Ref sig .tc := ⟨.hbm, 55, rfl⟩
abbrev main_c_6 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_7 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_c_8 : Ref sig .tc := ⟨.hbm, 69, rfl⟩
abbrev main_v46 : Ref sig .tc := ⟨.hbm, 70, rfl⟩
abbrev main_v47 : Ref sig .tc := ⟨.hbm, 71, rfl⟩
abbrev main_c_9 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_c_10 : Ref sig .tc := ⟨.hbm, 78, rfl⟩
abbrev main_v53 : Ref sig .tc := ⟨.hbm, 79, rfl⟩
abbrev main_v54 : Ref sig .tc := ⟨.hbm, 80, rfl⟩
abbrev main_c_11 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_c_12 : Ref sig .tc := ⟨.hbm, 89, rfl⟩
abbrev main_v62 : Ref sig .tc := ⟨.hbm, 90, rfl⟩
abbrev main_v63 : Ref sig .tc := ⟨.hbm, 91, rfl⟩
abbrev main_c_13 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_cst_14 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_c_15 : Ref sig .tc := ⟨.hbm, 105, rfl⟩
abbrev main_v75 : Ref sig .tc := ⟨.hbm, 106, rfl⟩
abbrev main_v76 : Ref sig .tc := ⟨.hbm, 107, rfl⟩
abbrev main_c_16 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_c_17 : Ref sig .tc := ⟨.hbm, 114, rfl⟩
abbrev main_v82 : Ref sig .tc := ⟨.hbm, 115, rfl⟩
abbrev main_v83 : Ref sig .tc := ⟨.hbm, 116, rfl⟩
abbrev main_c_18 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_c_19 : Ref sig .tc := ⟨.hbm, 125, rfl⟩
abbrev main_v91 : Ref sig .tc := ⟨.hbm, 126, rfl⟩
abbrev main_v92 : Ref sig .tc := ⟨.hbm, 127, rfl⟩
abbrev main_c_20 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_cst_21 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_cst_22 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg4_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg2_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg1_1 : Ref sig .tc := ⟨.vmem, 28, rfl⟩
abbrev cc4_stg2_0 : Ref sig .tc := ⟨.vmem, 29, rfl⟩
abbrev cc4_stg2_1 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg1_1 : Ref sig .tc := ⟨.vmem, 34, rfl⟩
abbrev cc5_stg2_0 : Ref sig .tc := ⟨.vmem, 35, rfl⟩
abbrev cc5_stg2_1 : Ref sig .tc := ⟨.vmem, 36, rfl⟩
abbrev cc5_stg3_0 : Ref sig .tc := ⟨.vmem, 37, rfl⟩
abbrev cc5_stg4_0 : Ref sig .tc := ⟨.vmem, 38, rfl⟩
abbrev cc5_stg4_1 : Ref sig .tc := ⟨.vmem, 39, rfl⟩
abbrev cc6_stg0_0 : Ref sig .tc := ⟨.vmem, 40, rfl⟩
abbrev cc6_stg0_1 : Ref sig .tc := ⟨.vmem, 41, rfl⟩
abbrev cc6_stg1_0 : Ref sig .tc := ⟨.vmem, 42, rfl⟩
abbrev cc6_stg2_0 : Ref sig .tc := ⟨.vmem, 43, rfl⟩
abbrev cc6_stg2_1 : Ref sig .tc := ⟨.vmem, 44, rfl⟩
abbrev cc7_stg0_0 : Ref sig .tc := ⟨.vmem, 45, rfl⟩
abbrev cc7_stg0_1 : Ref sig .tc := ⟨.vmem, 46, rfl⟩
abbrev cc7_stg1_0 : Ref sig .tc := ⟨.vmem, 47, rfl⟩
abbrev cc7_stg1_1 : Ref sig .tc := ⟨.vmem, 48, rfl⟩
abbrev cc7_stg2_0 : Ref sig .tc := ⟨.vmem, 49, rfl⟩
abbrev cc7_stg2_1 : Ref sig .tc := ⟨.vmem, 50, rfl⟩
abbrev cc8_stg0_0 : Ref sig .tc := ⟨.vmem, 51, rfl⟩
abbrev cc8_stg0_1 : Ref sig .tc := ⟨.vmem, 52, rfl⟩
abbrev cc8_stg1_0 : Ref sig .tc := ⟨.vmem, 53, rfl⟩
abbrev cc8_stg1_1 : Ref sig .tc := ⟨.vmem, 54, rfl⟩
abbrev cc8_stg2_0 : Ref sig .tc := ⟨.vmem, 55, rfl⟩
abbrev cc8_stg2_1 : Ref sig .tc := ⟨.vmem, 56, rfl⟩
abbrev cc8_stg3_0 : Ref sig .tc := ⟨.vmem, 57, rfl⟩
abbrev cc8_stg4_0 : Ref sig .tc := ⟨.vmem, 58, rfl⟩
abbrev cc8_stg4_1 : Ref sig .tc := ⟨.vmem, 59, rfl⟩
abbrev cc9_stg0_0 : Ref sig .tc := ⟨.vmem, 60, rfl⟩
abbrev cc9_stg1_0 : Ref sig .tc := ⟨.vmem, 61, rfl⟩
abbrev cc9_stg2_0 : Ref sig .tc := ⟨.vmem, 62, rfl⟩
abbrev cc9_stg3_0 : Ref sig .tc := ⟨.vmem, 63, rfl⟩
abbrev cc9_stg4_0 : Ref sig .tc := ⟨.vmem, 64, rfl⟩
abbrev cc9_stg5_0 : Ref sig .tc := ⟨.vmem, 65, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc2_sem3_0 : DmaSem sig := 17
abbrev cc2_sem4_0 : DmaSem sig := 18
abbrev cc2_sem4_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem2_1 : DmaSem sig := 24
abbrev cc4_sem0_0 : DmaSem sig := 25
abbrev cc4_sem0_1 : DmaSem sig := 26
abbrev cc4_sem1_0 : DmaSem sig := 27
abbrev cc4_sem1_1 : DmaSem sig := 28
abbrev cc4_sem2_0 : DmaSem sig := 29
abbrev cc4_sem2_1 : DmaSem sig := 30
abbrev cc5_sem0_0 : DmaSem sig := 31
abbrev cc5_sem0_1 : DmaSem sig := 32
abbrev cc5_sem1_0 : DmaSem sig := 33
abbrev cc5_sem1_1 : DmaSem sig := 34
abbrev cc5_sem2_0 : DmaSem sig := 35
abbrev cc5_sem2_1 : DmaSem sig := 36
abbrev cc5_sem3_0 : DmaSem sig := 37
abbrev cc5_sem4_0 : DmaSem sig := 38
abbrev cc5_sem4_1 : DmaSem sig := 39
abbrev cc6_sem0_0 : DmaSem sig := 40
abbrev cc6_sem0_1 : DmaSem sig := 41
abbrev cc6_sem1_0 : DmaSem sig := 42
abbrev cc6_sem2_0 : DmaSem sig := 43
abbrev cc6_sem2_1 : DmaSem sig := 44
abbrev cc7_sem0_0 : DmaSem sig := 45
abbrev cc7_sem0_1 : DmaSem sig := 46
abbrev cc7_sem1_0 : DmaSem sig := 47
abbrev cc7_sem1_1 : DmaSem sig := 48
abbrev cc7_sem2_0 : DmaSem sig := 49
abbrev cc7_sem2_1 : DmaSem sig := 50
abbrev cc8_sem0_0 : DmaSem sig := 51
abbrev cc8_sem0_1 : DmaSem sig := 52
abbrev cc8_sem1_0 : DmaSem sig := 53
abbrev cc8_sem1_1 : DmaSem sig := 54
abbrev cc8_sem2_0 : DmaSem sig := 55
abbrev cc8_sem2_1 : DmaSem sig := 56
abbrev cc8_sem3_0 : DmaSem sig := 57
abbrev cc8_sem4_0 : DmaSem sig := 58
abbrev cc8_sem4_1 : DmaSem sig := 59
abbrev cc9_sem0_0 : DmaSem sig := 60
abbrev cc9_sem1_0 : DmaSem sig := 61
abbrev cc9_sem2_0 : DmaSem sig := 62
abbrev cc9_sem3_0 : DmaSem sig := 63
abbrev cc9_sem4_0 : DmaSem sig := 64
abbrev cc9_sem5_0 : DmaSem sig := 65

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![200], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S8000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![200], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S8000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S8000x1 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S8000x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x64 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S5000x1 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 1 → Memref sig .tc .vmem S1x64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 2 → Memref sig .tc .vmem S5000x64 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev grid9 : Pipeline.Grid := ⟨1, ![1], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 1 → Memref sig .tc .vmem S2048x64 .f32 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![false]

abbrev stage9_1 : Fin 1 → Memref sig .tc .vmem S64x32 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x32 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S32x1 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x1 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S2048x1 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  shapeCasts_S1600000_S1600000x1 : S1600000.ShapeCasts S1600000x1
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  broadcasts_S8000x1_S8000x64 : S8000x1.Broadcasts S8000x64
  bcast_S_S100000x64 : S_.BroadcastsInDim S100000x64 (![] : Fin 0 → Fin S100000x64.rank)
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  bcast_S_S2048x64 : S_.BroadcastsInDim S2048x64 (![] : Fin 0 → Fin S2048x64.rank)
  bcast_S100000_S100000x1_0 : S100000.BroadcastsInDim S100000x1 (![0] : Fin 1 → Fin S100000x1.rank)
  shapeCasts_S32_S1x32 : S32.ShapeCasts S1x32
  shapeCasts_S1_S1x1 : S1.ShapeCasts S1x1
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2048x32 : S1x32.Broadcasts S2048x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  inb_S2048x1_S2048x1_0_0 : ∀ a, (![0, 0] : Fin 2 → Nat) a + S2048x1.size a ≤ S2048x1.size a
  h_S2048x1 : 0 < S2048x1.numel
  scatter_S100000_S1600000x1_S1600000_n_0_0_1_wf : ScatterDims.WF S100000 S1600000x1 S1600000 [] [0] [0] 1
  dot_S5000x128_S128x64_S5000x64_1_0_0_1_n_n_wf : DotDims.WF S5000x128 S128x64 S5000x64 [1] [0] [0] [1] [] []
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  scatter_S2048x64_S100000x1_S100000x64_1_0_0_1_wf : ScatterDims.WF S2048x64 S100000x1 S100000x64 [1] [0] [0] 1
  dot_S2048x64_S64x32_S2048x32_1_0_0_1_n_n_wf : DotDims.WF S2048x64 S64x32 S2048x32 [1] [0] [0] [1] [] []
  dot_S2048x32_S32x1_S2048x1_1_0_0_1_n_n_wf : DotDims.WF S2048x32 S32x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x64.size a ≤ S1600000x64.size a
  hwx1_0 : ∀ i : grid1.Coords, EltTy.bits .f32 = 32 ∨ (Rect.block (s := S1600000x64) S8000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x1.size a ≤ S1600000x1.size a
  hwx1_1 : ∀ i : grid1.Coords, EltTy.bits .f32 = 32 ∨ (Rect.block (s := S1600000x1) S8000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x64.size a ≤ S1600000x64.size a
  hwx1_2 : ∀ i : grid1.Coords, EltTy.bits .f32 = 32 ∨ (Rect.block (s := S1600000x64) S8000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S100000x64.size a
  hwx2_4 : ∀ i : grid2.Coords, EltTy.bits .f32 = 32 ∨ (Rect.block (s := S100000x64) S5000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8000x64.size a ≤ S1600000x64.size a
  hwx4_0 : ∀ i : grid4.Coords, EltTy.bits .f32 = 32 ∨ (Rect.block (s := S1600000x64) S8000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8000x1.size a ≤ S1600000x1.size a
  hwx4_1 : ∀ i : grid4.Coords, EltTy.bits .f32 = 32 ∨ (Rect.block (s := S1600000x1) S8000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S8000x64.size a ≤ S1600000x64.size a
  hwx4_2 : ∀ i : grid4.Coords, EltTy.bits .f32 = 32 ∨ (Rect.block (s := S1600000x64) S8000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x64.size a ≤ S100000x64.size a
  hwx5_1 : ∀ i : grid5.Coords, EltTy.bits .f32 = 32 ∨ (Rect.block (s := S100000x64) S5000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S100000x1.size a
  hwx5_2 : ∀ i : grid5.Coords, EltTy.bits .f32 = 32 ∨ (Rect.block (s := S100000x1) S5000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x64.size a ≤ S100000x64.size a
  hwx5_4 : ∀ i : grid5.Coords, EltTy.bits .f32 = 32 ∨ (Rect.block (s := S100000x64) S5000x64.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S100000x64.size a
  hwx6_0 : ∀ i : grid6.Coords, EltTy.bits .f32 = 32 ∨ (Rect.block (s := S100000x64) S5000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x64.size a ≤ S64x64.size a
  hwx6_1 : ∀ i : grid6.Coords, EltTy.bits .f32 = 32 ∨ (Rect.block (s := S64x64) S64x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x64.size a ≤ S100000x64.size a
  hwx6_2 : ∀ i : grid6.Coords, EltTy.bits .f32 = 32 ∨ (Rect.block (s := S100000x64) S5000x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S8000x64.size a ≤ S1600000x64.size a
  hwx7_0 : ∀ i : grid7.Coords, EltTy.bits .f32 = 32 ∨ (Rect.block (s := S1600000x64) S8000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S8000x1.size a ≤ S1600000x1.size a
  hwx7_1 : ∀ i : grid7.Coords, EltTy.bits .f32 = 32 ∨ (Rect.block (s := S1600000x1) S8000x1.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S8000x64.size a ≤ S1600000x64.size a
  hwx7_2 : ∀ i : grid7.Coords, EltTy.bits .f32 = 32 ∨ (Rect.block (s := S1600000x64) S8000x64.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x64.size a ≤ S100000x64.size a
  hwx8_0 : ∀ i : grid8.Coords, EltTy.bits .f32 = 32 ∨ (Rect.block (s := S100000x64) S5000x64.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x64.size a ≤ S100000x64.size a
  hwx8_1 : ∀ i : grid8.Coords, EltTy.bits .f32 = 32 ∨ (Rect.block (s := S100000x64) S5000x64.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x1.size a ≤ S100000x1.size a
  hwx8_2 : ∀ i : grid8.Coords, EltTy.bits .f32 = 32 ∨ (Rect.block (s := S100000x1) S5000x1.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x64.size a ≤ S1x64.size a
  hwx8_3 : ∀ i : grid8.Coords, EltTy.bits .f32 = 32 ∨ (Rect.block (s := S1x64) S1x64.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S5000x64.size a ≤ S100000x64.size a
  hwx8_4 : ∀ i : grid8.Coords, EltTy.bits .f32 = 32 ∨ (Rect.block (s := S100000x64) S5000x64.size (cc8_transform_4 i) (hinb8_4 i)).WholeWords (EltTy.packing .f32)
  hrank9 : 0 < grid9.rank
  hstage9_0 : ∀ j, (stage9_0 j).IsWhole
  nbuf9_0 : grid9.bufCount reads9_0 true = 1
  hreads9_0 : ∀ i i' : grid9.Coords, (∀ a, reads9_0 a = true → i a = i' a) → cc9_transform_0 i = cc9_transform_0 i'
  hinb9_0 : ∀ (i : grid9.Coords) a, (cc9_transform_0 i a + 1) * S2048x64.size a ≤ S2048x64.size a
  hwx9_0 : ∀ i : grid9.Coords, EltTy.bits .f32 = 32 ∨ (Rect.block (s := S2048x64) S2048x64.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S64x32.size a ≤ S64x32.size a
  hwx9_1 : ∀ i : grid9.Coords, EltTy.bits .f32 = 32 ∨ (Rect.block (s := S64x32) S64x32.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x32.size a ≤ S1x32.size a
  hwx9_2 : ∀ i : grid9.Coords, EltTy.bits .f32 = 32 ∨ (Rect.block (s := S1x32) S1x32.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S32x1.size a ≤ S32x1.size a
  hwx9_3 : ∀ i : grid9.Coords, EltTy.bits .f32 = 32 ∨ (Rect.block (s := S32x1) S32x1.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x1.size a ≤ S1x1.size a
  hwx9_4 : ∀ i : grid9.Coords, EltTy.bits .f32 = 32 ∨ (Rect.block (s := S1x1) S1x1.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S2048x1.size a ≤ S2048x1.size a
  hwx9_5 : ∀ i : grid9.Coords, EltTy.bits .f32 = 32 ∨ (Rect.block (s := S2048x1) S2048x1.size (cc9_transform_5 i) (hinb9_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S2048x64_S100000x1_S100000x64_1_0_0_1 : ScatterDims S2048x64 S100000x1 S100000x64 where
  updateWindowDims := [1]
  insertedWindowDims := [0]
  scatterDimsToOperandDims := [0]
  indexVectorDim := 1
  wf := scatter_S2048x64_S100000x1_S100000x64_1_0_0_1_wf
def dot_S2048x64_S64x32_S2048x32_1_0_0_1_n_n : DotDims S2048x64 S64x32 S2048x32 where
  lhsContracting := [1]
  rhsContracting := [0]
  lhsNonContracting := [0]
  rhsNonContracting := [1]
  lhsBatch := []
  rhsBatch := []
  wf := dot_S2048x64_S64x32_S2048x32_1_0_0_1_n_n_wf
def dot_S2048x32_S32x1_S2048x1_1_0_0_1_n_n : DotDims S2048x32 S32x1 S2048x1 where
  lhsContracting := [1]
  rhsContracting := [0]
  lhsNonContracting := [0]
  rhsNonContracting := [1]
  lhsBatch := []
  rhsBatch := []
  wf := dot_S2048x32_S32x1_S2048x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v39) S8000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S8000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v40) S8000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v43) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v16) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v13) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v44) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v44) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v45) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v68) S8000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v61) S8000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v69) S8000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v72) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v45) S5000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v12) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v14) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v73) S5000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v73) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg7) S64x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v74) S5000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v97) S8000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v90) S8000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v98) S8000x64.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v101) S5000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v74) S5000x64.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v12) S5000x1.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v15) S1x64.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v102) S5000x64.size cc8_transform_4 reads8_4 true false 2 stage8_4 sem8_4
    hrank8 hreads8_4 hinb8_4 nbuf8_4 (Memref.isWhole_whole _) hwx8_4 hstage8_4

abbrev win8 : Fin 5 → Pipeline.Window sig grid8 := fun | 0 => win8_0 | 1 => win8_1 | 2 => win8_2 | 3 => win8_3 | 4 => win8_4 | ⟨_ + 5, h⟩ => absurd h (Nat.not_lt.2 (Nat.le_add_left _ _))
abbrev spec8 : Fin 5 → Pipeline.WinSpec sig grid8.rank := fun w => (win8 w).toWinSpec

abbrev win9_0 : Pipeline.Window sig grid9 :=
  Pipeline.Window.ofSpec (Memref.whole main_v105) S2048x64.size cc9_transform_0 reads9_0 false true 1 stage9_0 sem9_0
    hrank9 hreads9_0 hinb9_0 nbuf9_0 (Memref.isWhole_whole _) hwx9_0 hstage9_0

abbrev win9_1 : Pipeline.Window sig grid9 :=
  Pipeline.Window.ofSpec (Memref.whole main_arg9) S64x32.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v106) S1x32.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_arg11) S32x1.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v107) S1x1.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v108) S2048x1.size cc9_transform_5 reads9_5 true true 1 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x64 : Shape := ⟨2, ![100000, 64]⟩
abbrev S1600000x64 : Shape := ⟨2, ![1600000, 64]⟩
abbrev S100000x1 : Shape := ⟨2, ![100000, 1]⟩
abbrev S1x64 : Shape := ⟨2, ![1, 64]⟩
abbrev S2048x64 : Shape := ⟨2, ![2048, 64]⟩
abbrev S2048x32 : Shape := ⟨2, ![2048, 32]⟩
abbrev S1x32 : Shape := ⟨2, ![1, 32]⟩
abbrev S2048x1 : Shape := ⟨2, ![2048, 1]⟩
abbrev S1x1 : Shape := ⟨2, ![1, 1]⟩

abbrev nBuf : Space → Nat
  | .hbm => 180
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x32, .f32⟩
  | 10 => ⟨S32, .f32⟩
  | 11 => ⟨S32x1, .f32⟩
  | 12 => ⟨S1, .f32⟩
  | 13 => ⟨S1x1600000, .i32⟩
  | 14 => ⟨S1600000, .i32⟩
  | 15 => ⟨S1x1600000, .i32⟩
  | 16 => ⟨S1600000, .i32⟩
  | 17 => ⟨S_, .f32⟩
  | 18 => ⟨S1600000, .f32⟩
  | 19 => ⟨S_, .f32⟩
  | 20 => ⟨S100000, .f32⟩
  | 21 => ⟨S1600000x1, .i32⟩
  | 22 => ⟨S100000, .f32⟩
  | 23 => ⟨S_, .f32⟩
  | 24 => ⟨S100000, .f32⟩
  | 25 => ⟨S100000, .f32⟩
  | 26 => ⟨S100000, .f32⟩
  | 27 => ⟨S100000x64, .f32⟩
  | 28 => ⟨S_, .i32⟩
  | 29 => ⟨S1600000, .i32⟩
  | 30 => ⟨S1600000, .i1⟩
  | 31 => ⟨S_, .i32⟩
  | 32 => ⟨S1600000, .i32⟩
  | 33 => ⟨S1600000, .i32⟩
  | 34 => ⟨S1600000, .i32⟩
  | 35 => ⟨S1600000x1, .i32⟩
  | 36 => ⟨S1600000, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000, .f32⟩
  | 46 => ⟨S1600000, .f32⟩
  | 47 => ⟨S_, .i32⟩
  | 48 => ⟨S1600000, .i32⟩
  | 49 => ⟨S1600000, .i1⟩
  | 50 => ⟨S_, .i32⟩
  | 51 => ⟨S1600000, .i32⟩
  | 52 => ⟨S1600000, .i32⟩
  | 53 => ⟨S1600000, .i32⟩
  | 54 => ⟨S1600000x1, .i32⟩
  | 55 => ⟨S1600000x64, .f32⟩
  | 56 => ⟨S1600000x1, .f32⟩
  | 57 => ⟨S1600000x64, .f32⟩
  | 58 => ⟨S1600000x64, .f32⟩
  | 59 => ⟨S_, .f32⟩
  | 60 => ⟨S100000x64, .f32⟩
  | 61 => ⟨S1600000x1, .i32⟩
  | 62 => ⟨S100000x64, .f32⟩
  | 63 => ⟨S100000, .f32⟩
  | 64 => ⟨S100000x1, .f32⟩
  | 65 => ⟨S100000x64, .f32⟩
  | 66 => ⟨S100000x64, .f32⟩
  | 67 => ⟨S100000x64, .f32⟩
  | 68 => ⟨S1x64, .f32⟩
  | 69 => ⟨S100000x64, .f32⟩
  | 70 => ⟨S100000x64, .f32⟩
  | 71 => ⟨S_, .f32⟩
  | 72 => ⟨S100000x64, .f32⟩
  | 73 => ⟨S100000x64, .f32⟩
  | 74 => ⟨S100000x64, .f32⟩
  | 75 => ⟨S_, .i32⟩
  | 76 => ⟨S1600000, .i32⟩
  | 77 => ⟨S1600000, .i1⟩
  | 78 => ⟨S_, .i32⟩
  | 79 => ⟨S1600000, .i32⟩
  | 80 => ⟨S1600000, .i32⟩
  | 81 => ⟨S1600000, .i32⟩
  | 82 => ⟨S1600000x1, .i32⟩
  | 83 => ⟨S1600000, .f32⟩
  | 84 => ⟨S_, .i32⟩
  | 85 => ⟨S1600000, .i32⟩
  | 86 => ⟨S1600000, .i1⟩
  | 87 => ⟨S_, .i32⟩
  | 88 => ⟨S1600000, .i32⟩
  | 89 => ⟨S1600000, .i32⟩
  | 90 => ⟨S1600000, .i32⟩
  | 91 => ⟨S1600000x1, .i32⟩
  | 92 => ⟨S1600000, .f32⟩
  | 93 => ⟨S1600000, .f32⟩
  | 94 => ⟨S_, .i32⟩
  | 95 => ⟨S1600000, .i32⟩
  | 96 => ⟨S1600000, .i1⟩
  | 97 => ⟨S_, .i32⟩
  | 98 => ⟨S1600000, .i32⟩
  | 99 => ⟨S1600000, .i32⟩
  | 100 => ⟨S1600000, .i32⟩
  | 101 => ⟨S1600000x1, .i32⟩
  | 102 => ⟨S1600000x64, .f32⟩
  | 103 => ⟨S1600000x1, .f32⟩
  | 104 => ⟨S1600000x64, .f32⟩
  | 105 => ⟨S1600000x64, .f32⟩
  | 106 => ⟨S_, .f32⟩
  | 107 => ⟨S100000x64, .f32⟩
  | 108 => ⟨S1600000x1, .i32⟩
  | 109 => ⟨S100000x64, .f32⟩
  | 110 => ⟨S100000, .f32⟩
  | 111 => ⟨S100000x1, .f32⟩
  | 112 => ⟨S100000x64, .f32⟩
  | 113 => ⟨S100000x64, .f32⟩
  | 114 => ⟨S100000x64, .f32⟩
  | 115 => ⟨S1x64, .f32⟩
  | 116 => ⟨S100000x64, .f32⟩
  | 117 => ⟨S100000x64, .f32⟩
  | 118 => ⟨S_, .f32⟩
  | 119 => ⟨S100000x64, .f32⟩
  | 120 => ⟨S100000x64, .f32⟩
  | 121 => ⟨S100000x64, .f32⟩
  | 122 => ⟨S_, .i32⟩
  | 123 => ⟨S1600000, .i32⟩
  | 124 => ⟨S1600000, .i1⟩
  | 125 => ⟨S_, .i32⟩
  | 126 => ⟨S1600000, .i32⟩
  | 127 => ⟨S1600000, .i32⟩
  | _ => ⟨S100000x128, .f32⟩

abbrev hbmTy0_1 (i : Nat) : BufTy := match i % 128 with
  | 0 => ⟨S1600000, .i32⟩
  | 1 => ⟨S1600000x1, .i32⟩
  | 2 => ⟨S1600000, .f32⟩
  | 3 => ⟨S_, .i32⟩
  | 4 => ⟨S1600000, .i32⟩
  | 5 => ⟨S1600000, .i1⟩
  | 6 => ⟨S_, .i32⟩
  | 7 => ⟨S1600000, .i32⟩
  | 8 => ⟨S1600000, .i32⟩
  | 9 => ⟨S1600000, .i32⟩
  | 10 => ⟨S1600000x1, .i32⟩
  | 11 => ⟨S1600000, .f32⟩
  | 12 => ⟨S1600000, .f32⟩
  | 13 => ⟨S_, .i32⟩
  | 14 => ⟨S1600000, .i32⟩
  | 15 => ⟨S1600000, .i1⟩
  | 16 => ⟨S_, .i32⟩
  | 17 => ⟨S1600000, .i32⟩
  | 18 => ⟨S1600000, .i32⟩
  | 19 => ⟨S1600000, .i32⟩
  | 20 => ⟨S1600000x1, .i32⟩
  | 21 => ⟨S1600000x64, .f32⟩
  | 22 => ⟨S1600000x1, .f32⟩
  | 23 => ⟨S1600000x64, .f32⟩
  | 24 => ⟨S1600000x64, .f32⟩
  | 25 => ⟨S_, .f32⟩
  | 26 => ⟨S100000x64, .f32⟩
  | 27 => ⟨S1600000x1, .i32⟩
  | 28 => ⟨S100000x64, .f32⟩
  | 29 => ⟨S100000, .f32⟩
  | 30 => ⟨S100000x1, .f32⟩
  | 31 => ⟨S100000x64, .f32⟩
  | 32 => ⟨S100000x64, .f32⟩
  | 33 => ⟨S100000x64, .f32⟩
  | 34 => ⟨S1x64, .f32⟩
  | 35 => ⟨S100000x64, .f32⟩
  | 36 => ⟨S100000x64, .f32⟩
  | 37 => ⟨S_, .f32⟩
  | 38 => ⟨S2048x64, .f32⟩
  | 39 => ⟨S100000x1, .i32⟩
  | 40 => ⟨S2048x64, .f32⟩
  | 41 => ⟨S2048x32, .f32⟩
  | 42 => ⟨S1x32, .f32⟩
  | 43 => ⟨S2048x32, .f32⟩
  | 44 => ⟨S2048x32, .f32⟩
  | 45 => ⟨S_, .f32⟩
  | 46 => ⟨S2048x32, .f32⟩
  | 47 => ⟨S2048x32, .f32⟩
  | 48 => ⟨S2048x1, .f32⟩
  | 49 => ⟨S1x1, .f32⟩
  | 50 => ⟨S2048x1, .f32⟩
  | 51 => ⟨S2048x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c : Ref sig .tc := ⟨.hbm, 28, rfl⟩
abbrev main_v12 : Ref sig .tc := ⟨.hbm, 29, rfl⟩
abbrev main_v13 : Ref sig .tc := ⟨.hbm, 30, rfl⟩
abbrev main_c_2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c_3 : Ref sig .tc := ⟨.hbm, 37, rfl⟩
abbrev main_v19 : Ref sig .tc := ⟨.hbm, 38, rfl⟩
abbrev main_v20 : Ref sig .tc := ⟨.hbm, 39, rfl⟩
abbrev main_c_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_5 : Ref sig .tc := ⟨.hbm, 47, rfl⟩
abbrev main_v27 : Ref sig .tc := ⟨.hbm, 48, rfl⟩
abbrev main_v28 : Ref sig .tc := ⟨.hbm, 49, rfl⟩
abbrev main_c_6 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_7 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_call0_cst : Ref sig .tc := ⟨.hbm, 71, rfl⟩
abbrev main_call0_v0 : Ref sig .tc := ⟨.hbm, 72, rfl⟩
abbrev main_v48 : Ref sig .tc := ⟨.hbm, 73, rfl⟩
abbrev main_v49 : Ref sig .tc := ⟨.hbm, 74, rfl⟩
abbrev main_c_8 : Ref sig .tc := ⟨.hbm, 75, rfl⟩
abbrev main_v50 : Ref sig .tc := ⟨.hbm, 76, rfl⟩
abbrev main_v51 : Ref sig .tc := ⟨.hbm, 77, rfl⟩
abbrev main_c_9 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_c_10 : Ref sig .tc := ⟨.hbm, 84, rfl⟩
abbrev main_v57 : Ref sig .tc := ⟨.hbm, 85, rfl⟩
abbrev main_v58 : Ref sig .tc := ⟨.hbm, 86, rfl⟩
abbrev main_c_11 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_c_12 : Ref sig .tc := ⟨.hbm, 94, rfl⟩
abbrev main_v65 : Ref sig .tc := ⟨.hbm, 95, rfl⟩
abbrev main_v66 : Ref sig .tc := ⟨.hbm, 96, rfl⟩
abbrev main_c_13 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_14 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_call1_cst : Ref sig .tc := ⟨.hbm, 118, rfl⟩
abbrev main_call1_v0 : Ref sig .tc := ⟨.hbm, 119, rfl⟩
abbrev main_v86 : Ref sig .tc := ⟨.hbm, 120, rfl⟩
abbrev main_v87 : Ref sig .tc := ⟨.hbm, 121, rfl⟩
abbrev main_c_15 : Ref sig .tc := ⟨.hbm, 122, rfl⟩
abbrev main_v88 : Ref sig .tc := ⟨.hbm, 123, rfl⟩
abbrev main_v89 : Ref sig .tc := ⟨.hbm, 124, rfl⟩
abbrev main_c_16 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_c_17 : Ref sig .tc := ⟨.hbm, 131, rfl⟩
abbrev main_v95 : Ref sig .tc := ⟨.hbm, 132, rfl⟩
abbrev main_v96 : Ref sig .tc := ⟨.hbm, 133, rfl⟩
abbrev main_c_18 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_c_19 : Ref sig .tc := ⟨.hbm, 141, rfl⟩
abbrev main_v103 : Ref sig .tc := ⟨.hbm, 142, rfl⟩
abbrev main_v104 : Ref sig .tc := ⟨.hbm, 143, rfl⟩
abbrev main_c_20 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_cst_21 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_cst_22 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_call2_cst : Ref sig .tc := ⟨.hbm, 173, rfl⟩
abbrev main_call2_v0 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S2048x64 : S_.BroadcastsInDim S2048x64 (![] : Fin 0 → Fin S2048x64.rank)
  bcast_S32_S1x32_1 : S32.BroadcastsInDim S1x32 (![1] : Fin 1 → Fin S1x32.rank)
  bcast_S1x32_S2048x32_0_1 : S1x32.BroadcastsInDim S2048x32 (![0, 1] : Fin 2 → Fin S2048x32.rank)
  bcast_S_S2048x32 : S_.BroadcastsInDim S2048x32 (![] : Fin 0 → Fin S2048x32.rank)
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  scatter_S100000_S1600000x1_S1600000_n_0_0_1_wf : ScatterDims.WF S100000 S1600000x1 S1600000 [] [0] [0] 1
  dot_S100000x128_S128x64_S100000x64_1_0_0_1_n_n_wf : DotDims.WF S100000x128 S128x64 S100000x64 [1] [0] [0] [1] [] []
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  scatter_S2048x64_S100000x1_S100000x64_1_0_0_1_wf : ScatterDims.WF S2048x64 S100000x1 S100000x64 [1] [0] [0] 1
  dot_S2048x64_S64x32_S2048x32_1_0_0_1_n_n_wf : DotDims.WF S2048x64 S64x32 S2048x32 [1] [0] [0] [1] [] []
  dot_S2048x32_S32x1_S2048x1_1_0_0_1_n_n_wf : DotDims.WF S2048x32 S32x1 S2048x1 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S2048x64_S100000x1_S100000x64_1_0_0_1 : ScatterDims S2048x64 S100000x1 S100000x64 where
  updateWindowDims := [1]
  insertedWindowDims := [0]
  scatterDimsToOperandDims := [0]
  indexVectorDim := 1
  wf := scatter_S2048x64_S100000x1_S100000x64_1_0_0_1_wf
def dot_S2048x64_S64x32_S2048x32_1_0_0_1_n_n : DotDims S2048x64 S64x32 S2048x32 where
  lhsContracting := [1]
  rhsContracting := [0]
  lhsNonContracting := [0]
  rhsNonContracting := [1]
  lhsBatch := []
  rhsBatch := []
  wf := dot_S2048x64_S64x32_S2048x32_1_0_0_1_n_n_wf
def dot_S2048x32_S32x1_S2048x1_1_0_0_1_n_n : DotDims S2048x32 S32x1 S2048x1 where
  lhsContracting := [1]
  rhsContracting := [0]
  lhsNonContracting := [0]
  rhsNonContracting := [1]
  lhsBatch := []
  rhsBatch := []
  wf := dot_S2048x32_S32x1_S2048x1_1_0_0_1_n_n_wf

class Facts : Prop extends Facts₀ where

variable [Facts]
-- ==== Proof.KernelRun.lean ====
/-
  The whole program's run with its result named. Every weakly fair execution of the program terminates, nothing
  faulting; the result array ends at the contents the last segment boundary gives it — the memory after the ten
  regions and the host operations between them, followed segment by segment from the launch — and every argument
  array ends as launched. The statement is the program's frame statement with one more conjunct, read off the same
  final thread state.
-/
import proofs.«103547_j33792802685826_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array at the last boundary's contents, the arguments as launched. -/
theorem run_named : θ_run defs (onTc (τ := τ) (main (F := F))) ⟨m, fun _ => 0, ρ⟩ (fun r => ∀ c : Dev nD,
      r.2.mem ((c.tc : Thread nD τ).loc main_v108) = W18 m ρ c (Proc.devRef .tc main_v108)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c =>
      ⟨h c _ (mem_uc main_v108 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c),
       (h c _ (mem_uc main_arg4 (by decide))).trans (W18_main_arg4 m ρ c),
       (h c _ (mem_uc main_arg5 (by decide))).trans (W18_main_arg5 m ρ c),
       (h c _ (mem_uc main_arg6 (by decide))).trans (W18_main_arg6 m ρ c),
       (h c _ (mem_uc main_arg7 (by decide))).trans (W18_main_arg7 m ρ c),
       (h c _ (mem_uc main_arg8 (by decide))).trans (W18_main_arg8 m ρ c),
       (h c _ (mem_uc main_arg9 (by decide))).trans (W18_main_arg9 m ρ c),
       (h c _ (mem_uc main_arg10 (by decide))).trans (W18_main_arg10 m ρ c),
       (h c _ (mem_uc main_arg11 (by decide))).trans (W18_main_arg11 m ρ c),
       (h c _ (mem_uc main_arg12 (by decide))).trans (W18_main_arg12 m ρ c)⟩)

end Cert.KernelIdeal.Whole

end
-- ==== Proof.Keep.lean ====
/-
  What each host stretch of the program leaves alone. A stretch of host operations rewrites exactly the buffers its
  operations name as results; every other buffer keeps, after the stretch, the contents it had before. Stated once
  per stretch, over the list of the stretch's result buffers, so that following one buffer through the program is one
  step per segment boundary. (A region's step is the same fact about the region's own arrays.)
-/
import proofs.«103547_j33792802685826_2_alg».proof.Proof.Gen.KernelIdeal.Frame

set_option maxRecDepth 16384

noncomputable section

namespace Cert.KernelIdeal.Keep

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-- The buffers `hostOps0` writes. -/
abbrev hostOps0_W : List (Ref sig .tc) := [main_v0, main_v1, main_v2, main_v3, main_cst, main_v4, main_cst_0, main_v5, main_v6, main_v7, main_cst_1, main_v8, main_v9, main_v10, main_v11, main_v12, main_v13, main_v14, main_v15]
theorem hostOps0_writes : (hostOps0 : List (HloOp τ sig (Elt F))).Forall fun op => op.writes ⊆ (hostOps0_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer the stretch does not write keeps its contents across it. -/
theorem keep1 (c : Dev nD) (r : Ref sig .tc) (h : r ∉ hostOps0_W) :
    W1 m ρ c (Proc.devRef .tc r) = W0 m ρ c (Proc.devRef .tc r) :=
  StableHlo.after_of_writes_sub hostOps0 _ hostOps0_writes h

/-- The buffers `hostOps1` writes. -/
abbrev hostOps1_W : List (Ref sig .tc) := [main_c, main_v17, main_v18, main_c_2, main_v19, main_v20, main_v21, main_v22, main_v23, main_c_3, main_v24, main_v25, main_c_4, main_v26, main_v27, main_v28, main_v29, main_v30, main_v31, main_v32, main_c_5, main_v33, main_v34, main_c_6, main_v35, main_v36, main_v37, main_v38, main_v39]
theorem hostOps1_writes : (hostOps1 : List (HloOp τ sig (Elt F))).Forall fun op => op.writes ⊆ (hostOps1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer the stretch does not write keeps its contents across it. -/
theorem keep3 (c : Dev nD) (r : Ref sig .tc) (h : r ∉ hostOps1_W) :
    W3 m ρ c (Proc.devRef .tc r) = W2 m ρ c (Proc.devRef .tc r) :=
  StableHlo.after_of_writes_sub hostOps1 _ hostOps1_writes h

/-- The buffers `hostOps2` writes. -/
abbrev hostOps2_W : List (Ref sig .tc) := [main_cst_7, main_v41, main_v42, main_v43]
theorem hostOps2_writes : (hostOps2 : List (HloOp τ sig (Elt F))).Forall fun op => op.writes ⊆ (hostOps2_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer the stretch does not write keeps its contents across it. -/
theorem keep5 (c : Dev nD) (r : Ref sig .tc) (h : r ∉ hostOps2_W) :
    W5 m ρ c (Proc.devRef .tc r) = W4 m ρ c (Proc.devRef .tc r) :=
  StableHlo.after_of_writes_sub hostOps2 _ hostOps2_writes h

/-- The buffers `hostOps4` writes. -/
abbrev hostOps4_W : List (Ref sig .tc) := [main_c_8, main_v46, main_v47, main_c_9, main_v48, main_v49, main_v50, main_v51, main_v52, main_c_10, main_v53, main_v54, main_c_11, main_v55, main_v56, main_v57, main_v58, main_v59, main_v60, main_v61, main_c_12, main_v62, main_v63, main_c_13, main_v64, main_v65, main_v66, main_v67, main_v68]
theorem hostOps4_writes : (hostOps4 : List (HloOp τ sig (Elt F))).Forall fun op => op.writes ⊆ (hostOps4_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer the stretch does not write keeps its contents across it. -/
theorem keep8 (c : Dev nD) (r : Ref sig .tc) (h : r ∉ hostOps4_W) :
    W8 m ρ c (Proc.devRef .tc r) = W7 m ρ c (Proc.devRef .tc r) :=
  StableHlo.after_of_writes_sub hostOps4 _ hostOps4_writes h

/-- The buffers `hostOps5` writes. -/
abbrev hostOps5_W : List (Ref sig .tc) := [main_cst_14, main_v70, main_v71, main_v72]
theorem hostOps5_writes : (hostOps5 : List (HloOp τ sig (Elt F))).Forall fun op => op.writes ⊆ (hostOps5_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer the stretch does not write keeps its contents across it. -/
theorem keep10 (c : Dev nD) (r : Ref sig .tc) (h : r ∉ hostOps5_W) :
    W10 m ρ c (Proc.devRef .tc r) = W9 m ρ c (Proc.devRef .tc r) :=
  StableHlo.after_of_writes_sub hostOps5 _ hostOps5_writes h

/-- The buffers `hostOps7` writes. -/
abbrev hostOps7_W : List (Ref sig .tc) := [main_c_15, main_v75, main_v76, main_c_16, main_v77, main_v78, main_v79, main_v80, main_v81, main_c_17, main_v82, main_v83, main_c_18, main_v84, main_v85, main_v86, main_v87, main_v88, main_v89, main_v90, main_c_19, main_v91, main_v92, main_c_20, main_v93, main_v94, main_v95, main_v96, main_v97]
theorem hostOps7_writes : (hostOps7 : List (HloOp τ sig (Elt F))).Forall fun op => op.writes ⊆ (hostOps7_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer the stretch does not write keeps its contents across it. -/
theorem keep13 (c : Dev nD) (r : Ref sig .tc) (h : r ∉ hostOps7_W) :
    W13 m ρ c (Proc.devRef .tc r) = W12 m ρ c (Proc.devRef .tc r) :=
  StableHlo.after_of_writes_sub hostOps7 _ hostOps7_writes h

/-- The buffers `hostOps8` writes. -/
abbrev hostOps8_W : List (Ref sig .tc) := [main_cst_21, main_v99, main_v100, main_v101]
theorem hostOps8_writes : (hostOps8 : List (HloOp τ sig (Elt F))).Forall fun op => op.writes ⊆ (hostOps8_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer the stretch does not write keeps its contents across it. -/
theorem keep15 (c : Dev nD) (r : Ref sig .tc) (h : r ∉ hostOps8_W) :
    W15 m ρ c (Proc.devRef .tc r) = W14 m ρ c (Proc.devRef .tc r) :=
  StableHlo.after_of_writes_sub hostOps8 _ hostOps8_writes h

/-- The buffers `hostOps9` writes. -/
abbrev hostOps9_W : List (Ref sig .tc) := [main_cst_22, main_v103, main_v104, main_v105, main_v106, main_v107]
theorem hostOps9_writes : (hostOps9 : List (HloOp τ sig (Elt F))).Forall fun op => op.writes ⊆ (hostOps9_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer the stretch does not write keeps its contents across it. -/
theorem keep17 (c : Dev nD) (r : Ref sig .tc) (h : r ∉ hostOps9_W) :
    W17 m ρ c (Proc.devRef .tc r) = W16 m ρ c (Proc.devRef .tc r) :=
  StableHlo.after_of_writes_sub hostOps9 _ hostOps9_writes h

end Cert.KernelIdeal.Keep

end
-- ==== Proof.LibGraphOps.lean ====
/-
  The dense pieces of a graph-convolution network, each as ONE function of whole arrays read entry by entry over the
  extended reals, and the same pieces as a host program spells them.

  * rows against columns: entry (r, q) is the sum over k of X (r, k) · W (k, q);
  * scaling the rows: entry (e, q) of P times the e-th entry of a one-column array of factors;
  * the self-loop step of a graph convolution: the aggregated neighbours, plus the node's own projection times its
    one-column weight, plus a one-row bias;
  * the rectifier: the maximum with zero.

  A host program writes the one-column and one-row arrays through `broadcast_in_dim` along both axes and the product as
  a `dot_general` contracting the second axis of the left operand with the first of the right; read at an entry these
  are the functions above. Sums of extended reals are taken in a commutative monoid, so no order of summation and no
  finiteness enters.
-/
import Idealize.ShloMosaic.Lib.Pipeline.Value
import Idealize.ShloMosaic.Lib.ValueIdx
import Idealize.ShloMosaic.PureOps.Ideal.Laws

noncomputable section

open scoped BigOperators

namespace Cert.GraphOps

open Idealize.ShloMosaic Idealize.ShloMosaic.ValueIdx

/-- An a × b array of extended reals. -/
abbrev Mat (a b : Nat) := FVec Ideal ⟨2, ![a, b]⟩ .f32

/-- Rows against columns. -/
def rowsCols (M K N : Nat) (X : Mat M K) (W : Mat K N) : Mat M N :=
  fun i => ∑ k : Fin K, X (ix2 (i 0) k) * W (ix2 k (i 1))

/-- Each row multiplied by its own factor. -/
def scaleRows (E C : Nat) (P : Mat E C) (f : Mat E 1) : Mat E C :=
  fun i => P i * f (ix2 (i 0) 0)

/-- Aggregated neighbours, plus the node's own row times its weight, plus the bias row. -/
def selfLoop (N C : Nat) (A H : Mat N C) (d : Mat N 1) (b : Mat 1 C) : Mat N C :=
  fun i => A i + H i * d (ix2 (i 0) 0) + b (ix2 0 (i 1))

/-- Adding a one-row array to every row. -/
def addRow (M N : Nat) (X : Mat M N) (b : Mat 1 N) : Mat M N :=
  fun i => X i + b (ix2 0 (i 1))

/-- The maximum with zero, entry by entry. -/
def rectify {a b : Nat} (X : Mat a b) : Mat a b :=
  fun i => max (X i) (Ideal.ofBits .f32 0x00000000#32)

theorem rowsCols_apply (M K N : Nat) (X : Mat M K) (W : Mat K N) (p : Fin M) (q : Fin N) :
    rowsCols M K N X W (ix2 p q) = ∑ k : Fin K, X (ix2 p k) * W (ix2 k q) := rfl

theorem scaleRows_apply (E C : Nat) (P : Mat E C) (f : Mat E 1) (p : Fin E) (q : Fin C) :
    scaleRows E C P f (ix2 p q) = P (ix2 p q) * f (ix2 p 0) := rfl

theorem selfLoop_apply (N C : Nat) (A H : Mat N C) (d : Mat N 1) (b : Mat 1 C) (p : Fin N) (q : Fin C) :
    selfLoop N C A H d b (ix2 p q) = A (ix2 p q) + H (ix2 p q) * d (ix2 p 0) + b (ix2 0 q) := rfl

theorem addRow_apply (M N : Nat) (X : Mat M N) (b : Mat 1 N) (p : Fin M) (q : Fin N) :
    addRow M N X b (ix2 p q) = X (ix2 p q) + b (ix2 0 q) := rfl

/-! ## The host's spellings -/

/-- A one-column array repeated along the columns reads, at (p, q), the column at (p, 0). -/
theorem bcast_col_apply {a b : Nat} (h : (⟨2, ![a, 1]⟩ : Shape).BroadcastsInDim ⟨2, ![a, b]⟩ ![0, 1])
    (f : Mat a 1) (p : Fin a) (q : Fin b) :
    broadcastInDim ⟨2, ![a, b]⟩ ![0, 1] h f (ix2 p q) = f (ix2 p 0) := by
  refine broadcastInDim_apply ![0, 1] h f (ix2 p q) (ix2 p 0) fun ax => ?_
  match ax with
  | ⟨0, _⟩ =>
    show p.val = if a = 1 then 0 else p.val
    split
    · have := p.isLt; omega
    · rfl
  | ⟨1, _⟩ => rfl

/-- A one-row array repeated along the rows reads, at (p, q), the row at (0, q). -/
theorem bcast_row_apply {a b : Nat} (h : (⟨2, ![1, b]⟩ : Shape).BroadcastsInDim ⟨2, ![a, b]⟩ ![0, 1])
    (f : Mat 1 b) (p : Fin a) (q : Fin b) :
    broadcastInDim ⟨2, ![a, b]⟩ ![0, 1] h f (ix2 p q) = f (ix2 0 q) := by
  refine broadcastInDim_apply ![0, 1] h f (ix2 p q) (ix2 0 q) fun ax => ?_
  match ax with
  | ⟨0, _⟩ => rfl
  | ⟨1, _⟩ =>
    show q.val = if b = 1 then 0 else q.val
    split
    · have := q.isLt; omega
    · rfl

/-- The host's product of the rows by a repeated column of factors is the scaling of the rows. -/
theorem mulf_bcast_col {E C : Nat} (h : (⟨2, ![E, 1]⟩ : Shape).BroadcastsInDim ⟨2, ![E, C]⟩ ![0, 1])
    (P : Mat E C) (f : Mat E 1) :
    mulf P (broadcastInDim ⟨2, ![E, C]⟩ ![0, 1] h f) = scaleRows E C P f := by
  funext i
  obtain ⟨p, q, rfl⟩ : ∃ (p : Fin E) (q : Fin C), i = ix2 p q := ⟨i 0, i 1, eq_ix2 i⟩
  show P (ix2 p q) * broadcastInDim ⟨2, ![E, C]⟩ ![0, 1] h f (ix2 p q) = P (ix2 p q) * f (ix2 p 0)
  rw [bcast_col_apply]

/-- The host's self-loop step. -/
theorem selfLoop_host {N C : Nat} (hd : (⟨2, ![N, 1]⟩ : Shape).BroadcastsInDim ⟨2, ![N, C]⟩ ![0, 1])
    (hb : (⟨2, ![1, C]⟩ : Shape).BroadcastsInDim ⟨2, ![N, C]⟩ ![0, 1]) (A H : Mat N C) (d : Mat N 1) (b : Mat 1 C) :
    addf (addf A (mulf H (broadcastInDim ⟨2, ![N, C]⟩ ![0, 1] hd d))) (broadcastInDim ⟨2, ![N, C]⟩ ![0, 1] hb b)
      = selfLoop N C A H d b := by
  funext i
  obtain ⟨p, q, rfl⟩ : ∃ (p : Fin N) (q : Fin C), i = ix2 p q := ⟨i 0, i 1, eq_ix2 i⟩
  show A (ix2 p q) + H (ix2 p q) * broadcastInDim ⟨2, ![N, C]⟩ ![0, 1] hd d (ix2 p q)
      + broadcastInDim ⟨2, ![N, C]⟩ ![0, 1] hb b (ix2 p q) = A (ix2 p q) + H (ix2 p q) * d (ix2 p 0) + b (ix2 0 q)
  rw [bcast_col_apply, bcast_row_apply]

/-- The host's addition of a repeated row. -/
theorem addRow_host {M N : Nat} (hb : (⟨2, ![1, N]⟩ : Shape).BroadcastsInDim ⟨2, ![M, N]⟩ ![0, 1]) (X : Mat M N) (b : Mat 1 N) :
    addf X (broadcastInDim ⟨2, ![M, N]⟩ ![0, 1] hb b) = addRow M N X b := by
  funext i
  obtain ⟨p, q, rfl⟩ : ∃ (p : Fin M) (q : Fin N), i = ix2 p q := ⟨i 0, i 1, eq_ix2 i⟩
  show X (ix2 p q) + broadcastInDim ⟨2, ![M, N]⟩ ![0, 1] hb b (ix2 p q) = X (ix2 p q) + b (ix2 0 q)
  rw [bcast_row_apply]

/-- The host's rectifier: the maximum with the zero word repeated everywhere. -/
theorem rectify_host {a b : Nat} (h : (⟨0, ![]⟩ : Shape).BroadcastsInDim ⟨2, ![a, b]⟩ ![]) (X : Mat a b) :
    maximumf X (broadcastInDim ⟨2, ![a, b]⟩ ![] h (constant (F := Ideal) ⟨0, ![]⟩ .f32 0x00000000#32)) = rectify X := rfl

/-- The host's `dot_general` of an M × K by a K × N array is rows against columns. -/
theorem dotGeneral_plain {M K N : Nat}
    (w : DotDims.WF ⟨2, ![M, K]⟩ ⟨2, ![K, N]⟩ ⟨2, ![M, N]⟩ [1] [0] [0] [1] [] [])
    (prec : Option ContractPrecision) (X : Mat M K) (W : Mat K N) :
    Host.dotGeneral (⟨[1], [0], [0], [1], [], [], w⟩ : DotDims _ _ _) prec X W = rowsCols M K N X W := by
  funext i
  obtain ⟨p, q, rfl⟩ : ∃ (p : Fin M) (q : Fin N), i = ix2 p q := ⟨i 0, i 1, eq_ix2 i⟩
  show FloatOps.dotGeneral _ prec .single X W (ix2 p q) = ∑ k : Fin K, X (ix2 p k) * W (ix2 k q)
  rw [Ideal.dotGeneral_apply,
    ← Equiv.sum_comp (contrEquiv1 (⟨[1], [0], [0], [1], [], [], w⟩ : DotDims _ _ _) K rfl rfl).symm]
  refine Finset.sum_congr rfl fun c _ => ?_
  have c2 := contrEquiv1_symm_val
    (⟨[1], [0], [0], [1], [], [], w⟩ : DotDims ⟨2, ![M, K]⟩ ⟨2, ![K, N]⟩ ⟨2, ![M, N]⟩) K rfl rfl c
  have l2 : (⟨[1], [0], [0], [1], [], [], w⟩ : DotDims ⟨2, ![M, K]⟩ ⟨2, ![K, N]⟩ ⟨2, ![M, N]⟩).lhsIdx (ix2 p q)
      ((contrEquiv1 _ K rfl rfl).symm c) = ix2 p c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![M, K]⟩ ⟨2, ![K, N]⟩ ⟨2, ![M, N]⟩).rhsIdx (ix2 p q)
      ((contrEquiv1 _ K rfl rfl).symm c) = ix2 c q := by
    funext ax; apply Fin.ext
    match ax with
    | ⟨0, _⟩ => simp [DotDims.rhsIdx]; exact c2
    | ⟨1, _⟩ => simp [DotDims.rhsIdx]; rfl
  rw [l2, r2]

end Cert.GraphOps

end
-- ==== Proof.RefLayers.lean ====
/-
  The reference program read as a network of layers. Its run's term is three graph convolutions — each a projection of
  the node rows, the neighbours' projected rows gathered along the edges, scaled by the edge's normalisation factor
  and summed into the edge's target node, plus the node's own projected row times its self-loop weight, plus the bias
  —, the first two rectified, then the nodes' rows summed into their graphs and a two-layer read-out. Every later layer
  repeats the first one's operations on the previous layer's result, so the run's term is one function `conv` applied
  three times; and each dense piece, read entry by entry, is the corresponding function of whole arrays.
-/
import proofs.«103547_j33792802685826_2_alg».proof.Proof.Gen.ReferenceIdeal.Read
import proofs.«103547_j33792802685826_2_alg».proof.Proof.LibGraphOps

noncomputable section

namespace Cert.ReferenceIdeal.Layers

open Cert.ReferenceIdeal Cert.ReferenceIdeal.Gen Cert.ReferenceIdeal.Read Idealize.ShloMosaic Idealize.ShloMosaic.TcCoe Cert.GraphOps

/-- The gathered, scaled and summed neighbours of one convolution, from the projected rows `h`. -/
def neighbours (x1 : (⟨S2x1600000, .i32⟩ : BufTy).Contents (Elt Ideal)) (h : Mat 100000 64) : Mat 100000 64 :=
  Host.scatterAdd scatter_S100000x64_S1600000x1_S1600000x64_1_0_0_1 (val_main_v37 (F := Ideal)) (val_main_v38 (F := Ideal) x1)
    (scaleRows 1600000 64 (Host.gather gather_S100000x64_S1600000x1_S1600000x64_1_0_n_n_0_1_164 h (val_main_v32 (F := Ideal) x1))
      (val_main_v34 (F := Ideal) x1))

/-- One graph convolution of the projected rows `h` with the bias `b`. -/
def conv (x1 : (⟨S2x1600000, .i32⟩ : BufTy).Contents (Elt Ideal)) (h : Mat 100000 64) (b : (⟨S64, .f32⟩ : BufTy).Contents (Elt Ideal)) : Mat 100000 64 :=
  selfLoop 100000 64 (neighbours x1 h) h (val_main_v41 (F := Ideal) x1) (val_main_v45 (F := Ideal) b)

/-- The host's spelling of a convolution is `conv`. -/
theorem conv_host (x1 : (⟨S2x1600000, .i32⟩ : BufTy).Contents (Elt Ideal)) (h : Mat 100000 64) (b : (⟨S64, .f32⟩ : BufTy).Contents (Elt Ideal)) :
    addf (addf (Host.scatterAdd scatter_S100000x64_S1600000x1_S1600000x64_1_0_0_1 (val_main_v37 (F := Ideal)) (val_main_v38 (F := Ideal) x1)
        (mulf (Host.gather gather_S100000x64_S1600000x1_S1600000x64_1_0_n_n_0_1_164 h (val_main_v32 (F := Ideal) x1)) (val_main_v35 (F := Ideal) x1)))
      (mulf h (val_main_v42 (F := Ideal) x1))) (val_main_v46 (F := Ideal) b) = conv x1 h b := by
  unfold conv neighbours val_main_v35 val_main_v42 val_main_v46
  rw [mulf_bcast_col, selfLoop_host]

theorem layer1 (x0 : (⟨S100000x128, .f32⟩ : BufTy).Contents (Elt Ideal)) (x1 : (⟨S2x1600000, .i32⟩ : BufTy).Contents (Elt Ideal)) (x3 : (⟨S128x64, .f32⟩ : BufTy).Contents (Elt Ideal)) (x4 : (⟨S64, .f32⟩ : BufTy).Contents (Elt Ideal)) :
    val_main_v48 (F := Ideal) x0 x1 x3 x4 = rectify (conv x1 (rowsCols 100000 128 64 x0 x3) x4) := by
  rw [← conv_host, ← dotGeneral_plain dot_S100000x128_S128x64_S100000x64_1_0_0_1_n_n_wf none x0 x3]
  rfl

theorem layer2 (x0 : (⟨S100000x128, .f32⟩ : BufTy).Contents (Elt Ideal)) (x1 : (⟨S2x1600000, .i32⟩ : BufTy).Contents (Elt Ideal)) (x3 : (⟨S128x64, .f32⟩ : BufTy).Contents (Elt Ideal)) (x4 : (⟨S64, .f32⟩ : BufTy).Contents (Elt Ideal))
    (x5 : (⟨S64x64, .f32⟩ : BufTy).Contents (Elt Ideal)) (x6 : (⟨S64, .f32⟩ : BufTy).Contents (Elt Ideal)) :
    val_main_v86 (F := Ideal) x0 x1 x3 x4 x5 x6
      = rectify (conv x1 (rowsCols 100000 64 64 (val_main_v48 (F := Ideal) x0 x1 x3 x4) x5) x6) := by
  rw [← conv_host, ← dotGeneral_plain dot_S100000x64_S64x64_S100000x64_1_0_0_1_n_n_wf none (val_main_v48 (F := Ideal) x0 x1 x3 x4) x5]
  rfl

theorem layer3 (x0 : (⟨S100000x128, .f32⟩ : BufTy).Contents (Elt Ideal)) (x1 : (⟨S2x1600000, .i32⟩ : BufTy).Contents (Elt Ideal)) (x3 : (⟨S128x64, .f32⟩ : BufTy).Contents (Elt Ideal)) (x4 : (⟨S64, .f32⟩ : BufTy).Contents (Elt Ideal))
    (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) :
    val_main_v123 (F := Ideal) x0 x1 x3 x4 x5 x6 x7 x8
      = conv x1 (rowsCols 100000 64 64 (val_main_v86 (F := Ideal) x0 x1 x3 x4 x5 x6) x7) x8 := by
  rw [← conv_host, ← dotGeneral_plain dot_S100000x64_S64x64_S100000x64_1_0_0_1_n_n_wf none (val_main_v86 (F := Ideal) x0 x1 x3 x4 x5 x6) x7]
  rfl

/-- The read-out of the pooled rows, entry by entry. -/
def readout (g : Mat 2048 64) (w1 : Mat 64 32) (b1 : Mat 1 32) (w2 : Mat 32 1) (b2 : Mat 1 1) : Mat 2048 1 :=
  addRow 2048 1 (rowsCols 2048 32 1 (rectify (addRow 2048 32 (rowsCols 2048 64 32 g w1) b1)) w2) b2

theorem readout_host (g : Mat 2048 64) (w1 : Mat 64 32) (b1 : (⟨S32, .f32⟩ : BufTy).Contents (Elt Ideal)) (w2 : Mat 32 1) (b2 : (⟨S1, .f32⟩ : BufTy).Contents (Elt Ideal)) :
    addf (Host.dotGeneral dot_S2048x32_S32x1_S2048x1_1_0_0_1_n_n none
        (maximumf (addf (Host.dotGeneral dot_S2048x64_S64x32_S2048x32_1_0_0_1_n_n none g w1) (val_main_v129 (F := Ideal) b1))
          (val_main_call2_v0 (F := Ideal))) w2) (val_main_v134 (F := Ideal) b2)
      = readout g w1 (val_main_v128 (F := Ideal) b1) w2 (val_main_v133 (F := Ideal) b2) := by
  unfold readout val_main_v129 val_main_v134
  rw [← dotGeneral_plain dot_S2048x32_S32x1_S2048x1_1_0_0_1_n_n_wf none, ← dotGeneral_plain dot_S2048x64_S64x32_S2048x32_1_0_0_1_n_n_wf none g w1,
    ← addRow_host, ← addRow_host]
  rfl

/-- The reference's result: the read-out of the pooled third convolution. -/
theorem result (x0 : (⟨S100000x128, .f32⟩ : BufTy).Contents (Elt Ideal)) (x1 : (⟨S2x1600000, .i32⟩ : BufTy).Contents (Elt Ideal)) (x2 : (⟨S100000, .i32⟩ : BufTy).Contents (Elt Ideal))
    (x3 : (⟨S128x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal))
    (x9 : (⟨S64x32, .f32⟩ : BufTy).Contents (Elt Ideal)) (x10 : (⟨S32, .f32⟩ : BufTy).Contents (Elt Ideal)) (x11 : (⟨S32x1, .f32⟩ : BufTy).Contents (Elt Ideal)) (x12 : (⟨S1, .f32⟩ : BufTy).Contents (Elt Ideal)) :
    val_main_v135 (F := Ideal) x0 x1 x2 x3 x4 x5 x6 x7 x8 x9 x10 x11 x12
      = readout (Host.scatterAdd scatter_S2048x64_S100000x1_S100000x64_1_0_0_1 (val_main_v124 (F := Ideal)) (val_main_v125 (F := Ideal) x2)
          (val_main_v123 (F := Ideal) x0 x1 x3 x4 x5 x6 x7 x8)) x9 (val_main_v128 (F := Ideal) x10) x11 (val_main_v133 (F := Ideal) x12) := by
  rw [← readout_host]
  rfl

end Cert.ReferenceIdeal.Layers

end
-- ==== Proof.LibRowOps.lean ====
/-
  Reading a row-wise computation at an index.

  A layer normalisation and a log-softmax are written over whole blocks of rows: a sum or a maximum along each row
  gives a vector with one entry per row, which is viewed as a column (one entry per row, one column), and the column
  is repeated along the row again. Here each of these steps is read at an entry (r, c): the row sum at r is the sum
  over the row's entries, the row maximum is their supremum (the fold starts from the bottom element, the word for
  minus infinity), the column view at (r, 0) is the vector at r, and the repeated column at (r, c) is the column at
  (r, 0). A product of an m × k by a k × n matrix into a zero accumulator reads at (a, b) the sum over the shared
  coordinate of the products of the entries. The rectifier's select on the comparison with zero is the `if` on
  0 ≤ y. None of these needs the entries to be finite.
-/
import Idealize.ShloMosaic.Lib.ValueLayout
import Idealize.ShloMosaic.PureOps.Ideal.Laws

noncomputable section

open scoped BigOperators

namespace Cert.LibRowOps

open Idealize.ShloMosaic Idealize.ShloMosaic.ValueIdx

variable {α : Type}

/-- A vector of a entries viewed as an a × 1 column reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An a × 1 column repeated along b columns reads, at (p, c), the column at (p, 0). -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum along the rows of an a × b block reads, at r, the sum of row r's entries. -/
theorem rowsum_apply {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = 0x00000000#32) (r : Fin a) :
    multiReduction .add [1] ⟨1, ![a]⟩ v 0x00000000#32 h hφ hacc (ix1 r) = ∑ k : Fin b, v (ix2 r k) := by
  refine (Ideal.multiReduction_add_single v 0x00000000#32 h hφ hacc (ix1 r)).trans ?_
  refine Finset.sum_congr rfl fun k _ => congrArg v ?_
  funext ax
  apply Fin.ext
  match ax with
  | ⟨0, _⟩ => rfl
  | ⟨1, _⟩ => rfl

/-- The word for minus infinity is the bottom element. -/
theorem ofBits_neg_inf_f32 : Ideal.ofBits .f32 0xFF800000#32 = ⊥ := by
  simp [Ideal.ofBits, Ideal.ieee]

/-- The maximum along the rows of an a × b block, started from minus infinity, reads, at r, the supremum of row r. -/
theorem rowmax_apply {a b : ℕ} (v : FVec Ideal ⟨2, ![a, b]⟩ .f32) (h : (⟨2, ![a, b]⟩ : Shape).Reduces [1] ⟨1, ![a]⟩)
    (hφ : FKind.Formats .f32) (hacc : (0xFF800000#32 : BitVec 32) = 0xFF800000#32) (r : Fin a) :
    multiReduction .maximumf [1] ⟨1, ![a]⟩ v 0xFF800000#32 h hφ hacc (ix1 r)
      = Finset.univ.sup fun k : Fin b => v (ix2 r k) := by
  refine (Ideal.multiReduction_maximumf_single v 0xFF800000#32 h hφ hacc (ix1 r)).trans ?_
  have hf : (v ∘ h.lift (ix1 r)) = fun k : Fin b => v (ix2 r k) := by
    funext k
    refine congrArg v ?_
    funext ax
    apply Fin.ext
    match ax with
    | ⟨0, _⟩ => rfl
    | ⟨1, _⟩ => rfl
  show Finset.fold max (Ideal.ofBits .f32 0xFF800000#32) (v ∘ h.lift (ix1 r)) (Finset.univ : Finset (Fin b)) = _
  rw [hf, ofBits_neg_inf_f32]
  rfl

/-- An m × k by k × n product into the zero accumulator reads, at (a, b), the sum over the shared coordinate. -/
theorem matmul_plain_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims _ _ _) prec A B (constant (F := Ideal) ⟨2, ![m, n]⟩ .f32 0x00000000#32) (ix2 a b)
      = ∑ c : Fin k, A (ix2 a c) * B (ix2 c b) := by
  show FloatOps.matmul _ prec A B (constant (F := Ideal) _ .f32 0x00000000#32) (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The reciprocal square root, the exponential and the logarithm of a block read entry by entry. -/
theorem rsqrt_apply {s : Shape} {φ : FTy} (x : FVec Ideal s φ) (i : s.Idx) : rsqrt x i = Ideal.rsqrt (x i) := rfl
theorem exp_apply {s : Shape} {φ : FTy} (x : FVec Ideal s φ) (i : s.Idx) : exp x i = Ideal.exp (x i) := rfl
theorem log_apply {s : Shape} {φ : FTy} (x : FVec Ideal s φ) (i : s.Idx) : log x i = Ideal.log (x i) := rfl

/-- A scalar float word read at the extended reals. -/
theorem scalar_ofBits (φ : FTy) (b : BitVec φ.bits) : Scalar.ofBits (F := Ideal) φ b = Ideal.ofBits φ b := rfl

/-- Selecting y where y ≥ 0 and s · y elsewhere is the `if` on 0 ≤ y. -/
theorem select_oge_zero (s y : EReal) :
    Scalar.select (Ideal.cmp .oge y (Ideal.ofBits .f32 0x00000000#32)) y (s * y) = if (0 : EReal) ≤ y then y else s * y := by
  rw [Ideal.ofBits_zero_f32]
  unfold Scalar.select Ideal.cmp
  by_cases h : (0 : EReal) ≤ y
  · simp [h]
  · simp [h]

end Cert.LibRowOps

end
-- ==== Proof.LibUnitAxis.lean ====
/-
  A vector seen as a one-column or a one-row array. Viewing an a-vector as an a × 1 column (a change of shape keeping
  the row-major order) gives the same array as repeating the vector along a new unit axis, which is how a host program
  writes `v[:, None]`; likewise for the 1 × a row. Both read, at any entry, the vector at the entry's only free
  coordinate.
-/
import Idealize.ShloMosaic.Lib.Pipeline.Value
import Idealize.ShloMosaic.Lib.ValueIdx
import Idealize.ShloMosaic.Lib.ValueLayout
import proofs.«103547_j33792802685826_2_alg».proof.Proof.LibRowOps

noncomputable section

namespace Cert.UnitAxis

open Idealize.ShloMosaic Idealize.ShloMosaic.ValueIdx

variable {α : Type}

/-- A vector viewed as a column is the vector repeated into a one-column array along its own axis. -/
theorem col_eq {a : ℕ} (x : (⟨1, ![a]⟩ : Shape).Idx → α) (h : (⟨1, ![a]⟩ : Shape).ShapeCasts ⟨2, ![a, 1]⟩)
    (h' : (⟨1, ![a]⟩ : Shape).BroadcastsInDim ⟨2, ![a, 1]⟩ ![0]) :
    shapeCast ⟨2, ![a, 1]⟩ x h = broadcastInDim ⟨2, ![a, 1]⟩ ![0] h' x := by
  funext i
  obtain ⟨p, u, rfl⟩ : ∃ (p : Fin a) (u : Fin 1), i = ix2 p u := ⟨i 0, i 1, eq_ix2 i⟩
  rw [Cert.LibRowOps.shapeCast_a_a1_apply]
  refine (broadcastInDim_apply ![0] h' x (ix2 p u) (ix1 p) fun ax => ?_).symm
  match ax with
  | ⟨0, _⟩ =>
    show p.val = if a = 1 then 0 else p.val
    split
    · have := p.isLt; omega
    · rfl

/-- A vector viewed as a row is the vector repeated into a one-row array along its own axis. -/
theorem row_eq {a : ℕ} (x : (⟨1, ![a]⟩ : Shape).Idx → α) (h : (⟨1, ![a]⟩ : Shape).ShapeCasts ⟨2, ![1, a]⟩)
    (h' : (⟨1, ![a]⟩ : Shape).BroadcastsInDim ⟨2, ![1, a]⟩ ![1]) :
    shapeCast ⟨2, ![1, a]⟩ x h = broadcastInDim ⟨2, ![1, a]⟩ ![1] h' x := by
  funext i
  obtain ⟨u, q, rfl⟩ : ∃ (u : Fin 1) (q : Fin a), i = ix2 u q := ⟨i 0, i 1, eq_ix2 i⟩
  rw [shapeCast_a_1a_apply]
  refine (broadcastInDim_apply ![1] h' x (ix2 u q) (ix1 q) fun ax => ?_).symm
  match ax with
  | ⟨0, _⟩ =>
    show q.val = if a = 1 then 0 else q.val
    split
    · have := q.isLt; omega
    · rfl

end Cert.UnitAxis

end
-- ==== Proof.Scale1.lean ====
/-
  The edge-wise scaling region number 1: every grid point takes a block of 8000 rows of 64 entries and the same
  8000 rows of a one-column array of factors, and writes back each row multiplied by its factor. The blocks tile the
  1,600,000 rows, so the array the region leaves is the scaling of the whole array of rows by the whole column of
  factors, whatever the buffers held when the region was entered.
-/
import proofs.«103547_j33792802685826_2_alg».proof.Proof.Gen.KernelIdeal.Frame
import proofs.«103547_j33792802685826_2_alg».proof.Proof.LibGraphOps
import proofs.«103547_j33792802685826_2_alg».proof.Proof.LibRowOps
import Idealize.ShloMosaic.Lib.Pipeline.Value

set_option maxRecDepth 16384

noncomputable section

namespace Cert.KernelIdeal.Scale1

open Cert.KernelIdeal Cert.KernelIdeal.Gen Idealize.ShloMosaic Idealize.ShloMosaic.TcCoe Idealize.SL.Sem
open Idealize.ShloMosaic.ValueIdx
open Idealize.ShloMosaic.Pipeline (Dat)
open Cert.GraphOps

variable (V : (c : Dev nD) → (b : Ref sig .tc) → Buf (Elt Ideal) ((c : Thread nD τ).loc b))

theorem hz : (![0, 0] : Fin 2 → Nat) = fun _ => 0 := funext fun a => by fin_cases a <;> rfl

/-- The body at an entry of its block: the row's entry times the row's factor. -/
theorem body_apply (x0 : Vec Ideal S8000x64 .f32) (x1 : Vec Ideal S8000x1 .f32) (p : Fin 8000) (q : Fin 64) :
    k1_pay1 x0 x1 (ix2 p q) = x0 (ix2 p q) * x1 (ix2 p 0) := by
  unfold k1_pay1
  show shapeCast S8000x64 x0 shapeCasts_S8000x64_S8000x64 (ix2 p q)
      * broadcastTo S8000x64 (shapeCast S8000x1 x1 shapeCasts_S8000x1_S8000x1) broadcasts_S8000x1_S8000x64 (ix2 p q) = _
  rw [shapeCast_self, shapeCast_self, Cert.LibRowOps.broadcastTo_a1_ab_apply]

/-- The three windows move together: point t takes block t of the rows and the only block of the columns. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

theorem lt_grid (t : Fin cfg1.N) : t.val < 200 := by
  have h : t.val < grid1.N := t.isLt
  rw [N_1] at h; exact h

/-- Row p of point t's block of the rows is row 8000 t + p of the array. -/
theorem rows_read (c : Dev nD) (t : Fin cfg1.N) (p : Fin 8000) (q : Fin 64) (hp : t.val * 8000 + p.val < 1600000) :
    iblk1 V c 0 t (ix2 p q) = (V c main_v39 : Mat 1600000 64) (ix2 ⟨t.val * 8000 + p.val, hp⟩ q) := by
  obtain ⟨e0, e1, e2, e3, e4, e5⟩ := idx_facts t
  show (V c main_v39 : Mat 1600000 64) (((cfg1.win 0).blk t).view.emb (ix2 p q)) = _
  refine congrArg _ (funext fun a => Fin.ext ?_)
  match a with
  | ⟨0, _⟩ => show win1_0.index t (0 : Fin 2) * 8000 + 1 * p.val = t.val * 8000 + p.val; rw [e0]; omega
  | ⟨1, _⟩ => show win1_0.index t (1 : Fin 2) * 64 + 1 * q.val = q.val; rw [e1]; omega

/-- Row p of point t's block of the factors is row 8000 t + p of the column of factors. -/
theorem factors_read (c : Dev nD) (t : Fin cfg1.N) (p : Fin 8000) (hp : t.val * 8000 + p.val < 1600000) :
    iblk1 V c 1 t (ix2 p 0) = (V c main_v32 : Mat 1600000 1) (ix2 ⟨t.val * 8000 + p.val, hp⟩ 0) := by
  obtain ⟨e0, e1, e2, e3, e4, e5⟩ := idx_facts t
  show (V c main_v32 : Mat 1600000 1) (((cfg1.win 1).blk t).view.emb (ix2 p 0)) = _
  refine congrArg _ (funext fun a => Fin.ext ?_)
  match a with
  | ⟨0, _⟩ => show win1_1.index t (0 : Fin 2) * 8000 + 1 * p.val = t.val * 8000 + p.val; rw [e2]; omega
  | ⟨1, _⟩ => show win1_1.index t (1 : Fin 2) * 1 + 1 * 0 = 0; rw [e3]

/-- What point t writes back is block t of the scaled rows. -/
theorem flushed_eq (c : Dev nD) (t : Fin cfg1.N) :
    (dat1 V c).flushed 2 t
      = ((cfg1.win 2).blk t).view.read (Elt Ideal) (scaleRows 1600000 64 (V c main_v39) (V c main_v32)) := by
  show (cfg1.win 2).cut (grid1.coords t) ((dat1 V c).after 2 t) = _
  rw [after1_2]
  unfold out1_2
  rw [View.canon_unit_zero hz]
  simp only [View.ld_unit_zero (S := S8000x64) hz, View.ld_unit_zero (S := S8000x1) hz]
  obtain ⟨e0, e1, e2, e3, e4, e5⟩ := idx_facts t
  have ht := lt_grid t
  funext j
  obtain ⟨p, q, rfl⟩ : ∃ (p : Fin 8000) (q : Fin 64), j = ix2 p q := ⟨j 0, j 1, eq_ix2 j⟩
  have hp : t.val * 8000 + p.val < 1600000 := by have := p.isLt; omega
  show k1_pay1 (iblk1 V c 0 t) (iblk1 V c 1 t) (ix2 p q)
      = scaleRows 1600000 64 (V c main_v39) (V c main_v32) (((cfg1.win 2).blk t).view.emb (ix2 p q))
  have hE : ((cfg1.win 2).blk t).view.emb (ix2 p q) = (ix2 ⟨t.val * 8000 + p.val, hp⟩ q : (⟨2, ![1600000, 64]⟩ : Shape).Idx) :=
    funext fun a => Fin.ext (by
      match a with
      | ⟨0, _⟩ => show win1_2.index t (0 : Fin 2) * 8000 + 1 * p.val = t.val * 8000 + p.val; rw [e4]; omega
      | ⟨1, _⟩ => show win1_2.index t (1 : Fin 2) * 64 + 1 * q.val = q.val; rw [e5]; omega)
  rw [hE, scaleRows_apply]
  refine (body_apply (iblk1 V c 0 t) (iblk1 V c 1 t) p q).trans ?_
  rw [rows_read V c t p q hp, factors_read V c t p hp]

/-- An index of the array is in point t's block iff each coordinate is in the block's range on its axis. -/
theorem mem_blk (t : Fin cfg1.N) (i : S1600000x64.Idx) :
    i ∈ ((cfg1.win 2).blk t).view.set ↔ ∀ a : Fin 2, win1_2.index t a * S8000x64.size a ≤ (i a).val
      ∧ (i a).val < win1_2.index t a * S8000x64.size a + S8000x64.size a := by
  show i ∈ ((View.whole main_v40).slice (win1_2.rect t)).set ↔ _
  rw [View.set_slice_whole, Rect.mem_set_unit]
  exact Iff.rfl

/-- Every row lies in the block of the point numbered by the row's quotient by 8000. -/
theorem cover (i : S1600000x64.Idx) :
    ∃ t : Fin cfg1.N, (cfg1.win 2).flush t = true ∧ i ∈ ((cfg1.win 2).blk t).view.set := by
  have hi0 : (i 0).val < 1600000 := (i 0).isLt
  have hi1 : (i 1).val < 64 := (i 1).isLt
  have hN : (i 0).val / 8000 < grid1.N := by rw [N_1]; omega
  obtain ⟨e0, e1, e2, e3, e4, e5⟩ := idx_facts ⟨(i 0).val / 8000, hN⟩
  refine ⟨⟨(i 0).val / 8000, hN⟩, flush1_2 _, ?_⟩
  rw [mem_blk]
  intro a
  match a with
  | ⟨0, _⟩ =>
    show win1_2.index ⟨(i 0).val / 8000, hN⟩ (0 : Fin 2) * 8000 ≤ (i 0).val
      ∧ (i 0).val < win1_2.index ⟨(i 0).val / 8000, hN⟩ (0 : Fin 2) * 8000 + 8000
    rw [e4]; show (i 0).val / 8000 * 8000 ≤ (i 0).val ∧ (i 0).val < (i 0).val / 8000 * 8000 + 8000; omega
  | ⟨1, _⟩ =>
    show win1_2.index ⟨(i 0).val / 8000, hN⟩ (1 : Fin 2) * 64 ≤ (i 1).val
      ∧ (i 1).val < win1_2.index ⟨(i 0).val / 8000, hN⟩ (1 : Fin 2) * 64 + 64
    rw [e5]; omega

/-- The array the region leaves: the rows scaled by their factors. -/
theorem result (c : Dev nD) :
    (dat1 V c).arrAt 2 cfg1.N = scaleRows 1600000 64 (V c main_v39) (V c main_v32) :=
  (dat1 V c).arrAt_eq_of_cover 2 _ (fun t _ => flushed_eq V c t) cover

end Cert.KernelIdeal.Scale1

end
-- ==== Proof.Scale4.lean ====
/-
  The edge-wise scaling region number 4: every grid point takes a block of 8000 rows of 64 entries and the same
  8000 rows of a one-column array of factors, and writes back each row multiplied by its factor. The blocks tile the
  1,600,000 rows, so the array the region leaves is the scaling of the whole array of rows by the whole column of
  factors, whatever the buffers held when the region was entered.
-/
import proofs.«103547_j33792802685826_2_alg».proof.Proof.Gen.KernelIdeal.Frame
import proofs.«103547_j33792802685826_2_alg».proof.Proof.LibGraphOps
import proofs.«103547_j33792802685826_2_alg».proof.Proof.LibRowOps
import Idealize.ShloMosaic.Lib.Pipeline.Value

set_option maxRecDepth 16384

noncomputable section

namespace Cert.KernelIdeal.Scale4

open Cert.KernelIdeal Cert.KernelIdeal.Gen Idealize.ShloMosaic Idealize.ShloMosaic.TcCoe Idealize.SL.Sem
open Idealize.ShloMosaic.ValueIdx
open Idealize.ShloMosaic.Pipeline (Dat)
open Cert.GraphOps

variable (V : (c : Dev nD) → (b : Ref sig .tc) → Buf (Elt Ideal) ((c : Thread nD τ).loc b))

theorem hz : (![0, 0] : Fin 2 → Nat) = fun _ => 0 := funext fun a => by fin_cases a <;> rfl

/-- The body at an entry of its block: the row's entry times the row's factor. -/
theorem body_apply (x0 : Vec Ideal S8000x64 .f32) (x1 : Vec Ideal S8000x1 .f32) (p : Fin 8000) (q : Fin 64) :
    k4_pay1 x0 x1 (ix2 p q) = x0 (ix2 p q) * x1 (ix2 p 0) := by
  unfold k4_pay1
  show shapeCast S8000x64 x0 shapeCasts_S8000x64_S8000x64 (ix2 p q)
      * broadcastTo S8000x64 (shapeCast S8000x1 x1 shapeCasts_S8000x1_S8000x1) broadcasts_S8000x1_S8000x64 (ix2 p q) = _
  rw [shapeCast_self, shapeCast_self, Cert.LibRowOps.broadcastTo_a1_ab_apply]

/-- The three windows move together: point t takes block t of the rows and the only block of the columns. -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

theorem lt_grid (t : Fin cfg4.N) : t.val < 200 := by
  have h : t.val < grid4.N := t.isLt
  rw [N_4] at h; exact h

/-- Row p of point t's block of the rows is row 8000 t + p of the array. -/
theorem rows_read (c : Dev nD) (t : Fin cfg4.N) (p : Fin 8000) (q : Fin 64) (hp : t.val * 8000 + p.val < 1600000) :
    iblk4 V c 0 t (ix2 p q) = (V c main_v68 : Mat 1600000 64) (ix2 ⟨t.val * 8000 + p.val, hp⟩ q) := by
  obtain ⟨e0, e1, e2, e3, e4, e5⟩ := idx_facts t
  show (V c main_v68 : Mat 1600000 64) (((cfg4.win 0).blk t).view.emb (ix2 p q)) = _
  refine congrArg _ (funext fun a => Fin.ext ?_)
  match a with
  | ⟨0, _⟩ => show win4_0.index t (0 : Fin 2) * 8000 + 1 * p.val = t.val * 8000 + p.val; rw [e0]; omega
  | ⟨1, _⟩ => show win4_0.index t (1 : Fin 2) * 64 + 1 * q.val = q.val; rw [e1]; omega

/-- Row p of point t's block of the factors is row 8000 t + p of the column of factors. -/
theorem factors_read (c : Dev nD) (t : Fin cfg4.N) (p : Fin 8000) (hp : t.val * 8000 + p.val < 1600000) :
    iblk4 V c 1 t (ix2 p 0) = (V c main_v61 : Mat 1600000 1) (ix2 ⟨t.val * 8000 + p.val, hp⟩ 0) := by
  obtain ⟨e0, e1, e2, e3, e4, e5⟩ := idx_facts t
  show (V c main_v61 : Mat 1600000 1) (((cfg4.win 1).blk t).view.emb (ix2 p 0)) = _
  refine congrArg _ (funext fun a => Fin.ext ?_)
  match a with
  | ⟨0, _⟩ => show win4_1.index t (0 : Fin 2) * 8000 + 1 * p.val = t.val * 8000 + p.val; rw [e2]; omega
  | ⟨1, _⟩ => show win4_1.index t (1 : Fin 2) * 1 + 1 * 0 = 0; rw [e3]

/-- What point t writes back is block t of the scaled rows. -/
theorem flushed_eq (c : Dev nD) (t : Fin cfg4.N) :
    (dat4 V c).flushed 2 t
      = ((cfg4.win 2).blk t).view.read (Elt Ideal) (scaleRows 1600000 64 (V c main_v68) (V c main_v61)) := by
  show (cfg4.win 2).cut (grid4.coords t) ((dat4 V c).after 2 t) = _
  rw [after4_2]
  unfold out4_2
  rw [View.canon_unit_zero hz]
  simp only [View.ld_unit_zero (S := S8000x64) hz, View.ld_unit_zero (S := S8000x1) hz]
  obtain ⟨e0, e1, e2, e3, e4, e5⟩ := idx_facts t
  have ht := lt_grid t
  funext j
  obtain ⟨p, q, rfl⟩ : ∃ (p : Fin 8000) (q : Fin 64), j = ix2 p q := ⟨j 0, j 1, eq_ix2 j⟩
  have hp : t.val * 8000 + p.val < 1600000 := by have := p.isLt; omega
  show k4_pay1 (iblk4 V c 0 t) (iblk4 V c 1 t) (ix2 p q)
      = scaleRows 1600000 64 (V c main_v68) (V c main_v61) (((cfg4.win 2).blk t).view.emb (ix2 p q))
  have hE : ((cfg4.win 2).blk t).view.emb (ix2 p q) = (ix2 ⟨t.val * 8000 + p.val, hp⟩ q : (⟨2, ![1600000, 64]⟩ : Shape).Idx) :=
    funext fun a => Fin.ext (by
      match a with
      | ⟨0, _⟩ => show win4_2.index t (0 : Fin 2) * 8000 + 1 * p.val = t.val * 8000 + p.val; rw [e4]; omega
      | ⟨1, _⟩ => show win4_2.index t (1 : Fin 2) * 64 + 1 * q.val = q.val; rw [e5]; omega)
  rw [hE, scaleRows_apply]
  refine (body_apply (iblk4 V c 0 t) (iblk4 V c 1 t) p q).trans ?_
  rw [rows_read V c t p q hp, factors_read V c t p hp]

/-- An index of the array is in point t's block iff each coordinate is in the block's range on its axis. -/
theorem mem_blk (t : Fin cfg4.N) (i : S1600000x64.Idx) :
    i ∈ ((cfg4.win 2).blk t).view.set ↔ ∀ a : Fin 2, win4_2.index t a * S8000x64.size a ≤ (i a).val
      ∧ (i a).val < win4_2.index t a * S8000x64.size a + S8000x64.size a := by
  show i ∈ ((View.whole main_v69).slice (win4_2.rect t)).set ↔ _
  rw [View.set_slice_whole, Rect.mem_set_unit]
  exact Iff.rfl

/-- Every row lies in the block of the point numbered by the row's quotient by 8000. -/
theorem cover (i : S1600000x64.Idx) :
    ∃ t : Fin cfg4.N, (cfg4.win 2).flush t = true ∧ i ∈ ((cfg4.win 2).blk t).view.set := by
  have hi0 : (i 0).val < 1600000 := (i 0).isLt
  have hi1 : (i 1).val < 64 := (i 1).isLt
  have hN : (i 0).val / 8000 < grid4.N := by rw [N_4]; omega
  obtain ⟨e0, e1, e2, e3, e4, e5⟩ := idx_facts ⟨(i 0).val / 8000, hN⟩
  refine ⟨⟨(i 0).val / 8000, hN⟩, flush4_2 _, ?_⟩
  rw [mem_blk]
  intro a
  match a with
  | ⟨0, _⟩ =>
    show win4_2.index ⟨(i 0).val / 8000, hN⟩ (0 : Fin 2) * 8000 ≤ (i 0).val
      ∧ (i 0).val < win4_2.index ⟨(i 0).val / 8000, hN⟩ (0 : Fin 2) * 8000 + 8000
    rw [e4]; show (i 0).val / 8000 * 8000 ≤ (i 0).val ∧ (i 0).val < (i 0).val / 8000 * 8000 + 8000; omega
  | ⟨1, _⟩ =>
    show win4_2.index ⟨(i 0).val / 8000, hN⟩ (1 : Fin 2) * 64 ≤ (i 1).val
      ∧ (i 1).val < win4_2.index ⟨(i 0).val / 8000, hN⟩ (1 : Fin 2) * 64 + 64
    rw [e5]; omega

/-- The array the region leaves: the rows scaled by their factors. -/
theorem result (c : Dev nD) :
    (dat4 V c).arrAt 2 cfg4.N = scaleRows 1600000 64 (V c main_v68) (V c main_v61) :=
  (dat4 V c).arrAt_eq_of_cover 2 _ (fun t _ => flushed_eq V c t) cover

end Cert.KernelIdeal.Scale4

end
-- ==== Proof.Scale7.lean ====
/-
  The edge-wise scaling region number 7: every grid point takes a block of 8000 rows of 64 entries and the same
  8000 rows of a one-column array of factors, and writes back each row multiplied by its factor. The blocks tile the
  1,600,000 rows, so the array the region leaves is the scaling of the whole array of rows by the whole column of
  factors, whatever the buffers held when the region was entered.
-/
import proofs.«103547_j33792802685826_2_alg».proof.Proof.Gen.KernelIdeal.Frame
import proofs.«103547_j33792802685826_2_alg».proof.Proof.LibGraphOps
import proofs.«103547_j33792802685826_2_alg».proof.Proof.LibRowOps
import Idealize.ShloMosaic.Lib.Pipeline.Value

set_option maxRecDepth 16384

noncomputable section

namespace Cert.KernelIdeal.Scale7

open Cert.KernelIdeal Cert.KernelIdeal.Gen Idealize.ShloMosaic Idealize.ShloMosaic.TcCoe Idealize.SL.Sem
open Idealize.ShloMosaic.ValueIdx
open Idealize.ShloMosaic.Pipeline (Dat)
open Cert.GraphOps

variable (V : (c : Dev nD) → (b : Ref sig .tc) → Buf (Elt Ideal) ((c : Thread nD τ).loc b))

theorem hz : (![0, 0] : Fin 2 → Nat) = fun _ => 0 := funext fun a => by fin_cases a <;> rfl

/-- The body at an entry of its block: the row's entry times the row's factor. -/
theorem body_apply (x0 : Vec Ideal S8000x64 .f32) (x1 : Vec Ideal S8000x1 .f32) (p : Fin 8000) (q : Fin 64) :
    k7_pay1 x0 x1 (ix2 p q) = x0 (ix2 p q) * x1 (ix2 p 0) := by
  unfold k7_pay1
  show shapeCast S8000x64 x0 shapeCasts_S8000x64_S8000x64 (ix2 p q)
      * broadcastTo S8000x64 (shapeCast S8000x1 x1 shapeCasts_S8000x1_S8000x1) broadcasts_S8000x1_S8000x64 (ix2 p q) = _
  rw [shapeCast_self, shapeCast_self, Cert.LibRowOps.broadcastTo_a1_ab_apply]

/-- The three windows move together: point t takes block t of the rows and the only block of the columns. -/
theorem idx_facts : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0 :=
  (by decide +kernel : ∀ t : Fin grid7.N, _)

theorem lt_grid (t : Fin cfg7.N) : t.val < 200 := by
  have h : t.val < grid7.N := t.isLt
  rw [N_7] at h; exact h

/-- Row p of point t's block of the rows is row 8000 t + p of the array. -/
theorem rows_read (c : Dev nD) (t : Fin cfg7.N) (p : Fin 8000) (q : Fin 64) (hp : t.val * 8000 + p.val < 1600000) :
    iblk7 V c 0 t (ix2 p q) = (V c main_v97 : Mat 1600000 64) (ix2 ⟨t.val * 8000 + p.val, hp⟩ q) := by
  obtain ⟨e0, e1, e2, e3, e4, e5⟩ := idx_facts t
  show (V c main_v97 : Mat 1600000 64) (((cfg7.win 0).blk t).view.emb (ix2 p q)) = _
  refine congrArg _ (funext fun a => Fin.ext ?_)
  match a with
  | ⟨0, _⟩ => show win7_0.index t (0 : Fin 2) * 8000 + 1 * p.val = t.val * 8000 + p.val; rw [e0]; omega
  | ⟨1, _⟩ => show win7_0.index t (1 : Fin 2) * 64 + 1 * q.val = q.val; rw [e1]; omega

/-- Row p of point t's block of the factors is row 8000 t + p of the column of factors. -/
theorem factors_read (c : Dev nD) (t : Fin cfg7.N) (p : Fin 8000) (hp : t.val * 8000 + p.val < 1600000) :
    iblk7 V c 1 t (ix2 p 0) = (V c main_v90 : Mat 1600000 1) (ix2 ⟨t.val * 8000 + p.val, hp⟩ 0) := by
  obtain ⟨e0, e1, e2, e3, e4, e5⟩ := idx_facts t
  show (V c main_v90 : Mat 1600000 1) (((cfg7.win 1).blk t).view.emb (ix2 p 0)) = _
  refine congrArg _ (funext fun a => Fin.ext ?_)
  match a with
  | ⟨0, _⟩ => show win7_1.index t (0 : Fin 2) * 8000 + 1 * p.val = t.val * 8000 + p.val; rw [e2]; omega
  | ⟨1, _⟩ => show win7_1.index t (1 : Fin 2) * 1 + 1 * 0 = 0; rw [e3]

/-- What point t writes back is block t of the scaled rows. -/
theorem flushed_eq (c : Dev nD) (t : Fin cfg7.N) :
    (dat7 V c).flushed 2 t
      = ((cfg7.win 2).blk t).view.read (Elt Ideal) (scaleRows 1600000 64 (V c main_v97) (V c main_v90)) := by
  show (cfg7.win 2).cut (grid7.coords t) ((dat7 V c).after 2 t) = _
  rw [after7_2]
  unfold out7_2
  rw [View.canon_unit_zero hz]
  simp only [View.ld_unit_zero (S := S8000x64) hz, View.ld_unit_zero (S := S8000x1) hz]
  obtain ⟨e0, e1, e2, e3, e4, e5⟩ := idx_facts t
  have ht := lt_grid t
  funext j
  obtain ⟨p, q, rfl⟩ : ∃ (p : Fin 8000) (q : Fin 64), j = ix2 p q := ⟨j 0, j 1, eq_ix2 j⟩
  have hp : t.val * 8000 + p.val < 1600000 := by have := p.isLt; omega
  show k7_pay1 (iblk7 V c 0 t) (iblk7 V c 1 t) (ix2 p q)
      = scaleRows 1600000 64 (V c main_v97) (V c main_v90) (((cfg7.win 2).blk t).view.emb (ix2 p q))
  have hE : ((cfg7.win 2).blk t).view.emb (ix2 p q) = (ix2 ⟨t.val * 8000 + p.val, hp⟩ q : (⟨2, ![1600000, 64]⟩ : Shape).Idx) :=
    funext fun a => Fin.ext (by
      match a with
      | ⟨0, _⟩ => show win7_2.index t (0 : Fin 2) * 8000 + 1 * p.val = t.val * 8000 + p.val; rw [e4]; omega
      | ⟨1, _⟩ => show win7_2.index t (1 : Fin 2) * 64 + 1 * q.val = q.val; rw [e5]; omega)
  rw [hE, scaleRows_apply]
  refine (body_apply (iblk7 V c 0 t) (iblk7 V c 1 t) p q).trans ?_
  rw [rows_read V c t p q hp, factors_read V c t p hp]

/-- An index of the array is in point t's block iff each coordinate is in the block's range on its axis. -/
theorem mem_blk (t : Fin cfg7.N) (i : S1600000x64.Idx) :
    i ∈ ((cfg7.win 2).blk t).view.set ↔ ∀ a : Fin 2, win7_2.index t a * S8000x64.size a ≤ (i a).val
      ∧ (i a).val < win7_2.index t a * S8000x64.size a + S8000x64.size a := by
  show i ∈ ((View.whole main_v98).slice (win7_2.rect t)).set ↔ _
  rw [View.set_slice_whole, Rect.mem_set_unit]
  exact Iff.rfl

/-- Every row lies in the block of the point numbered by the row's quotient by 8000. -/
theorem cover (i : S1600000x64.Idx) :
    ∃ t : Fin cfg7.N, (cfg7.win 2).flush t = true ∧ i ∈ ((cfg7.win 2).blk t).view.set := by
  have hi0 : (i 0).val < 1600000 := (i 0).isLt
  have hi1 : (i 1).val < 64 := (i 1).isLt
  have hN : (i 0).val / 8000 < grid7.N := by rw [N_7]; omega
  obtain ⟨e0, e1, e2, e3, e4, e5⟩ := idx_facts ⟨(i 0).val / 8000, hN⟩
  refine ⟨⟨(i 0).val / 8000, hN⟩, flush7_2 _, ?_⟩
  rw [mem_blk]
  intro a
  match a with
  | ⟨0, _⟩ =>
    show win7_2.index ⟨(i 0).val / 8000, hN⟩ (0 : Fin 2) * 8000 ≤ (i 0).val
      ∧ (i 0).val < win7_2.index ⟨(i 0).val / 8000, hN⟩ (0 : Fin 2) * 8000 + 8000
    rw [e4]; show (i 0).val / 8000 * 8000 ≤ (i 0).val ∧ (i 0).val < (i 0).val / 8000 * 8000 + 8000; omega
  | ⟨1, _⟩ =>
    show win7_2.index ⟨(i 0).val / 8000, hN⟩ (1 : Fin 2) * 64 ≤ (i 1).val
      ∧ (i 1).val < win7_2.index ⟨(i 0).val / 8000, hN⟩ (1 : Fin 2) * 64 + 64
    rw [e5]; omega

/-- The array the region leaves: the rows scaled by their factors. -/
theorem result (c : Dev nD) :
    (dat7 V c).arrAt 2 cfg7.N = scaleRows 1600000 64 (V c main_v97) (V c main_v90) :=
  (dat7 V c).arrAt_eq_of_cover 2 _ (fun t _ => flushed_eq V c t) cover

end Cert.KernelIdeal.Scale7

end
-- ==== Proof.SelfLoop2.lean ====
/-
  The self-loop region number 2 of a graph convolution: every grid point takes a block of 5000 node rows of the
  aggregated neighbours and of the nodes' own projections, the same 5000 rows of the one-column array of self-loop
  weights and the one bias row, and writes back  aggregate + projection · weight + bias, rectified. The blocks tile
  the 100,000 node rows, so the array the region leaves is that function of the whole arrays, whatever the buffers held
  when the region was entered.
-/
import proofs.«103547_j33792802685826_2_alg».proof.Proof.Gen.KernelIdeal.Frame
import proofs.«103547_j33792802685826_2_alg».proof.Proof.LibGraphOps
import proofs.«103547_j33792802685826_2_alg».proof.Proof.LibRowOps
import Idealize.ShloMosaic.Lib.Pipeline.Value
import Idealize.ShloMosaic.Lib.ValueLayout

set_option maxRecDepth 16384

noncomputable section

namespace Cert.KernelIdeal.SelfLoop2

open Cert.KernelIdeal Cert.KernelIdeal.Gen Idealize.ShloMosaic Idealize.ShloMosaic.TcCoe Idealize.SL.Sem
open Idealize.ShloMosaic.ValueIdx
open Idealize.ShloMosaic.Pipeline (Dat)
open Cert.GraphOps

variable (V : (c : Dev nD) → (b : Ref sig .tc) → Buf (Elt Ideal) ((c : Thread nD τ).loc b))

theorem hz : (![0, 0] : Fin 2 → Nat) = fun _ => 0 := funext fun a => by fin_cases a <;> rfl

/-- The body at an entry of its block. -/
theorem body_apply (x0 x1 : Vec Ideal S5000x64 .f32) (x2 : Vec Ideal S5000x1 .f32) (x3 : Vec Ideal S1x64 .f32)
    (p : Fin 5000) (q : Fin 64) :
    k2_pay1 x0 x1 x2 x3 (ix2 p q)
      = max (x0 (ix2 p q) + x1 (ix2 p q) * x2 (ix2 p 0) + x3 (ix2 0 q)) (Ideal.ofBits .f32 0x00000000#32) := by
  unfold k2_pay1
  show max (shapeCast S5000x64 x0 shapeCasts_S5000x64_S5000x64 (ix2 p q)
      + shapeCast S5000x64 x1 shapeCasts_S5000x64_S5000x64 (ix2 p q)
        * broadcastTo S5000x64 (shapeCast S5000x1 x2 shapeCasts_S5000x1_S5000x1) broadcasts_S5000x1_S5000x64 (ix2 p q)
      + broadcastTo S5000x64 (shapeCast S1x64 x3 shapeCasts_S1x64_S1x64) broadcasts_S1x64_S5000x64 (ix2 p q)) (Ideal.ofBits .f32 0x00000000#32) = _
  rw [shapeCast_self, shapeCast_self, shapeCast_self, shapeCast_self, Cert.LibRowOps.broadcastTo_a1_ab_apply,
    broadcastTo_1b_ab_apply]

/-- The row windows move together, block t of the node rows; the bias row is the same at every point. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

theorem lt_grid (t : Fin cfg2.N) : t.val < 20 := by
  have h : t.val < grid2.N := t.isLt
  rw [N_2] at h; exact h

/-- Row p of point t's block of the aggregate is node row 5000 t + p. -/
theorem agg_read (c : Dev nD) (t : Fin cfg2.N) (p : Fin 5000) (q : Fin 64) (hp : t.val * 5000 + p.val < 100000) :
    iblk2 V c 0 t (ix2 p q) = (V c main_v43 : Mat 100000 64) (ix2 ⟨t.val * 5000 + p.val, hp⟩ q) := by
  obtain ⟨e0, e1, e2, e3, e4, e5, e6, e7, e8, e9⟩ := idx_facts t
  show (V c main_v43 : Mat 100000 64) (((cfg2.win 0).blk t).view.emb (ix2 p q)) = _
  refine congrArg _ (funext fun a => Fin.ext ?_)
  match a with
  | ⟨0, _⟩ => show win2_0.index t (0 : Fin 2) * 5000 + 1 * p.val = t.val * 5000 + p.val; rw [e0]; omega
  | ⟨1, _⟩ => show win2_0.index t (1 : Fin 2) * 64 + 1 * q.val = q.val; rw [e1]; omega

/-- Row p of point t's block of the projections is node row 5000 t + p. -/
theorem proj_read (c : Dev nD) (t : Fin cfg2.N) (p : Fin 5000) (q : Fin 64) (hp : t.val * 5000 + p.val < 100000) :
    iblk2 V c 1 t (ix2 p q) = (V c main_v16 : Mat 100000 64) (ix2 ⟨t.val * 5000 + p.val, hp⟩ q) := by
  obtain ⟨e0, e1, e2, e3, e4, e5, e6, e7, e8, e9⟩ := idx_facts t
  show (V c main_v16 : Mat 100000 64) (((cfg2.win 1).blk t).view.emb (ix2 p q)) = _
  refine congrArg _ (funext fun a => Fin.ext ?_)
  match a with
  | ⟨0, _⟩ => show win2_1.index t (0 : Fin 2) * 5000 + 1 * p.val = t.val * 5000 + p.val; rw [e2]; omega
  | ⟨1, _⟩ => show win2_1.index t (1 : Fin 2) * 64 + 1 * q.val = q.val; rw [e3]; omega

/-- Row p of point t's block of the weights is node row 5000 t + p of the column of weights. -/
theorem weight_read (c : Dev nD) (t : Fin cfg2.N) (p : Fin 5000) (hp : t.val * 5000 + p.val < 100000) :
    iblk2 V c 2 t (ix2 p 0) = (V c main_v12 : Mat 100000 1) (ix2 ⟨t.val * 5000 + p.val, hp⟩ 0) := by
  obtain ⟨e0, e1, e2, e3, e4, e5, e6, e7, e8, e9⟩ := idx_facts t
  show (V c main_v12 : Mat 100000 1) (((cfg2.win 2).blk t).view.emb (ix2 p 0)) = _
  refine congrArg _ (funext fun a => Fin.ext ?_)
  match a with
  | ⟨0, _⟩ => show win2_2.index t (0 : Fin 2) * 5000 + 1 * p.val = t.val * 5000 + p.val; rw [e4]; omega
  | ⟨1, _⟩ => show win2_2.index t (1 : Fin 2) * 1 + 1 * 0 = 0; rw [e5]

/-- Every point's block of the bias is the whole bias row. -/
theorem bias_read (c : Dev nD) (t : Fin cfg2.N) (q : Fin 64) :
    iblk2 V c 3 t (ix2 0 q) = (V c main_v13 : Mat 1 64) (ix2 0 q) := by
  obtain ⟨e0, e1, e2, e3, e4, e5, e6, e7, e8, e9⟩ := idx_facts t
  show (V c main_v13 : Mat 1 64) (((cfg2.win 3).blk t).view.emb (ix2 0 q)) = _
  refine congrArg _ (funext fun a => Fin.ext ?_)
  match a with
  | ⟨0, _⟩ => show win2_3.index t (0 : Fin 2) * 1 + 1 * 0 = 0; rw [e6]
  | ⟨1, _⟩ => show win2_3.index t (1 : Fin 2) * 64 + 1 * q.val = q.val; rw [e7]; omega

/-- The whole-array function the region computes. -/
abbrev whole (c : Dev nD) : Mat 100000 64 :=
  rectify (selfLoop 100000 64 (V c main_v43) (V c main_v16) (V c main_v12) (V c main_v13))

/-- What point t writes back is block t of the whole-array function. -/
theorem flushed_eq (c : Dev nD) (t : Fin cfg2.N) :
    (dat2 V c).flushed 4 t = ((cfg2.win 4).blk t).view.read (Elt Ideal) (whole V c) := by
  show (cfg2.win 4).cut (grid2.coords t) ((dat2 V c).after 4 t) = _
  rw [after2_4]
  unfold out2_4
  rw [View.canon_unit_zero hz]
  simp only [View.ld_unit_zero (S := S5000x64) hz, View.ld_unit_zero (S := S5000x1) hz, View.ld_unit_zero (S := S1x64) hz]
  obtain ⟨e0, e1, e2, e3, e4, e5, e6, e7, e8, e9⟩ := idx_facts t
  have ht := lt_grid t
  funext j
  obtain ⟨p, q, rfl⟩ : ∃ (p : Fin 5000) (q : Fin 64), j = ix2 p q := ⟨j 0, j 1, eq_ix2 j⟩
  have hp : t.val * 5000 + p.val < 100000 := by have := p.isLt; omega
  show k2_pay1 (iblk2 V c 0 t) (iblk2 V c 1 t) (iblk2 V c 2 t) (iblk2 V c 3 t) (ix2 p q)
      = whole V c (((cfg2.win 4).blk t).view.emb (ix2 p q))
  have hE : ((cfg2.win 4).blk t).view.emb (ix2 p q) = (ix2 ⟨t.val * 5000 + p.val, hp⟩ q : (⟨2, ![100000, 64]⟩ : Shape).Idx) :=
    funext fun a => Fin.ext (by
      match a with
      | ⟨0, _⟩ => show win2_4.index t (0 : Fin 2) * 5000 + 1 * p.val = t.val * 5000 + p.val; rw [e8]; omega
      | ⟨1, _⟩ => show win2_4.index t (1 : Fin 2) * 64 + 1 * q.val = q.val; rw [e9]; omega)
  rw [hE]
  refine (body_apply (iblk2 V c 0 t) (iblk2 V c 1 t) (iblk2 V c 2 t) (iblk2 V c 3 t) p q).trans ?_
  rw [agg_read V c t p q hp, proj_read V c t p q hp, weight_read V c t p hp, bias_read V c t q]
  rfl

/-- An index of the array is in point t's block iff each coordinate is in the block's range on its axis. -/
theorem mem_blk (t : Fin cfg2.N) (i : S100000x64.Idx) :
    i ∈ ((cfg2.win 4).blk t).view.set ↔ ∀ a : Fin 2, win2_4.index t a * S5000x64.size a ≤ (i a).val
      ∧ (i a).val < win2_4.index t a * S5000x64.size a + S5000x64.size a := by
  show i ∈ ((View.whole main_v44).slice (win2_4.rect t)).set ↔ _
  rw [View.set_slice_whole, Rect.mem_set_unit]
  exact Iff.rfl

/-- Every node row lies in the block of the point numbered by the row's quotient by 5000. -/
theorem cover (i : S100000x64.Idx) :
    ∃ t : Fin cfg2.N, (cfg2.win 4).flush t = true ∧ i ∈ ((cfg2.win 4).blk t).view.set := by
  have hi0 : (i 0).val < 100000 := (i 0).isLt
  have hi1 : (i 1).val < 64 := (i 1).isLt
  have hN : (i 0).val / 5000 < grid2.N := by rw [N_2]; omega
  obtain ⟨e0, e1, e2, e3, e4, e5, e6, e7, e8, e9⟩ := idx_facts ⟨(i 0).val / 5000, hN⟩
  refine ⟨⟨(i 0).val / 5000, hN⟩, flush2_4 _, ?_⟩
  rw [mem_blk]
  intro a
  match a with
  | ⟨0, _⟩ =>
    show win2_4.index ⟨(i 0).val / 5000, hN⟩ (0 : Fin 2) * 5000 ≤ (i 0).val
      ∧ (i 0).val < win2_4.index ⟨(i 0).val / 5000, hN⟩ (0 : Fin 2) * 5000 + 5000
    rw [e8]; show (i 0).val / 5000 * 5000 ≤ (i 0).val ∧ (i 0).val < (i 0).val / 5000 * 5000 + 5000; omega
  | ⟨1, _⟩ =>
    show win2_4.index ⟨(i 0).val / 5000, hN⟩ (1 : Fin 2) * 64 ≤ (i 1).val
      ∧ (i 1).val < win2_4.index ⟨(i 0).val / 5000, hN⟩ (1 : Fin 2) * 64 + 64
    rw [e9]; omega

/-- The array the region leaves. -/
theorem result (c : Dev nD) : (dat2 V c).arrAt 4 cfg2.N = whole V c :=
  (dat2 V c).arrAt_eq_of_cover 4 _ (fun t _ => flushed_eq V c t) cover

end Cert.KernelIdeal.SelfLoop2

end
-- ==== Proof.SelfLoop5.lean ====
/-
  The self-loop region number 5 of a graph convolution: every grid point takes a block of 5000 node rows of the
  aggregated neighbours and of the nodes' own projections, the same 5000 rows of the one-column array of self-loop
  weights and the one bias row, and writes back  aggregate + projection · weight + bias, rectified. The blocks tile
  the 100,000 node rows, so the array the region leaves is that function of the whole arrays, whatever the buffers held
  when the region was entered.
-/
import proofs.«103547_j33792802685826_2_alg».proof.Proof.Gen.KernelIdeal.Frame
import proofs.«103547_j33792802685826_2_alg».proof.Proof.LibGraphOps
import proofs.«103547_j33792802685826_2_alg».proof.Proof.LibRowOps
import Idealize.ShloMosaic.Lib.Pipeline.Value
import Idealize.ShloMosaic.Lib.ValueLayout

set_option maxRecDepth 16384

noncomputable section

namespace Cert.KernelIdeal.SelfLoop5

open Cert.KernelIdeal Cert.KernelIdeal.Gen Idealize.ShloMosaic Idealize.ShloMosaic.TcCoe Idealize.SL.Sem
open Idealize.ShloMosaic.ValueIdx
open Idealize.ShloMosaic.Pipeline (Dat)
open Cert.GraphOps

variable (V : (c : Dev nD) → (b : Ref sig .tc) → Buf (Elt Ideal) ((c : Thread nD τ).loc b))

theorem hz : (![0, 0] : Fin 2 → Nat) = fun _ => 0 := funext fun a => by fin_cases a <;> rfl

/-- The body at an entry of its block. -/
theorem body_apply (x0 x1 : Vec Ideal S5000x64 .f32) (x2 : Vec Ideal S5000x1 .f32) (x3 : Vec Ideal S1x64 .f32)
    (p : Fin 5000) (q : Fin 64) :
    k5_pay1 x0 x1 x2 x3 (ix2 p q)
      = max (x0 (ix2 p q) + x1 (ix2 p q) * x2 (ix2 p 0) + x3 (ix2 0 q)) (Ideal.ofBits .f32 0x00000000#32) := by
  unfold k5_pay1
  show max (shapeCast S5000x64 x0 shapeCasts_S5000x64_S5000x64 (ix2 p q)
      + shapeCast S5000x64 x1 shapeCasts_S5000x64_S5000x64 (ix2 p q)
        * broadcastTo S5000x64 (shapeCast S5000x1 x2 shapeCasts_S5000x1_S5000x1) broadcasts_S5000x1_S5000x64 (ix2 p q)
      + broadcastTo S5000x64 (shapeCast S1x64 x3 shapeCasts_S1x64_S1x64) broadcasts_S1x64_S5000x64 (ix2 p q)) (Ideal.ofBits .f32 0x00000000#32) = _
  rw [shapeCast_self, shapeCast_self, shapeCast_self, shapeCast_self, Cert.LibRowOps.broadcastTo_a1_ab_apply,
    broadcastTo_1b_ab_apply]

/-- The row windows move together, block t of the node rows; the bias row is the same at every point. -/
theorem idx_facts : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

theorem lt_grid (t : Fin cfg5.N) : t.val < 20 := by
  have h : t.val < grid5.N := t.isLt
  rw [N_5] at h; exact h

/-- Row p of point t's block of the aggregate is node row 5000 t + p. -/
theorem agg_read (c : Dev nD) (t : Fin cfg5.N) (p : Fin 5000) (q : Fin 64) (hp : t.val * 5000 + p.val < 100000) :
    iblk5 V c 0 t (ix2 p q) = (V c main_v72 : Mat 100000 64) (ix2 ⟨t.val * 5000 + p.val, hp⟩ q) := by
  obtain ⟨e0, e1, e2, e3, e4, e5, e6, e7, e8, e9⟩ := idx_facts t
  show (V c main_v72 : Mat 100000 64) (((cfg5.win 0).blk t).view.emb (ix2 p q)) = _
  refine congrArg _ (funext fun a => Fin.ext ?_)
  match a with
  | ⟨0, _⟩ => show win5_0.index t (0 : Fin 2) * 5000 + 1 * p.val = t.val * 5000 + p.val; rw [e0]; omega
  | ⟨1, _⟩ => show win5_0.index t (1 : Fin 2) * 64 + 1 * q.val = q.val; rw [e1]; omega

/-- Row p of point t's block of the projections is node row 5000 t + p. -/
theorem proj_read (c : Dev nD) (t : Fin cfg5.N) (p : Fin 5000) (q : Fin 64) (hp : t.val * 5000 + p.val < 100000) :
    iblk5 V c 1 t (ix2 p q) = (V c main_v45 : Mat 100000 64) (ix2 ⟨t.val * 5000 + p.val, hp⟩ q) := by
  obtain ⟨e0, e1, e2, e3, e4, e5, e6, e7, e8, e9⟩ := idx_facts t
  show (V c main_v45 : Mat 100000 64) (((cfg5.win 1).blk t).view.emb (ix2 p q)) = _
  refine congrArg _ (funext fun a => Fin.ext ?_)
  match a with
  | ⟨0, _⟩ => show win5_1.index t (0 : Fin 2) * 5000 + 1 * p.val = t.val * 5000 + p.val; rw [e2]; omega
  | ⟨1, _⟩ => show win5_1.index t (1 : Fin 2) * 64 + 1 * q.val = q.val; rw [e3]; omega

/-- Row p of point t's block of the weights is node row 5000 t + p of the column of weights. -/
theorem weight_read (c : Dev nD) (t : Fin cfg5.N) (p : Fin 5000) (hp : t.val * 5000 + p.val < 100000) :
    iblk5 V c 2 t (ix2 p 0) = (V c main_v12 : Mat 100000 1) (ix2 ⟨t.val * 5000 + p.val, hp⟩ 0) := by
  obtain ⟨e0, e1, e2, e3, e4, e5, e6, e7, e8, e9⟩ := idx_facts t
  show (V c main_v12 : Mat 100000 1) (((cfg5.win 2).blk t).view.emb (ix2 p 0)) = _
  refine congrArg _ (funext fun a => Fin.ext ?_)
  match a with
  | ⟨0, _⟩ => show win5_2.index t (0 : Fin 2) * 5000 + 1 * p.val = t.val * 5000 + p.val; rw [e4]; omega
  | ⟨1, _⟩ => show win5_2.index t (1 : Fin 2) * 1 + 1 * 0 = 0; rw [e5]

/-- Every point's block of the bias is the whole bias row. -/
theorem bias_read (c : Dev nD) (t : Fin cfg5.N) (q : Fin 64) :
    iblk5 V c 3 t (ix2 0 q) = (V c main_v14 : Mat 1 64) (ix2 0 q) := by
  obtain ⟨e0, e1, e2, e3, e4, e5, e6, e7, e8, e9⟩ := idx_facts t
  show (V c main_v14 : Mat 1 64) (((cfg5.win 3).blk t).view.emb (ix2 0 q)) = _
  refine congrArg _ (funext fun a => Fin.ext ?_)
  match a with
  | ⟨0, _⟩ => show win5_3.index t (0 : Fin 2) * 1 + 1 * 0 = 0; rw [e6]
  | ⟨1, _⟩ => show win5_3.index t (1 : Fin 2) * 64 + 1 * q.val = q.val; rw [e7]; omega

/-- The whole-array function the region computes. -/
abbrev whole (c : Dev nD) : Mat 100000 64 :=
  rectify (selfLoop 100000 64 (V c main_v72) (V c main_v45) (V c main_v12) (V c main_v14))

/-- What point t writes back is block t of the whole-array function. -/
theorem flushed_eq (c : Dev nD) (t : Fin cfg5.N) :
    (dat5 V c).flushed 4 t = ((cfg5.win 4).blk t).view.read (Elt Ideal) (whole V c) := by
  show (cfg5.win 4).cut (grid5.coords t) ((dat5 V c).after 4 t) = _
  rw [after5_4]
  unfold out5_4
  rw [View.canon_unit_zero hz]
  simp only [View.ld_unit_zero (S := S5000x64) hz, View.ld_unit_zero (S := S5000x1) hz, View.ld_unit_zero (S := S1x64) hz]
  obtain ⟨e0, e1, e2, e3, e4, e5, e6, e7, e8, e9⟩ := idx_facts t
  have ht := lt_grid t
  funext j
  obtain ⟨p, q, rfl⟩ : ∃ (p : Fin 5000) (q : Fin 64), j = ix2 p q := ⟨j 0, j 1, eq_ix2 j⟩
  have hp : t.val * 5000 + p.val < 100000 := by have := p.isLt; omega
  show k5_pay1 (iblk5 V c 0 t) (iblk5 V c 1 t) (iblk5 V c 2 t) (iblk5 V c 3 t) (ix2 p q)
      = whole V c (((cfg5.win 4).blk t).view.emb (ix2 p q))
  have hE : ((cfg5.win 4).blk t).view.emb (ix2 p q) = (ix2 ⟨t.val * 5000 + p.val, hp⟩ q : (⟨2, ![100000, 64]⟩ : Shape).Idx) :=
    funext fun a => Fin.ext (by
      match a with
      | ⟨0, _⟩ => show win5_4.index t (0 : Fin 2) * 5000 + 1 * p.val = t.val * 5000 + p.val; rw [e8]; omega
      | ⟨1, _⟩ => show win5_4.index t (1 : Fin 2) * 64 + 1 * q.val = q.val; rw [e9]; omega)
  rw [hE]
  refine (body_apply (iblk5 V c 0 t) (iblk5 V c 1 t) (iblk5 V c 2 t) (iblk5 V c 3 t) p q).trans ?_
  rw [agg_read V c t p q hp, proj_read V c t p q hp, weight_read V c t p hp, bias_read V c t q]
  rfl

/-- An index of the array is in point t's block iff each coordinate is in the block's range on its axis. -/
theorem mem_blk (t : Fin cfg5.N) (i : S100000x64.Idx) :
    i ∈ ((cfg5.win 4).blk t).view.set ↔ ∀ a : Fin 2, win5_4.index t a * S5000x64.size a ≤ (i a).val
      ∧ (i a).val < win5_4.index t a * S5000x64.size a + S5000x64.size a := by
  show i ∈ ((View.whole main_v73).slice (win5_4.rect t)).set ↔ _
  rw [View.set_slice_whole, Rect.mem_set_unit]
  exact Iff.rfl

/-- Every node row lies in the block of the point numbered by the row's quotient by 5000. -/
theorem cover (i : S100000x64.Idx) :
    ∃ t : Fin cfg5.N, (cfg5.win 4).flush t = true ∧ i ∈ ((cfg5.win 4).blk t).view.set := by
  have hi0 : (i 0).val < 100000 := (i 0).isLt
  have hi1 : (i 1).val < 64 := (i 1).isLt
  have hN : (i 0).val / 5000 < grid5.N := by rw [N_5]; omega
  obtain ⟨e0, e1, e2, e3, e4, e5, e6, e7, e8, e9⟩ := idx_facts ⟨(i 0).val / 5000, hN⟩
  refine ⟨⟨(i 0).val / 5000, hN⟩, flush5_4 _, ?_⟩
  rw [mem_blk]
  intro a
  match a with
  | ⟨0, _⟩ =>
    show win5_4.index ⟨(i 0).val / 5000, hN⟩ (0 : Fin 2) * 5000 ≤ (i 0).val
      ∧ (i 0).val < win5_4.index ⟨(i 0).val / 5000, hN⟩ (0 : Fin 2) * 5000 + 5000
    rw [e8]; show (i 0).val / 5000 * 5000 ≤ (i 0).val ∧ (i 0).val < (i 0).val / 5000 * 5000 + 5000; omega
  | ⟨1, _⟩ =>
    show win5_4.index ⟨(i 0).val / 5000, hN⟩ (1 : Fin 2) * 64 ≤ (i 1).val
      ∧ (i 1).val < win5_4.index ⟨(i 0).val / 5000, hN⟩ (1 : Fin 2) * 64 + 64
    rw [e9]; omega

/-- The array the region leaves. -/
theorem result (c : Dev nD) : (dat5 V c).arrAt 4 cfg5.N = whole V c :=
  (dat5 V c).arrAt_eq_of_cover 4 _ (fun t _ => flushed_eq V c t) cover

end Cert.KernelIdeal.SelfLoop5

end
-- ==== Proof.SelfLoop8.lean ====
/-
  The self-loop region number 8 of a graph convolution: every grid point takes a block of 5000 node rows of the
  aggregated neighbours and of the nodes' own projections, the same 5000 rows of the one-column array of self-loop
  weights and the one bias row, and writes back  aggregate + projection · weight + bias. The blocks tile
  the 100,000 node rows, so the array the region leaves is that function of the whole arrays, whatever the buffers held
  when the region was entered.
-/
import proofs.«103547_j33792802685826_2_alg».proof.Proof.Gen.KernelIdeal.Frame
import proofs.«103547_j33792802685826_2_alg».proof.Proof.LibGraphOps
import proofs.«103547_j33792802685826_2_alg».proof.Proof.LibRowOps
import Idealize.ShloMosaic.Lib.Pipeline.Value
import Idealize.ShloMosaic.Lib.ValueLayout

set_option maxRecDepth 16384

noncomputable section

namespace Cert.KernelIdeal.SelfLoop8

open Cert.KernelIdeal Cert.KernelIdeal.Gen Idealize.ShloMosaic Idealize.ShloMosaic.TcCoe Idealize.SL.Sem
open Idealize.ShloMosaic.ValueIdx
open Idealize.ShloMosaic.Pipeline (Dat)
open Cert.GraphOps

variable (V : (c : Dev nD) → (b : Ref sig .tc) → Buf (Elt Ideal) ((c : Thread nD τ).loc b))

theorem hz : (![0, 0] : Fin 2 → Nat) = fun _ => 0 := funext fun a => by fin_cases a <;> rfl

/-- The body at an entry of its block. -/
theorem body_apply (x0 x1 : Vec Ideal S5000x64 .f32) (x2 : Vec Ideal S5000x1 .f32) (x3 : Vec Ideal S1x64 .f32)
    (p : Fin 5000) (q : Fin 64) :
    k8_pay1 x0 x1 x2 x3 (ix2 p q)
      = x0 (ix2 p q) + x1 (ix2 p q) * x2 (ix2 p 0) + x3 (ix2 0 q) := by
  unfold k8_pay1
  show shapeCast S5000x64 x0 shapeCasts_S5000x64_S5000x64 (ix2 p q)
      + shapeCast S5000x64 x1 shapeCasts_S5000x64_S5000x64 (ix2 p q)
        * broadcastTo S5000x64 (shapeCast S5000x1 x2 shapeCasts_S5000x1_S5000x1) broadcasts_S5000x1_S5000x64 (ix2 p q)
      + broadcastTo S5000x64 (shapeCast S1x64 x3 shapeCasts_S1x64_S1x64) broadcasts_S1x64_S5000x64 (ix2 p q) = _
  rw [shapeCast_self, shapeCast_self, shapeCast_self, shapeCast_self, Cert.LibRowOps.broadcastTo_a1_ab_apply,
    broadcastTo_1b_ab_apply]

/-- The row windows move together, block t of the node rows; the bias row is the same at every point. -/
theorem idx_facts : ∀ t : Fin cfg8.N, win8_0.index t (0 : Fin 2) = t.val ∧ win8_0.index t (1 : Fin 2) = 0
    ∧ win8_1.index t (0 : Fin 2) = t.val ∧ win8_1.index t (1 : Fin 2) = 0
    ∧ win8_2.index t (0 : Fin 2) = t.val ∧ win8_2.index t (1 : Fin 2) = 0
    ∧ win8_3.index t (0 : Fin 2) = 0 ∧ win8_3.index t (1 : Fin 2) = 0
    ∧ win8_4.index t (0 : Fin 2) = t.val ∧ win8_4.index t (1 : Fin 2) = 0 :=
  (by decide +kernel : ∀ t : Fin grid8.N, _)

theorem lt_grid (t : Fin cfg8.N) : t.val < 20 := by
  have h : t.val < grid8.N := t.isLt
  rw [N_8] at h; exact h

/-- Row p of point t's block of the aggregate is node row 5000 t + p. -/
theorem agg_read (c : Dev nD) (t : Fin cfg8.N) (p : Fin 5000) (q : Fin 64) (hp : t.val * 5000 + p.val < 100000) :
    iblk8 V c 0 t (ix2 p q) = (V c main_v101 : Mat 100000 64) (ix2 ⟨t.val * 5000 + p.val, hp⟩ q) := by
  obtain ⟨e0, e1, e2, e3, e4, e5, e6, e7, e8, e9⟩ := idx_facts t
  show (V c main_v101 : Mat 100000 64) (((cfg8.win 0).blk t).view.emb (ix2 p q)) = _
  refine congrArg _ (funext fun a => Fin.ext ?_)
  match a with
  | ⟨0, _⟩ => show win8_0.index t (0 : Fin 2) * 5000 + 1 * p.val = t.val * 5000 + p.val; rw [e0]; omega
  | ⟨1, _⟩ => show win8_0.index t (1 : Fin 2) * 64 + 1 * q.val = q.val; rw [e1]; omega

/-- Row p of point t's block of the projections is node row 5000 t + p. -/
theorem proj_read (c : Dev nD) (t : Fin cfg8.N) (p : Fin 5000) (q : Fin 64) (hp : t.val * 5000 + p.val < 100000) :
    iblk8 V c 1 t (ix2 p q) = (V c main_v74 : Mat 100000 64) (ix2 ⟨t.val * 5000 + p.val, hp⟩ q) := by
  obtain ⟨e0, e1, e2, e3, e4, e5, e6, e7, e8, e9⟩ := idx_facts t
  show (V c main_v74 : Mat 100000 64) (((cfg8.win 1).blk t).view.emb (ix2 p q)) = _
  refine congrArg _ (funext fun a => Fin.ext ?_)
  match a with
  | ⟨0, _⟩ => show win8_1.index t (0 : Fin 2) * 5000 + 1 * p.val = t.val * 5000 + p.val; rw [e2]; omega
  | ⟨1, _⟩ => show win8_1.index t (1 : Fin 2) * 64 + 1 * q.val = q.val; rw [e3]; omega

/-- Row p of point t's block of the weights is node row 5000 t + p of the column of weights. -/
theorem weight_read (c : Dev nD) (t : Fin cfg8.N) (p : Fin 5000) (hp : t.val * 5000 + p.val < 100000) :
    iblk8 V c 2 t (ix2 p 0) = (V c main_v12 : Mat 100000 1) (ix2 ⟨t.val * 5000 + p.val, hp⟩ 0) := by
  obtain ⟨e0, e1, e2, e3, e4, e5, e6, e7, e8, e9⟩ := idx_facts t
  show (V c main_v12 : Mat 100000 1) (((cfg8.win 2).blk t).view.emb (ix2 p 0)) = _
  refine congrArg _ (funext fun a => Fin.ext ?_)
  match a with
  | ⟨0, _⟩ => show win8_2.index t (0 : Fin 2) * 5000 + 1 * p.val = t.val * 5000 + p.val; rw [e4]; omega
  | ⟨1, _⟩ => show win8_2.index t (1 : Fin 2) * 1 + 1 * 0 = 0; rw [e5]

/-- Every point's block of the bias is the whole bias row. -/
theorem bias_read (c : Dev nD) (t : Fin cfg8.N) (q : Fin 64) :
    iblk8 V c 3 t (ix2 0 q) = (V c main_v15 : Mat 1 64) (ix2 0 q) := by
  obtain ⟨e0, e1, e2, e3, e4, e5, e6, e7, e8, e9⟩ := idx_facts t
  show (V c main_v15 : Mat 1 64) (((cfg8.win 3).blk t).view.emb (ix2 0 q)) = _
  refine congrArg _ (funext fun a => Fin.ext ?_)
  match a with
  | ⟨0, _⟩ => show win8_3.index t (0 : Fin 2) * 1 + 1 * 0 = 0; rw [e6]
  | ⟨1, _⟩ => show win8_3.index t (1 : Fin 2) * 64 + 1 * q.val = q.val; rw [e7]; omega

/-- The whole-array function the region computes. -/
abbrev whole (c : Dev nD) : Mat 100000 64 :=
  selfLoop 100000 64 (V c main_v101) (V c main_v74) (V c main_v12) (V c main_v15)

/-- What point t writes back is block t of the whole-array function. -/
theorem flushed_eq (c : Dev nD) (t : Fin cfg8.N) :
    (dat8 V c).flushed 4 t = ((cfg8.win 4).blk t).view.read (Elt Ideal) (whole V c) := by
  show (cfg8.win 4).cut (grid8.coords t) ((dat8 V c).after 4 t) = _
  rw [after8_4]
  unfold out8_4
  rw [View.canon_unit_zero hz]
  simp only [View.ld_unit_zero (S := S5000x64) hz, View.ld_unit_zero (S := S5000x1) hz, View.ld_unit_zero (S := S1x64) hz]
  obtain ⟨e0, e1, e2, e3, e4, e5, e6, e7, e8, e9⟩ := idx_facts t
  have ht := lt_grid t
  funext j
  obtain ⟨p, q, rfl⟩ : ∃ (p : Fin 5000) (q : Fin 64), j = ix2 p q := ⟨j 0, j 1, eq_ix2 j⟩
  have hp : t.val * 5000 + p.val < 100000 := by have := p.isLt; omega
  show k8_pay1 (iblk8 V c 0 t) (iblk8 V c 1 t) (iblk8 V c 2 t) (iblk8 V c 3 t) (ix2 p q)
      = whole V c (((cfg8.win 4).blk t).view.emb (ix2 p q))
  have hE : ((cfg8.win 4).blk t).view.emb (ix2 p q) = (ix2 ⟨t.val * 5000 + p.val, hp⟩ q : (⟨2, ![100000, 64]⟩ : Shape).Idx) :=
    funext fun a => Fin.ext (by
      match a with
      | ⟨0, _⟩ => show win8_4.index t (0 : Fin 2) * 5000 + 1 * p.val = t.val * 5000 + p.val; rw [e8]; omega
      | ⟨1, _⟩ => show win8_4.index t (1 : Fin 2) * 64 + 1 * q.val = q.val; rw [e9]; omega)
  rw [hE]
  refine (body_apply (iblk8 V c 0 t) (iblk8 V c 1 t) (iblk8 V c 2 t) (iblk8 V c 3 t) p q).trans ?_
  rw [agg_read V c t p q hp, proj_read V c t p q hp, weight_read V c t p hp, bias_read V c t q]
  rfl

/-- An index of the array is in point t's block iff each coordinate is in the block's range on its axis. -/
theorem mem_blk (t : Fin cfg8.N) (i : S100000x64.Idx) :
    i ∈ ((cfg8.win 4).blk t).view.set ↔ ∀ a : Fin 2, win8_4.index t a * S5000x64.size a ≤ (i a).val
      ∧ (i a).val < win8_4.index t a * S5000x64.size a + S5000x64.size a := by
  show i ∈ ((View.whole main_v102).slice (win8_4.rect t)).set ↔ _
  rw [View.set_slice_whole, Rect.mem_set_unit]
  exact Iff.rfl

/-- Every node row lies in the block of the point numbered by the row's quotient by 5000. -/
theorem cover (i : S100000x64.Idx) :
    ∃ t : Fin cfg8.N, (cfg8.win 4).flush t = true ∧ i ∈ ((cfg8.win 4).blk t).view.set := by
  have hi0 : (i 0).val < 100000 := (i 0).isLt
  have hi1 : (i 1).val < 64 := (i 1).isLt
  have hN : (i 0).val / 5000 < grid8.N := by rw [N_8]; omega
  obtain ⟨e0, e1, e2, e3, e4, e5, e6, e7, e8, e9⟩ := idx_facts ⟨(i 0).val / 5000, hN⟩
  refine ⟨⟨(i 0).val / 5000, hN⟩, flush8_4 _, ?_⟩
  rw [mem_blk]
  intro a
  match a with
  | ⟨0, _⟩ =>
    show win8_4.index ⟨(i 0).val / 5000, hN⟩ (0 : Fin 2) * 5000 ≤ (i 0).val
      ∧ (i 0).val < win8_4.index ⟨(i 0).val / 5000, hN⟩ (0 : Fin 2) * 5000 + 5000
    rw [e8]; show (i 0).val / 5000 * 5000 ≤ (i 0).val ∧ (i 0).val < (i 0).val / 5000 * 5000 + 5000; omega
  | ⟨1, _⟩ =>
    show win8_4.index ⟨(i 0).val / 5000, hN⟩ (1 : Fin 2) * 64 ≤ (i 1).val
      ∧ (i 1).val < win8_4.index ⟨(i 0).val / 5000, hN⟩ (1 : Fin 2) * 64 + 64
    rw [e9]; omega

/-- The array the region leaves. -/
theorem result (c : Dev nD) : (dat8 V c).arrAt 4 cfg8.N = whole V c :=
  (dat8 V c).arrAt_eq_of_cover 4 _ (fun t _ => flushed_eq V c t) cover

end Cert.KernelIdeal.SelfLoop8

end
-- ==== Proof.Project0.lean ====
/-
  The projection region number 0: every grid point takes a block of 5000 node rows of 128 features and the whole
  128 × 64 weight array, and writes back the rows against the weights' columns, a product into a zero accumulator
  (the change of float format before the product is the identity on the extended reals). The blocks tile the 100,000
  node rows, so the array the region leaves is the whole array of rows against the columns, whatever the buffers held
  when the region was entered.
-/
import proofs.«103547_j33792802685826_2_alg».proof.Proof.Gen.KernelIdeal.Frame
import proofs.«103547_j33792802685826_2_alg».proof.Proof.LibGraphOps
import proofs.«103547_j33792802685826_2_alg».proof.Proof.LibRowOps
import Idealize.ShloMosaic.Lib.Pipeline.Value

set_option maxRecDepth 16384

noncomputable section

namespace Cert.KernelIdeal.Project0

open Cert.KernelIdeal Cert.KernelIdeal.Gen Idealize.ShloMosaic Idealize.ShloMosaic.TcCoe Idealize.SL.Sem
open Idealize.ShloMosaic.ValueIdx
open Idealize.ShloMosaic.Pipeline (Dat)
open Cert.GraphOps

variable (V : (c : Dev nD) → (b : Ref sig .tc) → Buf (Elt Ideal) ((c : Thread nD τ).loc b))

theorem hz : (![0, 0] : Fin 2 → Nat) = fun _ => 0 := funext fun a => by fin_cases a <;> rfl

/-- The body at an entry of its block: the block's row against the weights' column. -/
theorem body_apply (x0 : Vec Ideal S5000x128 .f32) (x1 : Vec Ideal S128x64 .f32) (p : Fin 5000) (q : Fin 64) :
    k0_pay1 x0 x1 (ix2 p q) = ∑ k : Fin 128, x0 (ix2 p k) * x1 (ix2 k q) := by
  unfold k0_pay1
  show matmul dot_S5000x128_S128x64_S5000x64_1_0_0_1_n_n none
      (truncf (F := Ideal) .bf16 x0 bitsLt_bf16_f32) (truncf (F := Ideal) .bf16 x1 bitsLt_bf16_f32)
      (constant S5000x64 .f32 0x00000000#32) (ix2 p q) = _
  exact Cert.LibRowOps.matmul_plain_apply dot_S5000x128_S128x64_S5000x64_1_0_0_1_n_n_wf none
    (truncf (F := Ideal) .bf16 x0 bitsLt_bf16_f32) (truncf (F := Ideal) .bf16 x1 bitsLt_bf16_f32) p q

/-- The row windows move together, block t of the node rows; the weights are the same at every point. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem lt_grid (t : Fin cfg0.N) : t.val < 20 := by
  have h : t.val < grid0.N := t.isLt
  rw [N_0] at h; exact h

/-- Row p of point t's block of the rows is node row 5000 t + p. -/
theorem rows_read (c : Dev nD) (t : Fin cfg0.N) (p : Fin 5000) (k : Fin 128) (hp : t.val * 5000 + p.val < 100000) :
    iblk0 V c 0 t (ix2 p k) = (V c main_arg0 : Mat 100000 128) (ix2 ⟨t.val * 5000 + p.val, hp⟩ k) := by
  obtain ⟨e0, e1, e2, e3, e4, e5⟩ := idx_facts t
  show (V c main_arg0 : Mat 100000 128) (((cfg0.win 0).blk t).view.emb (ix2 p k)) = _
  refine congrArg _ (funext fun a => Fin.ext ?_)
  match a with
  | ⟨0, _⟩ => show win0_0.index t (0 : Fin 2) * 5000 + 1 * p.val = t.val * 5000 + p.val; rw [e0]; omega
  | ⟨1, _⟩ => show win0_0.index t (1 : Fin 2) * 128 + 1 * k.val = k.val; rw [e1]; omega

/-- Every point's block of the weights is the whole weight array. -/
theorem weights_read (c : Dev nD) (t : Fin cfg0.N) (k : Fin 128) (q : Fin 64) :
    iblk0 V c 1 t (ix2 k q) = (V c main_arg3 : Mat 128 64) (ix2 k q) := by
  obtain ⟨e0, e1, e2, e3, e4, e5⟩ := idx_facts t
  show (V c main_arg3 : Mat 128 64) (((cfg0.win 1).blk t).view.emb (ix2 k q)) = _
  refine congrArg _ (funext fun a => Fin.ext ?_)
  match a with
  | ⟨0, _⟩ => show win0_1.index t (0 : Fin 2) * 128 + 1 * k.val = k.val; rw [e2]; omega
  | ⟨1, _⟩ => show win0_1.index t (1 : Fin 2) * 64 + 1 * q.val = q.val; rw [e3]; omega

/-- What point t writes back is block t of the rows against the columns. -/
theorem flushed_eq (c : Dev nD) (t : Fin cfg0.N) :
    (dat0 V c).flushed 2 t
      = ((cfg0.win 2).blk t).view.read (Elt Ideal) (rowsCols 100000 128 64 (V c main_arg0) (V c main_arg3)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x64) hz]
  obtain ⟨e0, e1, e2, e3, e4, e5⟩ := idx_facts t
  have ht := lt_grid t
  funext j
  obtain ⟨p, q, rfl⟩ : ∃ (p : Fin 5000) (q : Fin 64), j = ix2 p q := ⟨j 0, j 1, eq_ix2 j⟩
  have hp : t.val * 5000 + p.val < 100000 := by have := p.isLt; omega
  show k0_pay1 (iblk0 V c 0 t) (iblk0 V c 1 t) (ix2 p q)
      = rowsCols 100000 128 64 (V c main_arg0) (V c main_arg3) (((cfg0.win 2).blk t).view.emb (ix2 p q))
  have hE : ((cfg0.win 2).blk t).view.emb (ix2 p q) = (ix2 ⟨t.val * 5000 + p.val, hp⟩ q : (⟨2, ![100000, 64]⟩ : Shape).Idx) :=
    funext fun a => Fin.ext (by
      match a with
      | ⟨0, _⟩ => show win0_2.index t (0 : Fin 2) * 5000 + 1 * p.val = t.val * 5000 + p.val; rw [e4]; omega
      | ⟨1, _⟩ => show win0_2.index t (1 : Fin 2) * 64 + 1 * q.val = q.val; rw [e5]; omega)
  rw [hE, rowsCols_apply]
  refine (body_apply (iblk0 V c 0 t) (iblk0 V c 1 t) p q).trans ?_
  refine Finset.sum_congr rfl fun k _ => ?_
  rw [rows_read V c t p k hp, weights_read V c t k q]

/-- An index of the array is in point t's block iff each coordinate is in the block's range on its axis. -/
theorem mem_blk (t : Fin cfg0.N) (i : S100000x64.Idx) :
    i ∈ ((cfg0.win 2).blk t).view.set ↔ ∀ a : Fin 2, win0_2.index t a * S5000x64.size a ≤ (i a).val
      ∧ (i a).val < win0_2.index t a * S5000x64.size a + S5000x64.size a := by
  show i ∈ ((View.whole main_v16).slice (win0_2.rect t)).set ↔ _
  rw [View.set_slice_whole, Rect.mem_set_unit]
  exact Iff.rfl

/-- Every node row lies in the block of the point numbered by the row's quotient by 5000. -/
theorem cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : (i 0).val / 5000 < grid0.N := by rw [N_0]; omega
  obtain ⟨e0, e1, e2, e3, e4, e5⟩ := idx_facts ⟨(i 0).val / 5000, hN⟩
  refine ⟨⟨(i 0).val / 5000, hN⟩, flush0_2 _, ?_⟩
  rw [mem_blk]
  intro a
  match a with
  | ⟨0, _⟩ =>
    show win0_2.index ⟨(i 0).val / 5000, hN⟩ (0 : Fin 2) * 5000 ≤ (i 0).val
      ∧ (i 0).val < win0_2.index ⟨(i 0).val / 5000, hN⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, hN⟩ (1 : Fin 2) * 64 ≤ (i 1).val
      ∧ (i 1).val < win0_2.index ⟨(i 0).val / 5000, hN⟩ (1 : Fin 2) * 64 + 64
    rw [e5]; omega

/-- The array the region leaves: the rows against the columns. -/
theorem result (c : Dev nD) :
    (dat0 V c).arrAt 2 cfg0.N = rowsCols 100000 128 64 (V c main_arg0) (V c main_arg3) :=
  (dat0 V c).arrAt_eq_of_cover 2 _ (fun t _ => flushed_eq V c t) cover

end Cert.KernelIdeal.Project0

end
-- ==== Proof.Project3.lean ====
/-
  The projection region number 3: every grid point takes a block of 5000 node rows of 64 features and the whole
  64 × 64 weight array, and writes back the rows against the weights' columns, a product into a zero accumulator
  (the change of float format before the product is the identity on the extended reals). The blocks tile the 100,000
  node rows, so the array the region leaves is the whole array of rows against the columns, whatever the buffers held
  when the region was entered.
-/
import proofs.«103547_j33792802685826_2_alg».proof.Proof.Gen.KernelIdeal.Frame
import proofs.«103547_j33792802685826_2_alg».proof.Proof.LibGraphOps
import proofs.«103547_j33792802685826_2_alg».proof.Proof.LibRowOps
import Idealize.ShloMosaic.Lib.Pipeline.Value

set_option maxRecDepth 16384

noncomputable section

namespace Cert.KernelIdeal.Project3

open Cert.KernelIdeal Cert.KernelIdeal.Gen Idealize.ShloMosaic Idealize.ShloMosaic.TcCoe Idealize.SL.Sem
open Idealize.ShloMosaic.ValueIdx
open Idealize.ShloMosaic.Pipeline (Dat)
open Cert.GraphOps

variable (V : (c : Dev nD) → (b : Ref sig .tc) → Buf (Elt Ideal) ((c : Thread nD τ).loc b))

theorem hz : (![0, 0] : Fin 2 → Nat) = fun _ => 0 := funext fun a => by fin_cases a <;> rfl

/-- The body at an entry of its block: the block's row against the weights' column. -/
theorem body_apply (x0 : Vec Ideal S5000x64 .f32) (x1 : Vec Ideal S64x64 .f32) (p : Fin 5000) (q : Fin 64) :
    k3_pay1 x0 x1 (ix2 p q) = ∑ k : Fin 64, x0 (ix2 p k) * x1 (ix2 k q) := by
  unfold k3_pay1
  show matmul dot_S5000x64_S64x64_S5000x64_1_0_0_1_n_n none
      (truncf (F := Ideal) .bf16 (shapeCast S5000x64 x0 shapeCasts_S5000x64_S5000x64) bitsLt_bf16_f32) (truncf (F := Ideal) .bf16 x1 bitsLt_bf16_f32)
      (constant S5000x64 .f32 0x00000000#32) (ix2 p q) = _
  rw [shapeCast_self]
  exact Cert.LibRowOps.matmul_plain_apply dot_S5000x64_S64x64_S5000x64_1_0_0_1_n_n_wf none
    (truncf (F := Ideal) .bf16 x0 bitsLt_bf16_f32) (truncf (F := Ideal) .bf16 x1 bitsLt_bf16_f32) p q

/-- The row windows move together, block t of the node rows; the weights are the same at every point. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

theorem lt_grid (t : Fin cfg3.N) : t.val < 20 := by
  have h : t.val < grid3.N := t.isLt
  rw [N_3] at h; exact h

/-- Row p of point t's block of the rows is node row 5000 t + p. -/
theorem rows_read (c : Dev nD) (t : Fin cfg3.N) (p : Fin 5000) (k : Fin 64) (hp : t.val * 5000 + p.val < 100000) :
    iblk3 V c 0 t (ix2 p k) = (V c main_v44 : Mat 100000 64) (ix2 ⟨t.val * 5000 + p.val, hp⟩ k) := by
  obtain ⟨e0, e1, e2, e3, e4, e5⟩ := idx_facts t
  show (V c main_v44 : Mat 100000 64) (((cfg3.win 0).blk t).view.emb (ix2 p k)) = _
  refine congrArg _ (funext fun a => Fin.ext ?_)
  match a with
  | ⟨0, _⟩ => show win3_0.index t (0 : Fin 2) * 5000 + 1 * p.val = t.val * 5000 + p.val; rw [e0]; omega
  | ⟨1, _⟩ => show win3_0.index t (1 : Fin 2) * 64 + 1 * k.val = k.val; rw [e1]; omega

/-- Every point's block of the weights is the whole weight array. -/
theorem weights_read (c : Dev nD) (t : Fin cfg3.N) (k : Fin 64) (q : Fin 64) :
    iblk3 V c 1 t (ix2 k q) = (V c main_arg5 : Mat 64 64) (ix2 k q) := by
  obtain ⟨e0, e1, e2, e3, e4, e5⟩ := idx_facts t
  show (V c main_arg5 : Mat 64 64) (((cfg3.win 1).blk t).view.emb (ix2 k q)) = _
  refine congrArg _ (funext fun a => Fin.ext ?_)
  match a with
  | ⟨0, _⟩ => show win3_1.index t (0 : Fin 2) * 64 + 1 * k.val = k.val; rw [e2]; omega
  | ⟨1, _⟩ => show win3_1.index t (1 : Fin 2) * 64 + 1 * q.val = q.val; rw [e3]; omega

/-- What point t writes back is block t of the rows against the columns. -/
theorem flushed_eq (c : Dev nD) (t : Fin cfg3.N) :
    (dat3 V c).flushed 2 t
      = ((cfg3.win 2).blk t).view.read (Elt Ideal) (rowsCols 100000 64 64 (V c main_v44) (V c main_arg5)) := by
  show (cfg3.win 2).cut (grid3.coords t) ((dat3 V c).after 2 t) = _
  rw [after3_2]
  unfold out3_2
  rw [View.canon_unit_zero hz]
  simp only [View.ld_unit_zero (S := S5000x64) hz, View.ld_unit_zero (S := S64x64) hz]
  obtain ⟨e0, e1, e2, e3, e4, e5⟩ := idx_facts t
  have ht := lt_grid t
  funext j
  obtain ⟨p, q, rfl⟩ : ∃ (p : Fin 5000) (q : Fin 64), j = ix2 p q := ⟨j 0, j 1, eq_ix2 j⟩
  have hp : t.val * 5000 + p.val < 100000 := by have := p.isLt; omega
  show k3_pay1 (iblk3 V c 0 t) (iblk3 V c 1 t) (ix2 p q)
      = rowsCols 100000 64 64 (V c main_v44) (V c main_arg5) (((cfg3.win 2).blk t).view.emb (ix2 p q))
  have hE : ((cfg3.win 2).blk t).view.emb (ix2 p q) = (ix2 ⟨t.val * 5000 + p.val, hp⟩ q : (⟨2, ![100000, 64]⟩ : Shape).Idx) :=
    funext fun a => Fin.ext (by
      match a with
      | ⟨0, _⟩ => show win3_2.index t (0 : Fin 2) * 5000 + 1 * p.val = t.val * 5000 + p.val; rw [e4]; omega
      | ⟨1, _⟩ => show win3_2.index t (1 : Fin 2) * 64 + 1 * q.val = q.val; rw [e5]; omega)
  rw [hE, rowsCols_apply]
  refine (body_apply (iblk3 V c 0 t) (iblk3 V c 1 t) p q).trans ?_
  refine Finset.sum_congr rfl fun k _ => ?_
  rw [rows_read V c t p k hp, weights_read V c t k q]

/-- An index of the array is in point t's block iff each coordinate is in the block's range on its axis. -/
theorem mem_blk (t : Fin cfg3.N) (i : S100000x64.Idx) :
    i ∈ ((cfg3.win 2).blk t).view.set ↔ ∀ a : Fin 2, win3_2.index t a * S5000x64.size a ≤ (i a).val
      ∧ (i a).val < win3_2.index t a * S5000x64.size a + S5000x64.size a := by
  show i ∈ ((View.whole main_v45).slice (win3_2.rect t)).set ↔ _
  rw [View.set_slice_whole, Rect.mem_set_unit]
  exact Iff.rfl

/-- Every node row lies in the block of the point numbered by the row's quotient by 5000. -/
theorem cover (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  have hN : (i 0).val / 5000 < grid3.N := by rw [N_3]; omega
  obtain ⟨e0, e1, e2, e3, e4, e5⟩ := idx_facts ⟨(i 0).val / 5000, hN⟩
  refine ⟨⟨(i 0).val / 5000, hN⟩, flush3_2 _, ?_⟩
  rw [mem_blk]
  intro a
  match a with
  | ⟨0, _⟩ =>
    show win3_2.index ⟨(i 0).val / 5000, hN⟩ (0 : Fin 2) * 5000 ≤ (i 0).val
      ∧ (i 0).val < win3_2.index ⟨(i 0).val / 5000, hN⟩ (0 : Fin 2) * 5000 + 5000
    rw [e4]; show (i 0).val / 5000 * 5000 ≤ (i 0).val ∧ (i 0).val < (i 0).val / 5000 * 5000 + 5000; omega
  | ⟨1, _⟩ =>
    show win3_2.index ⟨(i 0).val / 5000, hN⟩ (1 : Fin 2) * 64 ≤ (i 1).val
      ∧ (i 1).val < win3_2.index ⟨(i 0).val / 5000, hN⟩ (1 : Fin 2) * 64 + 64
    rw [e5]; omega

/-- The array the region leaves: the rows against the columns. -/
theorem result (c : Dev nD) :
    (dat3 V c).arrAt 2 cfg3.N = rowsCols 100000 64 64 (V c main_v44) (V c main_arg5) :=
  (dat3 V c).arrAt_eq_of_cover 2 _ (fun t _ => flushed_eq V c t) cover

end Cert.KernelIdeal.Project3

end
-- ==== Proof.Project6.lean ====
/-
  The projection region number 6: every grid point takes a block of 5000 node rows of 64 features and the whole
  64 × 64 weight array, and writes back the rows against the weights' columns, a product into a zero accumulator
  (the change of float format before the product is the identity on the extended reals). The blocks tile the 100,000
  node rows, so the array the region leaves is the whole array of rows against the columns, whatever the buffers held
  when the region was entered.
-/
import proofs.«103547_j33792802685826_2_alg».proof.Proof.Gen.KernelIdeal.Frame
import proofs.«103547_j33792802685826_2_alg».proof.Proof.LibGraphOps
import proofs.«103547_j33792802685826_2_alg».proof.Proof.LibRowOps
import Idealize.ShloMosaic.Lib.Pipeline.Value

set_option maxRecDepth 16384

noncomputable section

namespace Cert.KernelIdeal.Project6

open Cert.KernelIdeal Cert.KernelIdeal.Gen Idealize.ShloMosaic Idealize.ShloMosaic.TcCoe Idealize.SL.Sem
open Idealize.ShloMosaic.ValueIdx
open Idealize.ShloMosaic.Pipeline (Dat)
open Cert.GraphOps

variable (V : (c : Dev nD) → (b : Ref sig .tc) → Buf (Elt Ideal) ((c : Thread nD τ).loc b))

theorem hz : (![0, 0] : Fin 2 → Nat) = fun _ => 0 := funext fun a => by fin_cases a <;> rfl

/-- The body at an entry of its block: the block's row against the weights' column. -/
theorem body_apply (x0 : Vec Ideal S5000x64 .f32) (x1 : Vec Ideal S64x64 .f32) (p : Fin 5000) (q : Fin 64) :
    k6_pay1 x0 x1 (ix2 p q) = ∑ k : Fin 64, x0 (ix2 p k) * x1 (ix2 k q) := by
  unfold k6_pay1
  show matmul dot_S5000x64_S64x64_S5000x64_1_0_0_1_n_n none
      (truncf (F := Ideal) .bf16 (shapeCast S5000x64 x0 shapeCasts_S5000x64_S5000x64) bitsLt_bf16_f32) (truncf (F := Ideal) .bf16 x1 bitsLt_bf16_f32)
      (constant S5000x64 .f32 0x00000000#32) (ix2 p q) = _
  rw [shapeCast_self]
  exact Cert.LibRowOps.matmul_plain_apply dot_S5000x64_S64x64_S5000x64_1_0_0_1_n_n_wf none
    (truncf (F := Ideal) .bf16 x0 bitsLt_bf16_f32) (truncf (F := Ideal) .bf16 x1 bitsLt_bf16_f32) p q

/-- The row windows move together, block t of the node rows; the weights are the same at every point. -/
theorem idx_facts : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

theorem lt_grid (t : Fin cfg6.N) : t.val < 20 := by
  have h : t.val < grid6.N := t.isLt
  rw [N_6] at h; exact h

/-- Row p of point t's block of the rows is node row 5000 t + p. -/
theorem rows_read (c : Dev nD) (t : Fin cfg6.N) (p : Fin 5000) (k : Fin 64) (hp : t.val * 5000 + p.val < 100000) :
    iblk6 V c 0 t (ix2 p k) = (V c main_v73 : Mat 100000 64) (ix2 ⟨t.val * 5000 + p.val, hp⟩ k) := by
  obtain ⟨e0, e1, e2, e3, e4, e5⟩ := idx_facts t
  show (V c main_v73 : Mat 100000 64) (((cfg6.win 0).blk t).view.emb (ix2 p k)) = _
  refine congrArg _ (funext fun a => Fin.ext ?_)
  match a with
  | ⟨0, _⟩ => show win6_0.index t (0 : Fin 2) * 5000 + 1 * p.val = t.val * 5000 + p.val; rw [e0]; omega
  | ⟨1, _⟩ => show win6_0.index t (1 : Fin 2) * 64 + 1 * k.val = k.val; rw [e1]; omega

/-- Every point's block of the weights is the whole weight array. -/
theorem weights_read (c : Dev nD) (t : Fin cfg6.N) (k : Fin 64) (q : Fin 64) :
    iblk6 V c 1 t (ix2 k q) = (V c main_arg7 : Mat 64 64) (ix2 k q) := by
  obtain ⟨e0, e1, e2, e3, e4, e5⟩ := idx_facts t
  show (V c main_arg7 : Mat 64 64) (((cfg6.win 1).blk t).view.emb (ix2 k q)) = _
  refine congrArg _ (funext fun a => Fin.ext ?_)
  match a with
  | ⟨0, _⟩ => show win6_1.index t (0 : Fin 2) * 64 + 1 * k.val = k.val; rw [e2]; omega
  | ⟨1, _⟩ => show win6_1.index t (1 : Fin 2) * 64 + 1 * q.val = q.val; rw [e3]; omega

/-- What point t writes back is block t of the rows against the columns. -/
theorem flushed_eq (c : Dev nD) (t : Fin cfg6.N) :
    (dat6 V c).flushed 2 t
      = ((cfg6.win 2).blk t).view.read (Elt Ideal) (rowsCols 100000 64 64 (V c main_v73) (V c main_arg7)) := by
  show (cfg6.win 2).cut (grid6.coords t) ((dat6 V c).after 2 t) = _
  rw [after6_2]
  unfold out6_2
  rw [View.canon_unit_zero hz]
  simp only [View.ld_unit_zero (S := S5000x64) hz, View.ld_unit_zero (S := S64x64) hz]
  obtain ⟨e0, e1, e2, e3, e4, e5⟩ := idx_facts t
  have ht := lt_grid t
  funext j
  obtain ⟨p, q, rfl⟩ : ∃ (p : Fin 5000) (q : Fin 64), j = ix2 p q := ⟨j 0, j 1, eq_ix2 j⟩
  have hp : t.val * 5000 + p.val < 100000 := by have := p.isLt; omega
  show k6_pay1 (iblk6 V c 0 t) (iblk6 V c 1 t) (ix2 p q)
      = rowsCols 100000 64 64 (V c main_v73) (V c main_arg7) (((cfg6.win 2).blk t).view.emb (ix2 p q))
  have hE : ((cfg6.win 2).blk t).view.emb (ix2 p q) = (ix2 ⟨t.val * 5000 + p.val, hp⟩ q : (⟨2, ![100000, 64]⟩ : Shape).Idx) :=
    funext fun a => Fin.ext (by
      match a with
      | ⟨0, _⟩ => show win6_2.index t (0 : Fin 2) * 5000 + 1 * p.val = t.val * 5000 + p.val; rw [e4]; omega
      | ⟨1, _⟩ => show win6_2.index t (1 : Fin 2) * 64 + 1 * q.val = q.val; rw [e5]; omega)
  rw [hE, rowsCols_apply]
  refine (body_apply (iblk6 V c 0 t) (iblk6 V c 1 t) p q).trans ?_
  refine Finset.sum_congr rfl fun k _ => ?_
  rw [rows_read V c t p k hp, weights_read V c t k q]

/-- An index of the array is in point t's block iff each coordinate is in the block's range on its axis. -/
theorem mem_blk (t : Fin cfg6.N) (i : S100000x64.Idx) :
    i ∈ ((cfg6.win 2).blk t).view.set ↔ ∀ a : Fin 2, win6_2.index t a * S5000x64.size a ≤ (i a).val
      ∧ (i a).val < win6_2.index t a * S5000x64.size a + S5000x64.size a := by
  show i ∈ ((View.whole main_v74).slice (win6_2.rect t)).set ↔ _
  rw [View.set_slice_whole, Rect.mem_set_unit]
  exact Iff.rfl

/-- Every node row lies in the block of the point numbered by the row's quotient by 5000. -/
theorem cover (i : S100000x64.Idx) :
    ∃ t : Fin cfg6.N, (cfg6.win 2).flush t = true ∧ i ∈ ((cfg6.win 2).blk t).view.set := by
  have hi0 : (i 0).val < 100000 := (i 0).isLt
  have hi1 : (i 1).val < 64 := (i 1).isLt
  have hN : (i 0).val / 5000 < grid6.N := by rw [N_6]; omega
  obtain ⟨e0, e1, e2, e3, e4, e5⟩ := idx_facts ⟨(i 0).val / 5000, hN⟩
  refine ⟨⟨(i 0).val / 5000, hN⟩, flush6_2 _, ?_⟩
  rw [mem_blk]
  intro a
  match a with
  | ⟨0, _⟩ =>
    show win6_2.index ⟨(i 0).val / 5000, hN⟩ (0 : Fin 2) * 5000 ≤ (i 0).val
      ∧ (i 0).val < win6_2.index ⟨(i 0).val / 5000, hN⟩ (0 : Fin 2) * 5000 + 5000
    rw [e4]; show (i 0).val / 5000 * 5000 ≤ (i 0).val ∧ (i 0).val < (i 0).val / 5000 * 5000 + 5000; omega
  | ⟨1, _⟩ =>
    show win6_2.index ⟨(i 0).val / 5000, hN⟩ (1 : Fin 2) * 64 ≤ (i 1).val
      ∧ (i 1).val < win6_2.index ⟨(i 0).val / 5000, hN⟩ (1 : Fin 2) * 64 + 64
    rw [e5]; omega

/-- The array the region leaves: the rows against the columns. -/
theorem result (c : Dev nD) :
    (dat6 V c).arrAt 2 cfg6.N = rowsCols 100000 64 64 (V c main_v73) (V c main_arg7) :=
  (dat6 V c).arrAt_eq_of_cover 2 _ (fun t _ => flushed_eq V c t) cover

end Cert.KernelIdeal.Project6

end
-- ==== Proof.Readout.lean ====
/-
  The read-out region: its single grid point takes the whole 2048 × 64 array of pooled graph features, the two weight
  arrays and the two one-row biases, and writes back  rectify(g · Wl1 + bl1) · Wl2 + bl2,  both products into zero
  accumulators (the changes of float format before them are the identity on the extended reals). Its one block is the
  whole result array, so the array the region leaves is that function of the arrays it found.
-/
import proofs.«103547_j33792802685826_2_alg».proof.Proof.Gen.KernelIdeal.Frame
import proofs.«103547_j33792802685826_2_alg».proof.Proof.LibGraphOps
import proofs.«103547_j33792802685826_2_alg».proof.Proof.LibRowOps
import Idealize.ShloMosaic.Lib.Pipeline.Value
import Idealize.ShloMosaic.Lib.ValueLayout

set_option maxRecDepth 16384

noncomputable section

namespace Cert.KernelIdeal.Readout

open Cert.KernelIdeal Cert.KernelIdeal.Gen Idealize.ShloMosaic Idealize.ShloMosaic.TcCoe Idealize.SL.Sem
open Idealize.ShloMosaic.ValueIdx
open Idealize.ShloMosaic.Pipeline (Dat)
open Cert.GraphOps

variable (V : (c : Dev nD) → (b : Ref sig .tc) → Buf (Elt Ideal) ((c : Thread nD τ).loc b))

theorem hz : (![0, 0] : Fin 2 → Nat) = fun _ => 0 := funext fun a => by fin_cases a <;> rfl

/-- The read-out as one function of its five arrays. -/
def readout (g : Mat 2048 64) (w1 : Mat 64 32) (b1 : Mat 1 32) (w2 : Mat 32 1) (b2 : Mat 1 1) : Mat 2048 1 :=
  addRow 2048 1 (rowsCols 2048 32 1 (rectify (addRow 2048 32 (rowsCols 2048 64 32 g w1) b1)) w2) b2

/-- The body's hidden layer, as the body spells it. -/
def hidden (x0 : Vec Ideal S2048x64 .f32) (x1 : Vec Ideal S64x32 .f32) (x2 : Vec Ideal S1x32 .f32) : FVec Ideal S2048x32 .f32 :=
  maximumf (addf (matmul (F := Ideal) dot_S2048x64_S64x32_S2048x32_1_0_0_1_n_n none
      (truncf (F := Ideal) .bf16 (shapeCast S2048x64 x0 shapeCasts_S2048x64_S2048x64) bitsLt_bf16_f32) (truncf (F := Ideal) .bf16 x1 bitsLt_bf16_f32)
      (constant S2048x32 .f32 0x00000000#32))
    (broadcastTo S2048x32 (shapeCast S1x32 x2 shapeCasts_S1x32_S1x32) broadcasts_S1x32_S2048x32))
    (broadcast S2048x32 (Scalar.ofBits (F := Ideal) .f32 0x00000000#32))

/-- The hidden layer is the rectified first product plus bias. -/
theorem hidden_eq (x0 : Vec Ideal S2048x64 .f32) (x1 : Vec Ideal S64x32 .f32) (x2 : Vec Ideal S1x32 .f32) :
    hidden x0 x1 x2 = rectify (addRow 2048 32 (rowsCols 2048 64 32 x0 x1) x2) := by
  funext i
  obtain ⟨p, k, rfl⟩ : ∃ (p : Fin 2048) (k : Fin 32), i = ix2 p k := ⟨i 0, i 1, eq_ix2 i⟩
  unfold hidden
  show max (matmul (F := Ideal) dot_S2048x64_S64x32_S2048x32_1_0_0_1_n_n none
        (truncf (F := Ideal) .bf16 (shapeCast S2048x64 x0 shapeCasts_S2048x64_S2048x64) bitsLt_bf16_f32) (truncf (F := Ideal) .bf16 x1 bitsLt_bf16_f32)
        (constant S2048x32 .f32 0x00000000#32) (ix2 p k)
      + broadcastTo S2048x32 (shapeCast S1x32 x2 shapeCasts_S1x32_S1x32) broadcasts_S1x32_S2048x32 (ix2 p k))
      (Ideal.ofBits .f32 0x00000000#32)
    = max ((∑ j : Fin 64, x0 (ix2 p j) * x1 (ix2 j k)) + x2 (ix2 0 k)) (Ideal.ofBits .f32 0x00000000#32)
  rw [shapeCast_self, shapeCast_self, broadcastTo_1b_ab_apply]
  exact congrArg (fun z => max (z + x2 (ix2 0 k)) (Ideal.ofBits .f32 0x00000000#32))
    (Cert.LibRowOps.matmul_plain_apply dot_S2048x64_S64x32_S2048x32_1_0_0_1_n_n_wf none
      (truncf (F := Ideal) .bf16 x0 bitsLt_bf16_f32) (truncf (F := Ideal) .bf16 x1 bitsLt_bf16_f32) p k)

/-- The body at an entry of its block. -/
theorem body_apply (x0 : Vec Ideal S2048x64 .f32) (x1 : Vec Ideal S64x32 .f32) (x2 : Vec Ideal S1x32 .f32)
    (x3 : Vec Ideal S32x1 .f32) (x4 : Vec Ideal S1x1 .f32) (p : Fin 2048) (q : Fin 1) :
    k9_pay1 x0 x1 x2 x3 x4 (ix2 p q) = readout x0 x1 x2 x3 x4 (ix2 p q) := by
  unfold k9_pay1
  show matmul (F := Ideal) dot_S2048x32_S32x1_S2048x1_1_0_0_1_n_n none (truncf (F := Ideal) .bf16 (hidden x0 x1 x2) bitsLt_bf16_f32)
        (truncf (F := Ideal) .bf16 x3 bitsLt_bf16_f32) (constant S2048x1 .f32 0x00000000#32) (ix2 p q)
      + broadcastTo S2048x1 (shapeCast S1x1 x4 shapeCasts_S1x1_S1x1) broadcasts_S1x1_S2048x1 (ix2 p q) = _
  rw [hidden_eq, shapeCast_self, broadcastTo_1b_ab_apply]
  exact congrArg (fun z => z + x4 (ix2 0 q))
    (Cert.LibRowOps.matmul_plain_apply dot_S2048x32_S32x1_S2048x1_1_0_0_1_n_n_wf none
      (truncf (F := Ideal) .bf16 (rectify (addRow 2048 32 (rowsCols 2048 64 32 x0 x1) x2)) bitsLt_bf16_f32) (truncf (F := Ideal) .bf16 x3 bitsLt_bf16_f32) p q)

/-- Every window's only block starts at the origin. -/
theorem idx_facts : ∀ t : Fin cfg9.N, win9_0.index t (0 : Fin 2) = 0 ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0
    ∧ win9_5.index t (0 : Fin 2) = 0 ∧ win9_5.index t (1 : Fin 2) = 0 :=
  (by decide +kernel : ∀ t : Fin grid9.N, _)

/-- The block of the pooled features is the whole array. -/
theorem pooled_read (c : Dev nD) (t : Fin cfg9.N) : iblk9 V c 0 t = (V c main_v105 : Mat 2048 64) := by
  obtain ⟨e0, e1, e2, e3, e4, e5, e6, e7, e8, e9, e10, e11⟩ := idx_facts t
  funext y
  obtain ⟨p, q, rfl⟩ : ∃ (p : Fin 2048) (q : Fin 64), y = ix2 p q := ⟨y 0, y 1, eq_ix2 y⟩
  show (V c main_v105 : Mat 2048 64) (((cfg9.win 0).blk t).view.emb (ix2 p q)) = _
  refine congrArg _ (funext fun ax => Fin.ext ?_)
  match ax with
  | ⟨0, _⟩ => show win9_0.index t (0 : Fin 2) * 2048 + 1 * p.val = p.val; rw [e0]; omega
  | ⟨1, _⟩ => show win9_0.index t (1 : Fin 2) * 64 + 1 * q.val = q.val; rw [e1]; omega

/-- The block of the first weights is the whole array. -/
theorem w1_read (c : Dev nD) (t : Fin cfg9.N) : iblk9 V c 1 t = (V c main_arg9 : Mat 64 32) := by
  obtain ⟨e0, e1, e2, e3, e4, e5, e6, e7, e8, e9, e10, e11⟩ := idx_facts t
  funext y
  obtain ⟨p, q, rfl⟩ : ∃ (p : Fin 64) (q : Fin 32), y = ix2 p q := ⟨y 0, y 1, eq_ix2 y⟩
  show (V c main_arg9 : Mat 64 32) (((cfg9.win 1).blk t).view.emb (ix2 p q)) = _
  refine congrArg _ (funext fun ax => Fin.ext ?_)
  match ax with
  | ⟨0, _⟩ => show win9_1.index t (0 : Fin 2) * 64 + 1 * p.val = p.val; rw [e2]; omega
  | ⟨1, _⟩ => show win9_1.index t (1 : Fin 2) * 32 + 1 * q.val = q.val; rw [e3]; omega

/-- The block of the first bias is the whole row. -/
theorem b1_read (c : Dev nD) (t : Fin cfg9.N) : iblk9 V c 2 t = (V c main_v106 : Mat 1 32) := by
  obtain ⟨e0, e1, e2, e3, e4, e5, e6, e7, e8, e9, e10, e11⟩ := idx_facts t
  funext y
  obtain ⟨p, q, rfl⟩ : ∃ (p : Fin 1) (q : Fin 32), y = ix2 p q := ⟨y 0, y 1, eq_ix2 y⟩
  show (V c main_v106 : Mat 1 32) (((cfg9.win 2).blk t).view.emb (ix2 p q)) = _
  refine congrArg _ (funext fun ax => Fin.ext ?_)
  match ax with
  | ⟨0, _⟩ => show win9_2.index t (0 : Fin 2) * 1 + 1 * p.val = p.val; rw [e4]; omega
  | ⟨1, _⟩ => show win9_2.index t (1 : Fin 2) * 32 + 1 * q.val = q.val; rw [e5]; omega

/-- The block of the second weights is the whole array. -/
theorem w2_read (c : Dev nD) (t : Fin cfg9.N) : iblk9 V c 3 t = (V c main_arg11 : Mat 32 1) := by
  obtain ⟨e0, e1, e2, e3, e4, e5, e6, e7, e8, e9, e10, e11⟩ := idx_facts t
  funext y
  obtain ⟨p, q, rfl⟩ : ∃ (p : Fin 32) (q : Fin 1), y = ix2 p q := ⟨y 0, y 1, eq_ix2 y⟩
  show (V c main_arg11 : Mat 32 1) (((cfg9.win 3).blk t).view.emb (ix2 p q)) = _
  refine congrArg _ (funext fun ax => Fin.ext ?_)
  match ax with
  | ⟨0, _⟩ => show win9_3.index t (0 : Fin 2) * 32 + 1 * p.val = p.val; rw [e6]; omega
  | ⟨1, _⟩ => show win9_3.index t (1 : Fin 2) * 1 + 1 * q.val = q.val; rw [e7]; omega

/-- The block of the second bias is the whole row. -/
theorem b2_read (c : Dev nD) (t : Fin cfg9.N) : iblk9 V c 4 t = (V c main_v107 : Mat 1 1) := by
  obtain ⟨e0, e1, e2, e3, e4, e5, e6, e7, e8, e9, e10, e11⟩ := idx_facts t
  funext y
  obtain ⟨p, q, rfl⟩ : ∃ (p : Fin 1) (q : Fin 1), y = ix2 p q := ⟨y 0, y 1, eq_ix2 y⟩
  show (V c main_v107 : Mat 1 1) (((cfg9.win 4).blk t).view.emb (ix2 p q)) = _
  refine congrArg _ (funext fun ax => Fin.ext ?_)
  match ax with
  | ⟨0, _⟩ => show win9_4.index t (0 : Fin 2) * 1 + 1 * p.val = p.val; rw [e8]; omega
  | ⟨1, _⟩ => show win9_4.index t (1 : Fin 2) * 1 + 1 * q.val = q.val; rw [e9]; omega

/-- The whole-array function the region computes. -/
abbrev whole (c : Dev nD) : Mat 2048 1 :=
  readout (V c main_v105) (V c main_arg9) (V c main_v106) (V c main_arg11) (V c main_v107)

/-- What the point writes back is the only block of the whole-array function. -/
theorem flushed_eq (c : Dev nD) (t : Fin cfg9.N) :
    (dat9 V c).flushed 5 t = ((cfg9.win 5).blk t).view.read (Elt Ideal) (whole V c) := by
  show (cfg9.win 5).cut (grid9.coords t) ((dat9 V c).after 5 t) = _
  rw [after9_5]
  unfold out9_5
  rw [View.canon_unit_zero hz]
  simp only [View.ld_unit_zero (S := S2048x64) hz, View.ld_unit_zero (S := S64x32) hz, View.ld_unit_zero (S := S1x32) hz,
    View.ld_unit_zero (S := S32x1) hz, View.ld_unit_zero (S := S1x1) hz]
  obtain ⟨e0, e1, e2, e3, e4, e5, e6, e7, e8, e9, e10, e11⟩ := idx_facts t
  funext j
  obtain ⟨p, q, rfl⟩ : ∃ (p : Fin 2048) (q : Fin 1), j = ix2 p q := ⟨j 0, j 1, eq_ix2 j⟩
  show k9_pay1 (iblk9 V c 0 t) (iblk9 V c 1 t) (iblk9 V c 2 t) (iblk9 V c 3 t) (iblk9 V c 4 t) (ix2 p q)
      = whole V c (((cfg9.win 5).blk t).view.emb (ix2 p q))
  have hE : ((cfg9.win 5).blk t).view.emb (ix2 p q) = (ix2 p q : (⟨2, ![2048, 1]⟩ : Shape).Idx) :=
    funext fun a => Fin.ext (by
      match a with
      | ⟨0, _⟩ => show win9_5.index t (0 : Fin 2) * 2048 + 1 * p.val = p.val; rw [e10]; omega
      | ⟨1, _⟩ => show win9_5.index t (1 : Fin 2) * 1 + 1 * q.val = q.val; rw [e11]; omega)
  rw [hE, pooled_read V c t, w1_read V c t, b1_read V c t, w2_read V c t, b2_read V c t]
  exact body_apply (V c main_v105) (V c main_arg9) (V c main_v106) (V c main_arg11) (V c main_v107) p q

/-- An index of the array is in the point's block iff each coordinate is in the block's range on its axis. -/
theorem mem_blk (t : Fin cfg9.N) (i : S2048x1.Idx) :
    i ∈ ((cfg9.win 5).blk t).view.set ↔ ∀ a : Fin 2, win9_5.index t a * S2048x1.size a ≤ (i a).val
      ∧ (i a).val < win9_5.index t a * S2048x1.size a + S2048x1.size a := by
  show i ∈ ((View.whole main_v108).slice (win9_5.rect t)).set ↔ _
  rw [View.set_slice_whole, Rect.mem_set_unit]
  exact Iff.rfl

/-- The only block is the whole array. -/
theorem cover (i : S2048x1.Idx) :
    ∃ t : Fin cfg9.N, (cfg9.win 5).flush t = true ∧ i ∈ ((cfg9.win 5).blk t).view.set := by
  have hi0 : (i 0).val < 2048 := (i 0).isLt
  have hi1 : (i 1).val < 1 := (i 1).isLt
  obtain ⟨e0, e1, e2, e3, e4, e5, e6, e7, e8, e9, e10, e11⟩ := idx_facts t9_0
  refine ⟨t9_0, flush9_5 _, ?_⟩
  rw [mem_blk]
  intro a
  match a with
  | ⟨0, _⟩ =>
    show win9_5.index t9_0 (0 : Fin 2) * 2048 ≤ (i 0).val ∧ (i 0).val < win9_5.index t9_0 (0 : Fin 2) * 2048 + 2048
    rw [e10]; omega
  | ⟨1, _⟩ =>
    show win9_5.index t9_0 (1 : Fin 2) * 1 ≤ (i 1).val ∧ (i 1).val < win9_5.index t9_0 (1 : Fin 2) * 1 + 1
    rw [e11]; omega

/-- The array the region leaves. -/
theorem result (c : Dev nD) : (dat9 V c).arrAt 5 cfg9.N = whole V c :=
  (dat9 V c).arrAt_eq_of_cover 5 _ (fun t _ => flushed_eq V c t) cover

end Cert.KernelIdeal.Readout

end
-- ==== Proof.Chain.lean ====
/-
  The kernel program's result as a function of its arguments. The contents of the buffers are followed from the launch
  through the program's segments — a stretch of host operations rewrites its result buffers by the operations'
  functions of what was there, a region rewrites its output array by the function of whole arrays its blocks tile, and
  every other buffer is kept —, and at each step the buffer is recognised as a stage of the reference's own run: the
  edge endpoints, the normalisation factors and self-loop weights, each convolution's projection, its scaled gathered
  rows, their sum over the edges' targets, the convolution's result, and finally the pooled rows' read-out. The host
  operations between the regions are the same functions in both programs, so they are never opened: only the regions'
  dense pieces and the two spellings of a unit axis are compared.
-/
import proofs.«103547_j33792802685826_2_alg».proof.Proof.Gen.KernelIdeal.Frame
import proofs.«103547_j33792802685826_2_alg».proof.Proof.Gen.ReferenceIdeal.Read
import proofs.«103547_j33792802685826_2_alg».proof.Proof.Keep
import proofs.«103547_j33792802685826_2_alg».proof.Proof.RefLayers
import proofs.«103547_j33792802685826_2_alg».proof.Proof.LibUnitAxis
import proofs.«103547_j33792802685826_2_alg».proof.Proof.Scale1
import proofs.«103547_j33792802685826_2_alg».proof.Proof.Scale4
import proofs.«103547_j33792802685826_2_alg».proof.Proof.Scale7
import proofs.«103547_j33792802685826_2_alg».proof.Proof.SelfLoop2
import proofs.«103547_j33792802685826_2_alg».proof.Proof.SelfLoop5
import proofs.«103547_j33792802685826_2_alg».proof.Proof.SelfLoop8
import proofs.«103547_j33792802685826_2_alg».proof.Proof.Project0
import proofs.«103547_j33792802685826_2_alg».proof.Proof.Project3
import proofs.«103547_j33792802685826_2_alg».proof.Proof.Project6
import proofs.«103547_j33792802685826_2_alg».proof.Proof.Readout

set_option maxRecDepth 16384

noncomputable section

namespace Cert.KernelIdeal.Chain

open Cert.KernelIdeal Cert.KernelIdeal.Gen Idealize.ShloMosaic Idealize.ShloMosaic.TcCoe Idealize.SL.Sem
open Idealize.ShloMosaic.StableHlo
open Cert.GraphOps Cert.ReferenceIdeal.Read Cert.ReferenceIdeal.Layers

variable (m : (ℓ : Loc nD τ sig) → Buf (Elt Ideal) ℓ) (ρ : Dev nD → PrngReg)

/-! ## The arguments where the program reads them -/

theorem arg0_W1 (c : Dev nD) : W1 m ρ c (Proc.devRef .tc main_arg0) = m ((c : Thread nD τ).loc main_arg0) :=
  (Cert.KernelIdeal.Keep.keep1 m ρ c main_arg0 (by decide))
theorem arg3_W1 (c : Dev nD) : W1 m ρ c (Proc.devRef .tc main_arg3) = m ((c : Thread nD τ).loc main_arg3) :=
  (Cert.KernelIdeal.Keep.keep1 m ρ c main_arg3 (by decide))
theorem arg5_W6 (c : Dev nD) : W6 m ρ c (Proc.devRef .tc main_arg5) = m ((c : Thread nD τ).loc main_arg5) :=
  ((W6_of_ne m ρ c main_arg5 (by decide)).trans ((Cert.KernelIdeal.Keep.keep5 m ρ c main_arg5 (by decide)).trans ((W4_of_ne m ρ c main_arg5 (by decide)).trans ((Cert.KernelIdeal.Keep.keep3 m ρ c main_arg5 (by decide)).trans ((W2_of_ne m ρ c main_arg5 (by decide)).trans (Cert.KernelIdeal.Keep.keep1 m ρ c main_arg5 (by decide)))))))
theorem arg7_W11 (c : Dev nD) : W11 m ρ c (Proc.devRef .tc main_arg7) = m ((c : Thread nD τ).loc main_arg7) :=
  ((W11_of_ne m ρ c main_arg7 (by decide)).trans ((Cert.KernelIdeal.Keep.keep10 m ρ c main_arg7 (by decide)).trans ((W9_of_ne m ρ c main_arg7 (by decide)).trans ((Cert.KernelIdeal.Keep.keep8 m ρ c main_arg7 (by decide)).trans ((W7_of_ne m ρ c main_arg7 (by decide)).trans ((W6_of_ne m ρ c main_arg7 (by decide)).trans ((Cert.KernelIdeal.Keep.keep5 m ρ c main_arg7 (by decide)).trans ((W4_of_ne m ρ c main_arg7 (by decide)).trans ((Cert.KernelIdeal.Keep.keep3 m ρ c main_arg7 (by decide)).trans ((W2_of_ne m ρ c main_arg7 (by decide)).trans (Cert.KernelIdeal.Keep.keep1 m ρ c main_arg7 (by decide))))))))))))
theorem arg2_W16 (c : Dev nD) : W16 m ρ c (Proc.devRef .tc main_arg2) = m ((c : Thread nD τ).loc main_arg2) :=
  ((W16_of_ne m ρ c main_arg2 (by decide)).trans ((Cert.KernelIdeal.Keep.keep15 m ρ c main_arg2 (by decide)).trans ((W14_of_ne m ρ c main_arg2 (by decide)).trans ((Cert.KernelIdeal.Keep.keep13 m ρ c main_arg2 (by decide)).trans ((W12_of_ne m ρ c main_arg2 (by decide)).trans ((W11_of_ne m ρ c main_arg2 (by decide)).trans ((Cert.KernelIdeal.Keep.keep10 m ρ c main_arg2 (by decide)).trans ((W9_of_ne m ρ c main_arg2 (by decide)).trans ((Cert.KernelIdeal.Keep.keep8 m ρ c main_arg2 (by decide)).trans ((W7_of_ne m ρ c main_arg2 (by decide)).trans ((W6_of_ne m ρ c main_arg2 (by decide)).trans ((Cert.KernelIdeal.Keep.keep5 m ρ c main_arg2 (by decide)).trans ((W4_of_ne m ρ c main_arg2 (by decide)).trans ((Cert.KernelIdeal.Keep.keep3 m ρ c main_arg2 (by decide)).trans ((W2_of_ne m ρ c main_arg2 (by decide)).trans (Cert.KernelIdeal.Keep.keep1 m ρ c main_arg2 (by decide)))))))))))))))))
theorem arg10_W16 (c : Dev nD) : W16 m ρ c (Proc.devRef .tc main_arg10) = m ((c : Thread nD τ).loc main_arg10) :=
  ((W16_of_ne m ρ c main_arg10 (by decide)).trans ((Cert.KernelIdeal.Keep.keep15 m ρ c main_arg10 (by decide)).trans ((W14_of_ne m ρ c main_arg10 (by decide)).trans ((Cert.KernelIdeal.Keep.keep13 m ρ c main_arg10 (by decide)).trans ((W12_of_ne m ρ c main_arg10 (by decide)).trans ((W11_of_ne m ρ c main_arg10 (by decide)).trans ((Cert.KernelIdeal.Keep.keep10 m ρ c main_arg10 (by decide)).trans ((W9_of_ne m ρ c main_arg10 (by decide)).trans ((Cert.KernelIdeal.Keep.keep8 m ρ c main_arg10 (by decide)).trans ((W7_of_ne m ρ c main_arg10 (by decide)).trans ((W6_of_ne m ρ c main_arg10 (by decide)).trans ((Cert.KernelIdeal.Keep.keep5 m ρ c main_arg10 (by decide)).trans ((W4_of_ne m ρ c main_arg10 (by decide)).trans ((Cert.KernelIdeal.Keep.keep3 m ρ c main_arg10 (by decide)).trans ((W2_of_ne m ρ c main_arg10 (by decide)).trans (Cert.KernelIdeal.Keep.keep1 m ρ c main_arg10 (by decide)))))))))))))))))
theorem arg12_W16 (c : Dev nD) : W16 m ρ c (Proc.devRef .tc main_arg12) = m ((c : Thread nD τ).loc main_arg12) :=
  ((W16_of_ne m ρ c main_arg12 (by decide)).trans ((Cert.KernelIdeal.Keep.keep15 m ρ c main_arg12 (by decide)).trans ((W14_of_ne m ρ c main_arg12 (by decide)).trans ((Cert.KernelIdeal.Keep.keep13 m ρ c main_arg12 (by decide)).trans ((W12_of_ne m ρ c main_arg12 (by decide)).trans ((W11_of_ne m ρ c main_arg12 (by decide)).trans ((Cert.KernelIdeal.Keep.keep10 m ρ c main_arg12 (by decide)).trans ((W9_of_ne m ρ c main_arg12 (by decide)).trans ((Cert.KernelIdeal.Keep.keep8 m ρ c main_arg12 (by decide)).trans ((W7_of_ne m ρ c main_arg12 (by decide)).trans ((W6_of_ne m ρ c main_arg12 (by decide)).trans ((Cert.KernelIdeal.Keep.keep5 m ρ c main_arg12 (by decide)).trans ((W4_of_ne m ρ c main_arg12 (by decide)).trans ((Cert.KernelIdeal.Keep.keep3 m ρ c main_arg12 (by decide)).trans ((W2_of_ne m ρ c main_arg12 (by decide)).trans (Cert.KernelIdeal.Keep.keep1 m ρ c main_arg12 (by decide)))))))))))))))))
theorem arg9_W17 (c : Dev nD) : W17 m ρ c (Proc.devRef .tc main_arg9) = m ((c : Thread nD τ).loc main_arg9) :=
  ((Cert.KernelIdeal.Keep.keep17 m ρ c main_arg9 (by decide)).trans ((W16_of_ne m ρ c main_arg9 (by decide)).trans ((Cert.KernelIdeal.Keep.keep15 m ρ c main_arg9 (by decide)).trans ((W14_of_ne m ρ c main_arg9 (by decide)).trans ((Cert.KernelIdeal.Keep.keep13 m ρ c main_arg9 (by decide)).trans ((W12_of_ne m ρ c main_arg9 (by decide)).trans ((W11_of_ne m ρ c main_arg9 (by decide)).trans ((Cert.KernelIdeal.Keep.keep10 m ρ c main_arg9 (by decide)).trans ((W9_of_ne m ρ c main_arg9 (by decide)).trans ((Cert.KernelIdeal.Keep.keep8 m ρ c main_arg9 (by decide)).trans ((W7_of_ne m ρ c main_arg9 (by decide)).trans ((W6_of_ne m ρ c main_arg9 (by decide)).trans ((Cert.KernelIdeal.Keep.keep5 m ρ c main_arg9 (by decide)).trans ((W4_of_ne m ρ c main_arg9 (by decide)).trans ((Cert.KernelIdeal.Keep.keep3 m ρ c main_arg9 (by decide)).trans ((W2_of_ne m ρ c main_arg9 (by decide)).trans (Cert.KernelIdeal.Keep.keep1 m ρ c main_arg9 (by decide))))))))))))))))))
theorem arg11_W17 (c : Dev nD) : W17 m ρ c (Proc.devRef .tc main_arg11) = m ((c : Thread nD τ).loc main_arg11) :=
  ((Cert.KernelIdeal.Keep.keep17 m ρ c main_arg11 (by decide)).trans ((W16_of_ne m ρ c main_arg11 (by decide)).trans ((Cert.KernelIdeal.Keep.keep15 m ρ c main_arg11 (by decide)).trans ((W14_of_ne m ρ c main_arg11 (by decide)).trans ((Cert.KernelIdeal.Keep.keep13 m ρ c main_arg11 (by decide)).trans ((W12_of_ne m ρ c main_arg11 (by decide)).trans ((W11_of_ne m ρ c main_arg11 (by decide)).trans ((Cert.KernelIdeal.Keep.keep10 m ρ c main_arg11 (by decide)).trans ((W9_of_ne m ρ c main_arg11 (by decide)).trans ((Cert.KernelIdeal.Keep.keep8 m ρ c main_arg11 (by decide)).trans ((W7_of_ne m ρ c main_arg11 (by decide)).trans ((W6_of_ne m ρ c main_arg11 (by decide)).trans ((Cert.KernelIdeal.Keep.keep5 m ρ c main_arg11 (by decide)).trans ((W4_of_ne m ρ c main_arg11 (by decide)).trans ((Cert.KernelIdeal.Keep.keep3 m ρ c main_arg11 (by decide)).trans ((W2_of_ne m ρ c main_arg11 (by decide)).trans (Cert.KernelIdeal.Keep.keep1 m ρ c main_arg11 (by decide))))))))))))))))))

/-! ## The first stretch: the edge endpoints, the normalisation and the self-loop weights, the bias rows -/

theorem src_W1 (c : Dev nD) : W1 m ρ c (Proc.devRef .tc main_v1) = val_main_v1 (F := Ideal) (m ((c : Thread nD τ).loc main_arg1)) := by
  show StableHlo.after hostOps0 (W0 m ρ c) (Proc.devRef .tc main_v1) = _
  dsimp only [hostOps0]
  after_results
  rfl
theorem dst_W1 (c : Dev nD) : W1 m ρ c (Proc.devRef .tc main_v3) = val_main_v3 (F := Ideal) (m ((c : Thread nD τ).loc main_arg1)) := by
  show StableHlo.after hostOps0 (W0 m ρ c) (Proc.devRef .tc main_v3) = _
  dsimp only [hostOps0]
  after_results
  rfl
theorem dis_W1 (c : Dev nD) : W1 m ρ c (Proc.devRef .tc main_v10) = val_main_v10 (F := Ideal) (m ((c : Thread nD τ).loc main_arg1)) := by
  show StableHlo.after hostOps0 (W0 m ρ c) (Proc.devRef .tc main_v10) = _
  dsimp only [hostOps0]
  after_results
  rfl
theorem dsq_W1 (c : Dev nD) : W1 m ρ c (Proc.devRef .tc main_v12) = val_main_v41 (F := Ideal) (m ((c : Thread nD τ).loc main_arg1)) := by
  have h : W1 m ρ c (Proc.devRef .tc main_v12) = shapeCast S100000x1 (val_main_v40 (F := Ideal) (m ((c : Thread nD τ).loc main_arg1))) shapeCasts_S100000_S100000x1 := by
    show StableHlo.after hostOps0 (W0 m ρ c) (Proc.devRef .tc main_v12) = _
    dsimp only [hostOps0]
    after_results
    rfl
  rw [h]
  unfold val_main_v41
  exact Cert.UnitAxis.col_eq _ _ _
theorem bias1_W1 (c : Dev nD) : W1 m ρ c (Proc.devRef .tc main_v13) = val_main_v45 (F := Ideal) (m ((c : Thread nD τ).loc main_arg4)) := by
  have h : W1 m ρ c (Proc.devRef .tc main_v13) = shapeCast S1x64 (m ((c : Thread nD τ).loc main_arg4)) shapeCasts_S64_S1x64 := by
    show StableHlo.after hostOps0 (W0 m ρ c) (Proc.devRef .tc main_v13) = _
    dsimp only [hostOps0]
    after_results
    rfl
  rw [h]
  unfold val_main_v45
  exact Cert.UnitAxis.row_eq _ _ _
theorem bias2_W1 (c : Dev nD) : W1 m ρ c (Proc.devRef .tc main_v14) = val_main_v45 (F := Ideal) (m ((c : Thread nD τ).loc main_arg6)) := by
  have h : W1 m ρ c (Proc.devRef .tc main_v14) = shapeCast S1x64 (m ((c : Thread nD τ).loc main_arg6)) shapeCasts_S64_S1x64 := by
    show StableHlo.after hostOps0 (W0 m ρ c) (Proc.devRef .tc main_v14) = _
    dsimp only [hostOps0]
    after_results
    rfl
  rw [h]
  unfold val_main_v45
  exact Cert.UnitAxis.row_eq _ _ _
theorem bias3_W1 (c : Dev nD) : W1 m ρ c (Proc.devRef .tc main_v15) = val_main_v45 (F := Ideal) (m ((c : Thread nD τ).loc main_arg8)) := by
  have h : W1 m ρ c (Proc.devRef .tc main_v15) = shapeCast S1x64 (m ((c : Thread nD τ).loc main_arg8)) shapeCasts_S64_S1x64 := by
    show StableHlo.after hostOps0 (W0 m ρ c) (Proc.devRef .tc main_v15) = _
    dsimp only [hostOps0]
    after_results
    rfl
  rw [h]
  unfold val_main_v45
  exact Cert.UnitAxis.row_eq _ _ _

/-! ## The same buffers where later segments read them -/

theorem src_W2 (c : Dev nD) : W2 m ρ c (Proc.devRef .tc main_v1) = val_main_v1 (F := Ideal) (m ((c : Thread nD τ).loc main_arg1)) :=
  (W2_of_ne m ρ c main_v1 (by decide)).trans (src_W1 m ρ c)
theorem src_W7 (c : Dev nD) : W7 m ρ c (Proc.devRef .tc main_v1) = val_main_v1 (F := Ideal) (m ((c : Thread nD τ).loc main_arg1)) :=
  ((W7_of_ne m ρ c main_v1 (by decide)).trans ((W6_of_ne m ρ c main_v1 (by decide)).trans ((Cert.KernelIdeal.Keep.keep5 m ρ c main_v1 (by decide)).trans ((W4_of_ne m ρ c main_v1 (by decide)).trans (Cert.KernelIdeal.Keep.keep3 m ρ c main_v1 (by decide)))))).trans (src_W2 m ρ c)
theorem src_W12 (c : Dev nD) : W12 m ρ c (Proc.devRef .tc main_v1) = val_main_v1 (F := Ideal) (m ((c : Thread nD τ).loc main_arg1)) :=
  ((W12_of_ne m ρ c main_v1 (by decide)).trans ((W11_of_ne m ρ c main_v1 (by decide)).trans ((Cert.KernelIdeal.Keep.keep10 m ρ c main_v1 (by decide)).trans ((W9_of_ne m ρ c main_v1 (by decide)).trans (Cert.KernelIdeal.Keep.keep8 m ρ c main_v1 (by decide)))))).trans (src_W7 m ρ c)
theorem dst_W2 (c : Dev nD) : W2 m ρ c (Proc.devRef .tc main_v3) = val_main_v3 (F := Ideal) (m ((c : Thread nD τ).loc main_arg1)) :=
  (W2_of_ne m ρ c main_v3 (by decide)).trans (dst_W1 m ρ c)
theorem dst_W4 (c : Dev nD) : W4 m ρ c (Proc.devRef .tc main_v3) = val_main_v3 (F := Ideal) (m ((c : Thread nD τ).loc main_arg1)) :=
  ((W4_of_ne m ρ c main_v3 (by decide)).trans (Cert.KernelIdeal.Keep.keep3 m ρ c main_v3 (by decide))).trans (dst_W2 m ρ c)
theorem dst_W7 (c : Dev nD) : W7 m ρ c (Proc.devRef .tc main_v3) = val_main_v3 (F := Ideal) (m ((c : Thread nD τ).loc main_arg1)) :=
  ((W7_of_ne m ρ c main_v3 (by decide)).trans ((W6_of_ne m ρ c main_v3 (by decide)).trans (Cert.KernelIdeal.Keep.keep5 m ρ c main_v3 (by decide)))).trans (dst_W4 m ρ c)
theorem dst_W9 (c : Dev nD) : W9 m ρ c (Proc.devRef .tc main_v3) = val_main_v3 (F := Ideal) (m ((c : Thread nD τ).loc main_arg1)) :=
  ((W9_of_ne m ρ c main_v3 (by decide)).trans (Cert.KernelIdeal.Keep.keep8 m ρ c main_v3 (by decide))).trans (dst_W7 m ρ c)
theorem dst_W12 (c : Dev nD) : W12 m ρ c (Proc.devRef .tc main_v3) = val_main_v3 (F := Ideal) (m ((c : Thread nD τ).loc main_arg1)) :=
  ((W12_of_ne m ρ c main_v3 (by decide)).trans ((W11_of_ne m ρ c main_v3 (by decide)).trans (Cert.KernelIdeal.Keep.keep10 m ρ c main_v3 (by decide)))).trans (dst_W9 m ρ c)
theorem dst_W14 (c : Dev nD) : W14 m ρ c (Proc.devRef .tc main_v3) = val_main_v3 (F := Ideal) (m ((c : Thread nD τ).loc main_arg1)) :=
  ((W14_of_ne m ρ c main_v3 (by decide)).trans (Cert.KernelIdeal.Keep.keep13 m ρ c main_v3 (by decide))).trans (dst_W12 m ρ c)
theorem dis_W2 (c : Dev nD) : W2 m ρ c (Proc.devRef .tc main_v10) = val_main_v10 (F := Ideal) (m ((c : Thread nD τ).loc main_arg1)) :=
  (W2_of_ne m ρ c main_v10 (by decide)).trans (dis_W1 m ρ c)
theorem dis_W7 (c : Dev nD) : W7 m ρ c (Proc.devRef .tc main_v10) = val_main_v10 (F := Ideal) (m ((c : Thread nD τ).loc main_arg1)) :=
  ((W7_of_ne m ρ c main_v10 (by decide)).trans ((W6_of_ne m ρ c main_v10 (by decide)).trans ((Cert.KernelIdeal.Keep.keep5 m ρ c main_v10 (by decide)).trans ((W4_of_ne m ρ c main_v10 (by decide)).trans (Cert.KernelIdeal.Keep.keep3 m ρ c main_v10 (by decide)))))).trans (dis_W2 m ρ c)
theorem dis_W12 (c : Dev nD) : W12 m ρ c (Proc.devRef .tc main_v10) = val_main_v10 (F := Ideal) (m ((c : Thread nD τ).loc main_arg1)) :=
  ((W12_of_ne m ρ c main_v10 (by decide)).trans ((W11_of_ne m ρ c main_v10 (by decide)).trans ((Cert.KernelIdeal.Keep.keep10 m ρ c main_v10 (by decide)).trans ((W9_of_ne m ρ c main_v10 (by decide)).trans (Cert.KernelIdeal.Keep.keep8 m ρ c main_v10 (by decide)))))).trans (dis_W7 m ρ c)
theorem dsq_W5 (c : Dev nD) : W5 m ρ c (Proc.devRef .tc main_v12) = val_main_v41 (F := Ideal) (m ((c : Thread nD τ).loc main_arg1)) :=
  ((Cert.KernelIdeal.Keep.keep5 m ρ c main_v12 (by decide)).trans ((W4_of_ne m ρ c main_v12 (by decide)).trans ((Cert.KernelIdeal.Keep.keep3 m ρ c main_v12 (by decide)).trans (W2_of_ne m ρ c main_v12 (by decide))))).trans (dsq_W1 m ρ c)
theorem dsq_W10 (c : Dev nD) : W10 m ρ c (Proc.devRef .tc main_v12) = val_main_v41 (F := Ideal) (m ((c : Thread nD τ).loc main_arg1)) :=
  ((Cert.KernelIdeal.Keep.keep10 m ρ c main_v12 (by decide)).trans ((W9_of_ne m ρ c main_v12 (by decide)).trans ((Cert.KernelIdeal.Keep.keep8 m ρ c main_v12 (by decide)).trans ((W7_of_ne m ρ c main_v12 (by decide)).trans ((W6_arr m ρ c 2).trans (((dat2 (V5 m ρ) c).arrAt_in 2 rfl _).trans (A_eq2 (V5 m ρ) c 2))))))).trans (dsq_W5 m ρ c)
theorem dsq_W15 (c : Dev nD) : W15 m ρ c (Proc.devRef .tc main_v12) = val_main_v41 (F := Ideal) (m ((c : Thread nD τ).loc main_arg1)) :=
  ((Cert.KernelIdeal.Keep.keep15 m ρ c main_v12 (by decide)).trans ((W14_of_ne m ρ c main_v12 (by decide)).trans ((Cert.KernelIdeal.Keep.keep13 m ρ c main_v12 (by decide)).trans ((W12_of_ne m ρ c main_v12 (by decide)).trans ((W11_arr m ρ c 2).trans (((dat5 (V10 m ρ) c).arrAt_in 2 rfl _).trans (A_eq5 (V10 m ρ) c 2))))))).trans (dsq_W10 m ρ c)
theorem bias1_W5 (c : Dev nD) : W5 m ρ c (Proc.devRef .tc main_v13) = val_main_v45 (F := Ideal) (m ((c : Thread nD τ).loc main_arg4)) :=
  ((Cert.KernelIdeal.Keep.keep5 m ρ c main_v13 (by decide)).trans ((W4_of_ne m ρ c main_v13 (by decide)).trans ((Cert.KernelIdeal.Keep.keep3 m ρ c main_v13 (by decide)).trans (W2_of_ne m ρ c main_v13 (by decide))))).trans (bias1_W1 m ρ c)
theorem bias2_W10 (c : Dev nD) : W10 m ρ c (Proc.devRef .tc main_v14) = val_main_v45 (F := Ideal) (m ((c : Thread nD τ).loc main_arg6)) :=
  ((Cert.KernelIdeal.Keep.keep10 m ρ c main_v14 (by decide)).trans ((W9_of_ne m ρ c main_v14 (by decide)).trans ((Cert.KernelIdeal.Keep.keep8 m ρ c main_v14 (by decide)).trans ((W7_of_ne m ρ c main_v14 (by decide)).trans ((W6_of_ne m ρ c main_v14 (by decide)).trans ((Cert.KernelIdeal.Keep.keep5 m ρ c main_v14 (by decide)).trans ((W4_of_ne m ρ c main_v14 (by decide)).trans ((Cert.KernelIdeal.Keep.keep3 m ρ c main_v14 (by decide)).trans (W2_of_ne m ρ c main_v14 (by decide)))))))))).trans (bias2_W1 m ρ c)
theorem bias3_W15 (c : Dev nD) : W15 m ρ c (Proc.devRef .tc main_v15) = val_main_v45 (F := Ideal) (m ((c : Thread nD τ).loc main_arg8)) :=
  ((Cert.KernelIdeal.Keep.keep15 m ρ c main_v15 (by decide)).trans ((W14_of_ne m ρ c main_v15 (by decide)).trans ((Cert.KernelIdeal.Keep.keep13 m ρ c main_v15 (by decide)).trans ((W12_of_ne m ρ c main_v15 (by decide)).trans ((W11_of_ne m ρ c main_v15 (by decide)).trans ((Cert.KernelIdeal.Keep.keep10 m ρ c main_v15 (by decide)).trans ((W9_of_ne m ρ c main_v15 (by decide)).trans ((Cert.KernelIdeal.Keep.keep8 m ρ c main_v15 (by decide)).trans ((W7_of_ne m ρ c main_v15 (by decide)).trans ((W6_of_ne m ρ c main_v15 (by decide)).trans ((Cert.KernelIdeal.Keep.keep5 m ρ c main_v15 (by decide)).trans ((W4_of_ne m ρ c main_v15 (by decide)).trans ((Cert.KernelIdeal.Keep.keep3 m ρ c main_v15 (by decide)).trans (W2_of_ne m ρ c main_v15 (by decide))))))))))))))).trans (bias3_W1 m ρ c)

/-! ## The first projection -/

theorem proj1_W2 (c : Dev nD) : W2 m ρ c (Proc.devRef .tc main_v16) = rowsCols 100000 128 64 (m ((c : Thread nD τ).loc main_arg0)) (m ((c : Thread nD τ).loc main_arg3)) := by
  refine (W2_arr m ρ c 2).trans ((Project0.result (V1 m ρ) c).trans ?_)
  show rowsCols 100000 128 64 (W1 m ρ c (Proc.devRef .tc main_arg0)) (W1 m ρ c (Proc.devRef .tc main_arg3)) = _
  rw [arg0_W1 m ρ c, arg3_W1 m ρ c]

/-! ## Convolution 1 -/

theorem proj1_W5 (c : Dev nD) : W5 m ρ c (Proc.devRef .tc main_v16) = (rowsCols 100000 128 64 (m ((c : Thread nD τ).loc main_arg0)) (m ((c : Thread nD τ).loc main_arg3))) :=
  ((Cert.KernelIdeal.Keep.keep5 m ρ c main_v16 (by decide)).trans ((W4_of_ne m ρ c main_v16 (by decide)).trans (Cert.KernelIdeal.Keep.keep3 m ρ c main_v16 (by decide)))).trans (proj1_W2 m ρ c)

set_option maxHeartbeats 8000000 in
/-- The projected rows gathered along the edges' sources. -/
theorem gathered1 (c : Dev nD) : W3 m ρ c (Proc.devRef .tc main_v39)
    = Host.gather Cert.ReferenceIdeal.gather_S100000x64_S1600000x1_S1600000x64_1_0_n_n_0_1_164 (rowsCols 100000 128 64 (m ((c : Thread nD τ).loc main_arg0)) (m ((c : Thread nD τ).loc main_arg3))) (val_main_v32 (F := Ideal) (m ((c : Thread nD τ).loc main_arg1))) := by
  show StableHlo.after hostOps1 (W2 m ρ c) (Proc.devRef .tc main_v39) = _
  dsimp only [hostOps1]
  after_results_simp
  rw [proj1_W2 m ρ c, src_W2 m ρ c]
  rfl

set_option maxHeartbeats 8000000 in
/-- The edges' normalisation factors as a column. -/
theorem normcol1 (c : Dev nD) : W3 m ρ c (Proc.devRef .tc main_v32) = val_main_v34 (F := Ideal) (m ((c : Thread nD τ).loc main_arg1)) := by
  have h : W3 m ρ c (Proc.devRef .tc main_v32)
      = shapeCast S1600000x1 (val_main_v26 (F := Ideal) (m ((c : Thread nD τ).loc main_arg1))) shapeCasts_S1600000_S1600000x1 := by
    show StableHlo.after hostOps1 (W2 m ρ c) (Proc.devRef .tc main_v32) = _
    dsimp only [hostOps1]
    after_results_simp
    rw [dis_W2 m ρ c, src_W2 m ρ c, dst_W2 m ρ c]
    rfl
  rw [h]
  unfold val_main_v34
  exact Cert.UnitAxis.col_eq _ _ _

/-- The gathered rows scaled by the factors. -/
theorem scaled1 (c : Dev nD) : W4 m ρ c (Proc.devRef .tc main_v40)
    = scaleRows 1600000 64 (Host.gather Cert.ReferenceIdeal.gather_S100000x64_S1600000x1_S1600000x64_1_0_n_n_0_1_164 (rowsCols 100000 128 64 (m ((c : Thread nD τ).loc main_arg0)) (m ((c : Thread nD τ).loc main_arg3))) (val_main_v32 (F := Ideal) (m ((c : Thread nD τ).loc main_arg1)))) (val_main_v34 (F := Ideal) (m ((c : Thread nD τ).loc main_arg1))) := by
  refine (W4_arr m ρ c 2).trans ((Scale1.result (V3 m ρ) c).trans ?_)
  show scaleRows 1600000 64 (W3 m ρ c (Proc.devRef .tc main_v39)) (W3 m ρ c (Proc.devRef .tc main_v32)) = _
  rw [gathered1 m ρ c, normcol1 m ρ c]

/-- The scaled rows summed into the edges' targets. -/
theorem agg1 (c : Dev nD) : W5 m ρ c (Proc.devRef .tc main_v43) = neighbours (m ((c : Thread nD τ).loc main_arg1)) (rowsCols 100000 128 64 (m ((c : Thread nD τ).loc main_arg0)) (m ((c : Thread nD τ).loc main_arg3))) := by
  show StableHlo.after hostOps2 (W4 m ρ c) (Proc.devRef .tc main_v43) = _
  dsimp only [hostOps2]
  after_results
  rw [scaled1 m ρ c, dst_W4 m ρ c]
  rfl

/-- The convolution's result is the reference's. -/
theorem conv1 (c : Dev nD) : W6 m ρ c (Proc.devRef .tc main_v44) = (val_main_v48 (F := Ideal) (m ((c : Thread nD τ).loc main_arg0)) (m ((c : Thread nD τ).loc main_arg1)) (m ((c : Thread nD τ).loc main_arg3)) (m ((c : Thread nD τ).loc main_arg4))) := by
  refine (W6_arr m ρ c 4).trans ((SelfLoop2.result (V5 m ρ) c).trans ?_)
  show rectify (selfLoop 100000 64 (W5 m ρ c (Proc.devRef .tc main_v43)) (W5 m ρ c (Proc.devRef .tc main_v16)) (W5 m ρ c (Proc.devRef .tc main_v12))
      (W5 m ρ c (Proc.devRef .tc main_v13))) = _
  rw [agg1 m ρ c, proj1_W5 m ρ c, dsq_W5 m ρ c, bias1_W5 m ρ c]
  exact (layer1 (m ((c : Thread nD τ).loc main_arg0)) (m ((c : Thread nD τ).loc main_arg1)) (m ((c : Thread nD τ).loc main_arg3)) (m ((c : Thread nD τ).loc main_arg4))).symm

/-- The next projection: the convolution's rows against the next weights. -/
theorem proj2_W7 (c : Dev nD) : W7 m ρ c (Proc.devRef .tc main_v45) = (rowsCols 100000 64 64 (val_main_v48 (F := Ideal) (m ((c : Thread nD τ).loc main_arg0)) (m ((c : Thread nD τ).loc main_arg1)) (m ((c : Thread nD τ).loc main_arg3)) (m ((c : Thread nD τ).loc main_arg4))) (m ((c : Thread nD τ).loc main_arg5))) := by
  refine (W7_arr m ρ c 2).trans ((Project3.result (V6 m ρ) c).trans ?_)
  show rowsCols 100000 64 64 (W6 m ρ c (Proc.devRef .tc main_v44)) (W6 m ρ c (Proc.devRef .tc main_arg5)) = _
  rw [conv1 m ρ c, arg5_W6 m ρ c]

/-! ## Convolution 2 -/

theorem proj2_W10 (c : Dev nD) : W10 m ρ c (Proc.devRef .tc main_v45) = (rowsCols 100000 64 64 (val_main_v48 (F := Ideal) (m ((c : Thread nD τ).loc main_arg0)) (m ((c : Thread nD τ).loc main_arg1)) (m ((c : Thread nD τ).loc main_arg3)) (m ((c : Thread nD τ).loc main_arg4))) (m ((c : Thread nD τ).loc main_arg5))) :=
  ((Cert.KernelIdeal.Keep.keep10 m ρ c main_v45 (by decide)).trans ((W9_of_ne m ρ c main_v45 (by decide)).trans (Cert.KernelIdeal.Keep.keep8 m ρ c main_v45 (by decide)))).trans (proj2_W7 m ρ c)

set_option maxHeartbeats 8000000 in
/-- The projected rows gathered along the edges' sources. -/
theorem gathered2 (c : Dev nD) : W8 m ρ c (Proc.devRef .tc main_v68)
    = Host.gather Cert.ReferenceIdeal.gather_S100000x64_S1600000x1_S1600000x64_1_0_n_n_0_1_164 (rowsCols 100000 64 64 (val_main_v48 (F := Ideal) (m ((c : Thread nD τ).loc main_arg0)) (m ((c : Thread nD τ).loc main_arg1)) (m ((c : Thread nD τ).loc main_arg3)) (m ((c : Thread nD τ).loc main_arg4))) (m ((c : Thread nD τ).loc main_arg5))) (val_main_v32 (F := Ideal) (m ((c : Thread nD τ).loc main_arg1))) := by
  show StableHlo.after hostOps4 (W7 m ρ c) (Proc.devRef .tc main_v68) = _
  dsimp only [hostOps4]
  after_results_simp
  rw [proj2_W7 m ρ c, src_W7 m ρ c]
  rfl

set_option maxHeartbeats 8000000 in
/-- The edges' normalisation factors as a column. -/
theorem normcol2 (c : Dev nD) : W8 m ρ c (Proc.devRef .tc main_v61) = val_main_v34 (F := Ideal) (m ((c : Thread nD τ).loc main_arg1)) := by
  have h : W8 m ρ c (Proc.devRef .tc main_v61)
      = shapeCast S1600000x1 (val_main_v26 (F := Ideal) (m ((c : Thread nD τ).loc main_arg1))) shapeCasts_S1600000_S1600000x1 := by
    show StableHlo.after hostOps4 (W7 m ρ c) (Proc.devRef .tc main_v61) = _
    dsimp only [hostOps4]
    after_results_simp
    rw [dis_W7 m ρ c, src_W7 m ρ c, dst_W7 m ρ c]
    rfl
  rw [h]
  unfold val_main_v34
  exact Cert.UnitAxis.col_eq _ _ _

/-- The gathered rows scaled by the factors. -/
theorem scaled2 (c : Dev nD) : W9 m ρ c (Proc.devRef .tc main_v69)
    = scaleRows 1600000 64 (Host.gather Cert.ReferenceIdeal.gather_S100000x64_S1600000x1_S1600000x64_1_0_n_n_0_1_164 (rowsCols 100000 64 64 (val_main_v48 (F := Ideal) (m ((c : Thread nD τ).loc main_arg0)) (m ((c : Thread nD τ).loc main_arg1)) (m ((c : Thread nD τ).loc main_arg3)) (m ((c : Thread nD τ).loc main_arg4))) (m ((c : Thread nD τ).loc main_arg5))) (val_main_v32 (F := Ideal) (m ((c : Thread nD τ).loc main_arg1)))) (val_main_v34 (F := Ideal) (m ((c : Thread nD τ).loc main_arg1))) := by
  refine (W9_arr m ρ c 2).trans ((Scale4.result (V8 m ρ) c).trans ?_)
  show scaleRows 1600000 64 (W8 m ρ c (Proc.devRef .tc main_v68)) (W8 m ρ c (Proc.devRef .tc main_v61)) = _
  rw [gathered2 m ρ c, normcol2 m ρ c]

/-- The scaled rows summed into the edges' targets. -/
theorem agg2 (c : Dev nD) : W10 m ρ c (Proc.devRef .tc main_v72) = neighbours (m ((c : Thread nD τ).loc main_arg1)) (rowsCols 100000 64 64 (val_main_v48 (F := Ideal) (m ((c : Thread nD τ).loc main_arg0)) (m ((c : Thread nD τ).loc main_arg1)) (m ((c : Thread nD τ).loc main_arg3)) (m ((c : Thread nD τ).loc main_arg4))) (m ((c : Thread nD τ).loc main_arg5))) := by
  show StableHlo.after hostOps5 (W9 m ρ c) (Proc.devRef .tc main_v72) = _
  dsimp only [hostOps5]
  after_results
  rw [scaled2 m ρ c, dst_W9 m ρ c]
  rfl

/-- The convolution's result is the reference's. -/
theorem conv2 (c : Dev nD) : W11 m ρ c (Proc.devRef .tc main_v73) = (val_main_v86 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) := by
  refine (W11_arr m ρ c 4).trans ((SelfLoop5.result (V10 m ρ) c).trans ?_)
  show rectify (selfLoop 100000 64 (W10 m ρ c (Proc.devRef .tc main_v72)) (W10 m ρ c (Proc.devRef .tc main_v45)) (W10 m ρ c (Proc.devRef .tc main_v12))
      (W10 m ρ c (Proc.devRef .tc main_v14))) = _
  rw [agg2 m ρ c, proj2_W10 m ρ c, dsq_W10 m ρ c, bias2_W10 m ρ c]
  exact (layer2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))).symm

/-- The next projection: the convolution's rows against the next weights. -/
theorem proj3_W12 (c : Dev nD) : W12 m ρ c (Proc.devRef .tc main_v74) = (rowsCols 100000 64 64 (val_main_v86 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (m ((c : Thread nD τ).loc main_arg7))) := by
  refine (W12_arr m ρ c 2).trans ((Project6.result (V11 m ρ) c).trans ?_)
  show rowsCols 100000 64 64 (W11 m ρ c (Proc.devRef .tc main_v73)) (W11 m ρ c (Proc.devRef .tc main_arg7)) = _
  rw [conv2 m ρ c, arg7_W11 m ρ c]

/-! ## Convolution 3 -/

theorem proj3_W15 (c : Dev nD) : W15 m ρ c (Proc.devRef .tc main_v74) = (rowsCols 100000 64 64 (val_main_v86 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (m ((c : Thread nD τ).loc main_arg7))) :=
  ((Cert.KernelIdeal.Keep.keep15 m ρ c main_v74 (by decide)).trans ((W14_of_ne m ρ c main_v74 (by decide)).trans (Cert.KernelIdeal.Keep.keep13 m ρ c main_v74 (by decide)))).trans (proj3_W12 m ρ c)

set_option maxHeartbeats 8000000 in
/-- The projected rows gathered along the edges' sources. -/
theorem gathered3 (c : Dev nD) : W13 m ρ c (Proc.devRef .tc main_v97)
    = Host.gather Cert.ReferenceIdeal.gather_S100000x64_S1600000x1_S1600000x64_1_0_n_n_0_1_164 (rowsCols 100000 64 64 (val_main_v86 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (m ((c : Thread nD τ).loc main_arg7))) (val_main_v32 (F := Ideal) (m ((c : Thread nD τ).loc main_arg1))) := by
  show StableHlo.after hostOps7 (W12 m ρ c) (Proc.devRef .tc main_v97) = _
  dsimp only [hostOps7]
  after_results_simp
  rw [proj3_W12 m ρ c, src_W12 m ρ c]
  rfl

set_option maxHeartbeats 8000000 in
/-- The edges' normalisation factors as a column. -/
theorem normcol3 (c : Dev nD) : W13 m ρ c (Proc.devRef .tc main_v90) = val_main_v34 (F := Ideal) (m ((c : Thread nD τ).loc main_arg1)) := by
  have h : W13 m ρ c (Proc.devRef .tc main_v90)
      = shapeCast S1600000x1 (val_main_v26 (F := Ideal) (m ((c : Thread nD τ).loc main_arg1))) shapeCasts_S1600000_S1600000x1 := by
    show StableHlo.after hostOps7 (W12 m ρ c) (Proc.devRef .tc main_v90) = _
    dsimp only [hostOps7]
    after_results_simp
    rw [dis_W12 m ρ c, src_W12 m ρ c, dst_W12 m ρ c]
    rfl
  rw [h]
  unfold val_main_v34
  exact Cert.UnitAxis.col_eq _ _ _

/-- The gathered rows scaled by the factors. -/
theorem scaled3 (c : Dev nD) : W14 m ρ c (Proc.devRef .tc main_v98)
    = scaleRows 1600000 64 (Host.gather Cert.ReferenceIdeal.gather_S100000x64_S1600000x1_S1600000x64_1_0_n_n_0_1_164 (rowsCols 100000 64 64 (val_main_v86 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (m ((c : Thread nD τ).loc main_arg7))) (val_main_v32 (F := Ideal) (m ((c : Thread nD τ).loc main_arg1)))) (val_main_v34 (F := Ideal) (m ((c : Thread nD τ).loc main_arg1))) := by
  refine (W14_arr m ρ c 2).trans ((Scale7.result (V13 m ρ) c).trans ?_)
  show scaleRows 1600000 64 (W13 m ρ c (Proc.devRef .tc main_v97)) (W13 m ρ c (Proc.devRef .tc main_v90)) = _
  rw [gathered3 m ρ c, normcol3 m ρ c]

/-- The scaled rows summed into the edges' targets. -/
theorem agg3 (c : Dev nD) : W15 m ρ c (Proc.devRef .tc main_v101) = neighbours (m ((c : Thread nD τ).loc main_arg1)) (rowsCols 100000 64 64 (val_main_v86 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (m ((c : Thread nD τ).loc main_arg7))) := by
  show StableHlo.after hostOps8 (W14 m ρ c) (Proc.devRef .tc main_v101) = _
  dsimp only [hostOps8]
  after_results
  rw [scaled3 m ρ c, dst_W14 m ρ c]
  rfl

/-- The convolution's result is the reference's. -/
theorem conv3 (c : Dev nD) : W16 m ρ c (Proc.devRef .tc main_v102) = (val_main_v123 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  refine (W16_arr m ρ c 4).trans ((SelfLoop8.result (V15 m ρ) c).trans ?_)
  show selfLoop 100000 64 (W15 m ρ c (Proc.devRef .tc main_v101)) (W15 m ρ c (Proc.devRef .tc main_v74)) (W15 m ρ c (Proc.devRef .tc main_v12))
      (W15 m ρ c (Proc.devRef .tc main_v15)) = _
  rw [agg3 m ρ c, proj3_W15 m ρ c, dsq_W15 m ρ c, bias3_W15 m ρ c]
  exact (layer3 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))).symm

/-! ## The pooling and the read-out -/

/-- The node rows summed into their graphs. -/
theorem pooled (c : Dev nD) : W17 m ρ c (Proc.devRef .tc main_v105)
    = (Host.scatterAdd (F := Ideal) Cert.ReferenceIdeal.scatter_S2048x64_S100000x1_S100000x64_1_0_0_1 (val_main_v124 (F := Ideal)) (val_main_v125 (F := Ideal) (m ((c : Thread nD τ).loc main_arg2))) (val_main_v123 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) : Mat 2048 64) := by
  show StableHlo.after hostOps9 (W16 m ρ c) (Proc.devRef .tc main_v105) = _
  dsimp only [hostOps9]
  after_results
  rw [conv3 m ρ c, arg2_W16 m ρ c]
  rfl
theorem b1row (c : Dev nD) : W17 m ρ c (Proc.devRef .tc main_v106) = val_main_v128 (F := Ideal) (m ((c : Thread nD τ).loc main_arg10)) := by
  have h : W17 m ρ c (Proc.devRef .tc main_v106) = shapeCast S1x32 (m ((c : Thread nD τ).loc main_arg10)) shapeCasts_S32_S1x32 := by
    show StableHlo.after hostOps9 (W16 m ρ c) (Proc.devRef .tc main_v106) = _
    dsimp only [hostOps9]
    after_results
    rw [arg10_W16 m ρ c]
    rfl
  rw [h]
  unfold val_main_v128
  exact Cert.UnitAxis.row_eq _ _ _
theorem b2row (c : Dev nD) : W17 m ρ c (Proc.devRef .tc main_v107) = val_main_v133 (F := Ideal) (m ((c : Thread nD τ).loc main_arg12)) := by
  have h : W17 m ρ c (Proc.devRef .tc main_v107) = shapeCast S1x1 (m ((c : Thread nD τ).loc main_arg12)) shapeCasts_S1_S1x1 := by
    show StableHlo.after hostOps9 (W16 m ρ c) (Proc.devRef .tc main_v107) = _
    dsimp only [hostOps9]
    after_results
    rw [arg12_W16 m ρ c]
    rfl
  rw [h]
  unfold val_main_v133
  exact Cert.UnitAxis.row_eq _ _ _

/-- The program's result buffer after the last region is the reference's last stage of the same arguments. -/
theorem value (c : Dev nD) : W18 m ρ c (Proc.devRef .tc main_v108)
    = val_main_v135 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (W18_arr m ρ c 5).trans ((Readout.result (V17 m ρ) c).trans ?_)
  show Readout.readout (W17 m ρ c (Proc.devRef .tc main_v105)) (W17 m ρ c (Proc.devRef .tc main_arg9)) (W17 m ρ c (Proc.devRef .tc main_v106))
      (W17 m ρ c (Proc.devRef .tc main_arg11)) (W17 m ρ c (Proc.devRef .tc main_v107)) = _
  rw [pooled m ρ c, arg9_W17 m ρ c, b1row m ρ c, arg11_W17 m ρ c, b2row m ρ c]
  exact (Cert.ReferenceIdeal.Layers.result _ _ _ _ _ _ _ _ _ _ _ _ _).symm

end Cert.KernelIdeal.Chain

end
-- ==== Proof.lean ====
/-
  A three-layer graph-convolution network with a pooled two-layer read-out, computed by ten tiled kernel regions among
  host gathers and scatter-adds, against the same network written as plain array operations.

  The two programs apply the SAME host operations — the slicing of the edge list, the degree count by scatter-add and
  its reciprocal square root, the gathers along the edges, the scatter-adds into the edges' targets and into the
  graphs — to the same values, so those are never opened. What differs is how the dense pieces are computed: the
  kernel projects the node rows block by block with a product into a zero accumulator where the reference has one
  whole `dot_general` (both are the sum over the shared axis of the products of the entries; the change of float
  format before the kernel's product is the identity on the extended reals); it scales the gathered rows and adds the
  self-loop term and the bias block by block, with the one-column factors viewed through a change of shape where the
  reference repeats them along a new axis; and it computes the read-out in one block. Each region's blocks tile its
  output array, so the array each leaves is one function of whole arrays, and these functions compose along the
  program to the reference's own run. No law used needs the entries to be finite: sums of extended reals are taken in a
  commutative monoid, and every product, sum and maximum is the same one on both sides.

  The frames of the two kernel programs are the generated frame certificates; the reference's frame is its generated
  run with the result dropped; the idealization ledger is empty.
-/
import proofs.«103547_j33792802685826_2_alg».proof.Defs
import proofs.«103547_j33792802685826_2_alg».proof.Proof.Gen.Kernel
import proofs.«103547_j33792802685826_2_alg».proof.Proof.Gen.Kernel.Skeleton
import proofs.«103547_j33792802685826_2_alg».proof.Proof.Gen.Kernel.Launch
import proofs.«103547_j33792802685826_2_alg».proof.Proof.Gen.Kernel.Points
import proofs.«103547_j33792802685826_2_alg».proof.Proof.Gen.Kernel.Frame
import proofs.«103547_j33792802685826_2_alg».proof.Proof.Gen.KernelIdeal
import proofs.«103547_j33792802685826_2_alg».proof.Proof.Gen.KernelIdeal.Skeleton
import proofs.«103547_j33792802685826_2_alg».proof.Proof.Gen.KernelIdeal.Launch
import proofs.«103547_j33792802685826_2_alg».proof.Proof.Gen.KernelIdeal.Points
import proofs.«103547_j33792802685826_2_alg».proof.Proof.Gen.KernelIdeal.Frame
import proofs.«103547_j33792802685826_2_alg».proof.Proof.Gen.ReferenceIdeal
import proofs.«103547_j33792802685826_2_alg».proof.Proof.Gen.Pre_finite_inputs
import proofs.«103547_j33792802685826_2_alg».proof.Proof.Gen.ReferenceIdeal.Run
import proofs.«103547_j33792802685826_2_alg».proof.Proof.Gen.ReferenceIdeal.Read
import proofs.«103547_j33792802685826_2_alg».proof.Proof.KernelRun
import proofs.«103547_j33792802685826_2_alg».proof.Proof.Chain
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with the reference's last stage of the arguments: the kernel's by following its segments, the
    reference's by its run; the arguments agree. -/
theorem algebraic : Cert.algebraic_KernelIdeal_ReferenceIdeal := by
  intro m ρ m' ρ' _ hagree
  refine ⟨fun c => Cert.KernelIdeal.Gen.W18 m ρ c (Proc.devRef .tc Cert.KernelIdeal.main_v108),
    Cert.KernelIdeal.Whole.run_named m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12⟩ := hagree c
  rw [Cert.ReferenceIdeal.Read.val_main_v135_eq, a0, a1, a2, a3, a4, a5, a6, a7, a8, a9, a10, a11, a12]
  exact (Cert.KernelIdeal.Chain.value m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
